-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) (main_arg2 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩

abbrev nBuf : Space → Nat
  | .hbm => 18
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096, .i32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512, .i32⟩
  | .local _ .vmem, ⟨5, _⟩ => ⟨S512, .i32⟩
  | .local _ .vmem, ⟨6, _⟩ => ⟨S512, .i32⟩
  | .local _ .vmem, ⟨7, _⟩ => ⟨S512, .i32⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S512, .f32⟩
  | .local _ .vmem, ⟨13, _⟩ => ⟨S512, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v158 : BitVec 1 := Scalar.cmpi .eq arg1 c7_i32
  let v159 : BitVec 32 := Scalar.extui v158
  let c0_i32_73 : BitVec 32 := 0#32
  let v160 : BitVec 1 := Scalar.cmpi .ne v159 c0_i32_73
  v160

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S512x2048_p1_0_S2048x512 : S512x2048.Transposes [1, 0] S2048x512
  reduces_S512x2048_S512 : S512x2048.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512_S512_0 : ∀ a, (![0] : Fin 1 → Nat) a + S512.size a ≤ S512.size a
  h_S512 : 0 < S512.numel
  iota_S512x1_d0_w32 : S512x1.Iotas .tc 32 [0]
  iota_S1x512_d1_w32 : S1x512.Iotas .tc 32 [1]
  reduces_S512x512_S512 : S512x512.Reduces [1] S512
  natLt_1_32 : 1 < 32
  shapeCasts_S512x1_S512 : S512x1.ShapeCasts S512
  reducesTo_S4096_S_d0 : S4096.ReducesTo [0] S_
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .i32 = 32 ∨ (Rect.block (s := S4096) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .i32 = 32 ∨ (Rect.block (s := S4096) S512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .i32 = 32 ∨ (Rect.block (s := S4096) S512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .i32 = 32 ∨ (Rect.block (s := S4096) S512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S4096.size a
  hwx0_6 : ∀ i : grid0.Coords, EltTy.bits .f32 = 32 ∨ (Rect.block (s := S4096) S512.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v4) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 159
  | .vmem => 0
  | .smem => 0
  | _ => 0

abbrev hbmTy0_0 (i : Nat) : BufTy := match i % 128 with
  | 0 => ⟨S4096x2048, .f32⟩
  | 1 => ⟨S4096, .i32⟩
  | 2 => ⟨S4096, .i32⟩
  | 3 => ⟨S4096x2048, .f32⟩
  | 4 => ⟨S_, .f32⟩
  | 5 => ⟨S4096, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x2048, .f32⟩
  | 12 => ⟨S4096x2048, .f32⟩
  | 13 => ⟨S4096x2048, .f32⟩
  | 14 => ⟨S_, .f32⟩
  | 15 => ⟨S4096, .f32⟩
  | 16 => ⟨S4096x1, .f32⟩
  | 17 => ⟨S1x4096, .f32⟩
  | 18 => ⟨S4096x4096, .f32⟩
  | 19 => ⟨S4096x4096, .f32⟩
  | 20 => ⟨S4096x4096, .f32⟩
  | 21 => ⟨S2048x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S4096x4096, .i1⟩
  | 37 => ⟨S4096x1, .i32⟩
  | 38 => ⟨S1x4096, .i32⟩
  | 39 => ⟨S4096x4096, .i32⟩
  | 40 => ⟨S4096x4096, .i32⟩
  | 41 => ⟨S4096x4096, .i1⟩
  | 42 => ⟨S4096x4096, .i1⟩
  | 43 => ⟨S4096x4096, .i1⟩
  | 44 => ⟨S4096x4096, .i1⟩
  | 45 => ⟨S4096x1, .i32⟩
  | 46 => ⟨S1x4096, .i32⟩
  | 47 => ⟨S4096x4096, .i32⟩
  | 48 => ⟨S4096x4096, .i32⟩
  | 49 => ⟨S4096x4096, .i1⟩
  | 50 => ⟨S4096x4096, .i1⟩
  | 51 => ⟨S4096x4096, .i1⟩
  | 52 => ⟨S4096x4096, .i1⟩
  | 53 => ⟨S4096x4096, .i1⟩
  | 54 => ⟨S4096x4096, .i1⟩
  | 55 => ⟨S4096x4096, .i1⟩
  | 56 => ⟨S_, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S4096x4096, .i32⟩
  | 63 => ⟨S_, .i32⟩
  | 64 => ⟨S4096, .i32⟩
  | 65 => ⟨S4096, .f32⟩
  | 66 => ⟨S_, .f32⟩
  | 67 => ⟨S_, .f32⟩
  | 68 => ⟨S4096x4096, .f32⟩
  | 69 => ⟨S4096x4096, .f32⟩
  | 70 => ⟨S_, .f32⟩
  | 71 => ⟨S4096, .f32⟩
  | 72 => ⟨S_, .f32⟩
  | 73 => ⟨S4096, .f32⟩
  | 74 => ⟨S4096, .f32⟩
  | 75 => ⟨S4096, .f32⟩
  | 76 => ⟨S_, .f32⟩
  | 77 => ⟨S4096x4096, .f32⟩
  | 78 => ⟨S4096x4096, .f32⟩
  | 79 => ⟨S_, .f32⟩
  | 80 => ⟨S4096x4096, .f32⟩
  | 81 => ⟨S4096x4096, .f32⟩
  | 82 => ⟨S4096x4096, .i32⟩
  | 83 => ⟨S_, .i32⟩
  | 84 => ⟨S4096, .i32⟩
  | 85 => ⟨S4096, .f32⟩
  | 86 => ⟨S_, .f32⟩
  | 87 => ⟨S_, .f32⟩
  | 88 => ⟨S4096x4096, .f32⟩
  | 89 => ⟨S4096x4096, .f32⟩
  | 90 => ⟨S_, .f32⟩
  | 91 => ⟨S4096, .f32⟩
  | 92 => ⟨S_, .f32⟩
  | 93 => ⟨S4096, .f32⟩
  | 94 => ⟨S4096, .f32⟩
  | 95 => ⟨S4096, .f32⟩
  | 96 => ⟨S4096, .f32⟩
  | 97 => ⟨S_, .f32⟩
  | 98 => ⟨S4096x4096, .f32⟩
  | 99 => ⟨S4096x4096, .i1⟩
  | 100 => ⟨S4096x4096, .i1⟩
  | 101 => ⟨S_, .f32⟩
  | 102 => ⟨S4096x4096, .f32⟩
  | 103 => ⟨S4096x4096, .f32⟩
  | 104 => ⟨S_, .f32⟩
  | 105 => ⟨S4096x4096, .f32⟩
  | 106 => ⟨S4096x4096, .f32⟩
  | 107 => ⟨S4096x4096, .f32⟩
  | 108 => ⟨S_, .f32⟩
  | 109 => ⟨S_, .f32⟩
  | 110 => ⟨S4096x4096, .f32⟩
  | 111 => ⟨S4096x4096, .f32⟩
  | 112 => ⟨S_, .f32⟩
  | 113 => ⟨S_, .f32⟩
  | 114 => ⟨S4096x4096, .f32⟩
  | 115 => ⟨S4096x4096, .f32⟩
  | 116 => ⟨S4096x4096, .f32⟩
  | 117 => ⟨S_, .f32⟩
  | 118 => ⟨S4096, .f32⟩
  | 119 => ⟨S_, .f32⟩
  | 120 => ⟨S4096, .f32⟩
  | 121 => ⟨S_, .f32⟩
  | 122 => ⟨S4096, .f32⟩
  | 123 => ⟨S4096, .f32⟩
  | 124 => ⟨S4096, .f32⟩
  | 125 => ⟨S4096, .f32⟩
  | 126 => ⟨S_, .f32⟩
  | 127 => ⟨S4096x4096, .f32⟩
  | _ => ⟨S4096x2048, .f32⟩

abbrev hbmTy0_1 (i : Nat) : BufTy := match i % 128 with
  | 0 => ⟨S4096x4096, .i1⟩
  | 1 => ⟨S4096x4096, .i1⟩
  | 2 => ⟨S_, .f32⟩
  | 3 => ⟨S4096x4096, .f32⟩
  | 4 => ⟨S4096x4096, .f32⟩
  | 5 => ⟨S_, .f32⟩
  | 6 => ⟨S4096x4096, .f32⟩
  | 7 => ⟨S4096x4096, .f32⟩
  | 8 => ⟨S4096x4096, .f32⟩
  | 9 => ⟨S_, .f32⟩
  | 10 => ⟨S_, .f32⟩
  | 11 => ⟨S4096x4096, .f32⟩
  | 12 => ⟨S4096x4096, .f32⟩
  | 13 => ⟨S_, .f32⟩
  | 14 => ⟨S_, .f32⟩
  | 15 => ⟨S4096x4096, .f32⟩
  | 16 => ⟨S4096x4096, .f32⟩
  | 17 => ⟨S4096x4096, .f32⟩
  | 18 => ⟨S_, .f32⟩
  | 19 => ⟨S4096, .f32⟩
  | 20 => ⟨S_, .f32⟩
  | 21 => ⟨S4096, .f32⟩
  | 22 => ⟨S_, .f32⟩
  | 23 => ⟨S4096, .f32⟩
  | 24 => ⟨S4096, .f32⟩
  | 25 => ⟨S4096, .f32⟩
  | 26 => ⟨S4096, .f32⟩
  | 27 => ⟨S_, .f32⟩
  | 28 => ⟨S_, .f32⟩
  | 29 => ⟨S_, .f32⟩
  | 30 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_call3_v0 : Ref sig .tc := ⟨.hbm, 109, rfl⟩
abbrev main_call3_v1 : Ref sig .tc := ⟨.hbm, 110, rfl⟩
abbrev main_v77 : Ref sig .tc := ⟨.hbm, 111, rfl⟩
abbrev main_cst_19 : Ref sig .tc := ⟨.hbm, 112, rfl⟩
abbrev main_call4_v0 : Ref sig .tc := ⟨.hbm, 113, rfl⟩
abbrev main_call4_v1 : Ref sig .tc := ⟨.hbm, 114, rfl⟩
abbrev main_v78 : Ref sig .tc := ⟨.hbm, 115, rfl⟩
abbrev main_v79 : Ref sig .tc := ⟨.hbm, 116, rfl⟩
abbrev main_cst_20 : Ref sig .tc := ⟨.hbm, 117, rfl⟩
abbrev main_v80 : Ref sig .tc := ⟨.hbm, 118, rfl⟩
abbrev main_cst_21 : Ref sig .tc := ⟨.hbm, 119, rfl⟩
abbrev main_v81 : Ref sig .tc := ⟨.hbm, 120, rfl⟩
abbrev main_cst_22 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_23 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_24 : Ref sig .tc := ⟨.hbm, 130, rfl⟩
abbrev main_v89 : Ref sig .tc := ⟨.hbm, 131, rfl⟩
abbrev main_v90 : Ref sig .tc := ⟨.hbm, 132, rfl⟩
abbrev main_cst_25 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_26 : Ref sig .tc := ⟨.hbm, 137, rfl⟩
abbrev main_call5_v0 : Ref sig .tc := ⟨.hbm, 138, rfl⟩
abbrev main_call5_v1 : Ref sig .tc := ⟨.hbm, 139, rfl⟩
abbrev main_v94 : Ref sig .tc := ⟨.hbm, 140, rfl⟩
abbrev main_cst_27 : Ref sig .tc := ⟨.hbm, 141, rfl⟩
abbrev main_call6_v0 : Ref sig .tc := ⟨.hbm, 142, rfl⟩
abbrev main_call6_v1 : Ref sig .tc := ⟨.hbm, 143, rfl⟩
abbrev main_v95 : Ref sig .tc := ⟨.hbm, 144, rfl⟩
abbrev main_v96 : Ref sig .tc := ⟨.hbm, 145, rfl⟩
abbrev main_cst_28 : Ref sig .tc := ⟨.hbm, 146, rfl⟩
abbrev main_v97 : Ref sig .tc := ⟨.hbm, 147, rfl⟩
abbrev main_cst_29 : Ref sig .tc := ⟨.hbm, 148, rfl⟩
abbrev main_v98 : Ref sig .tc := ⟨.hbm, 149, rfl⟩
abbrev main_cst_30 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_31 : Ref sig .tc := ⟨.hbm, 155, rfl⟩
abbrev main_v103 : Ref sig .tc := ⟨.hbm, 156, rfl⟩
abbrev main_cst_32 : Ref sig .tc := ⟨.hbm, 157, rfl⟩
abbrev main_v104 : Ref sig .tc := ⟨.hbm, 158, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  natLt_1_32 : 1 < 32
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KBShared.lean ====
/-
  What the frame of the ranking-loss kernel is stated over.

  The kernel runs on an 8 × 8 grid, the column block innermost: point t = 8·bi + bj works on row block bi and column
  block bj. At bj = 0 it zeroes its eight accumulators; at every point it adds the column block's eight lane sums to
  them; at bj = 7 it writes the row block's 512 losses into the output block. So a point is in one of three cases:
  first column block (reset, no output), a middle one (neither), the last one (output written). The output window is
  idle, and not written back, except in the last case. The row-side windows (0, 2, 4) move only when bi changes; the
  column-side windows (1, 3, 5) move at every point; each holds its block of the array as the region found it.
-/
import proofs.«125663_j9543417332489_1_alg».proof.Proof.Gen.Kernel.Launch
import proofs.«125663_j9543417332489_1_alg».proof.Proof.Gen.Kernel.Skeleton
import proofs.«125663_j9543417332489_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, -/
abbrev W0 (c : Dev nD) : Valuation τ sig (Elt F) := fun b => m (c, b)
/-- after the row norms have been computed, -/
abbrev W1 (c : Dev nD) : Valuation τ sig (Elt F) := StableHlo.after hostOps0 (W0 m c)
/-- and after the rows have been divided by their clamped norms: what the region finds. -/
abbrev W2 (c : Dev nD) : Valuation τ sig (Elt F) := StableHlo.after hostOps0_1 (W1 m c)
/-- The same read at a TensorCore reference. -/
abbrev V (c : Dev nD) (b : Ref sig .tc) : Buf (Elt F) ((c : Thread nD τ).loc b) := W2 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the block
    index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The reset's condition: the column block is the first. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- The output's condition: the column block is the last. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt_in : ∀ (w : Fin 7), w.val < 6 → ∀ i : grid0.Coords, cfg0.idle w i = false := by
  intro w hw i
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
/-- Off the last column block the output window is idle and is not written back. -/
theorem idleAt6 : ∀ t : Fin cfg0.N, ¬cond1 (grid0.coords t) → cfg0.idle 6 (grid0.coords t) = true := by decide +kernel
theorem noFlush6 : ∀ t : Fin cfg0.N, ¬cond1 (grid0.coords t) → (cfg0.win 6).flush t = false := by decide +kernel
/-- At the last column block it is live. -/
theorem liveAt6 : ∀ t : Fin cfg0.N, cond1 (grid0.coords t) → cfg0.idle 6 (grid0.coords t) = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512 .f32 := win0_6.stage (cfg0.slots t 6)
abbrev hs6 (t : Fin cfg0.N) : (ms6 t).IsWhole := hstage0_6 ((cfg0.slots t 6).cast nbuf0_6)
/-- The eight accumulators: whole scoped buffers of the kernel's own. -/
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x1 .f32 := Memref.whole cc0_scratch5
abbrev sc6 : Memref sig .tc .vmem S512x1 .f32 := Memref.whole cc0_scratch6
abbrev sc7 : Memref sig .tc .vmem S512x1 .f32 := Memref.whole cc0_scratch7

/-- The scoped buffers that are no staging buffer are the eight accumulators, each owned whole at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)
        ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) := by
  rw [scopedRest0_eq]; simp only [sc0, sc1, sc2, sc3, sc4, sc5, sc6, sc7, owns_whole]; try rfl

end Cert.Kernel.Hand

end
-- ==== Proof.KBRunA.lean ====
/-
  The body's run in the case of the first column block of a row block: the accumulators are zeroed, then the block's lane sums are added; nothing is stored into the output block.
  On whole staging memrefs holding the six input blocks, the body runs to its end without a fault, leaves the inputs as
  they were, and leaves in each accumulator (and, in the last case, in the output block) a list of written pieces that
  the run itself finds.
-/
import proofs.«125663_j9543417332489_1_alg».proof.Proof.KBShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    Σ' (L6 : List (View.Piece (Elt F) S512 .f32)) (LS0 LS1 LS2 LS3 LS4 LS5 LS6 : List (View.Piece (Elt F) S512x1 .f32)), { LS7 : List (View.Piece (Elt F) S512x1 .f32) //
      ∀ (xi6 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ (∃ f, arg16.view.loc (c : Thread nD τ) ↦[arg16.view.set]{fullShare} arg16.view.writes (Elt F) f LS7)) -∗ K ⟨⟩))
          ⊢ wp frame (wpE (defs₀ (F := F)) Variants.none c none) E (cc0__rank_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, ?_, ?_, ?_, ?_, fun xi6 E K => ?run⟩
  case run =>
    simp only [cc0__rank_loss_kernel_eq_skeleton]; unfold cc0__rank_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Hand

end
-- ==== Proof.KBRunB.lean ====
/-
  The body's run in the case of a middle column block: the block's lane sums are added to what the point before left in the accumulators; nothing is stored into the output block.
  On whole staging memrefs holding the six input blocks, the body runs to its end without a fault, leaves the inputs as
  they were, and leaves in each accumulator (and, in the last case, in the output block) a list of written pieces that
  the run itself finds.
-/
import proofs.«125663_j9543417332489_1_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32)
    (xs0 xs1 xs2 xs3 xs4 xs5 xs6 xs7 : Vec F S512x1 .f32) :
    Σ' (L6 : List (View.Piece (Elt F) S512 .f32)) (LS0 LS1 LS2 LS3 LS4 LS5 LS6 : List (View.Piece (Elt F) S512x1 .f32)), { LS7 : List (View.Piece (Elt F) S512x1 .f32) //
      ∀ (xi6 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ (∃ f, arg16.view.loc (c : Thread nD τ) ↦[arg16.view.set]{fullShare} arg16.view.writes (Elt F) f LS7)) -∗ K ⟨⟩))
          ⊢ wp frame (wpE (defs₀ (F := F)) Variants.none c none) E (cc0__rank_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, ?_, ?_, ?_, ?_, fun xi6 E K => ?run⟩
  case run =>
    simp only [cc0__rank_loss_kernel_eq_skeleton]; unfold cc0__rank_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Hand

end
-- ==== Proof.KBRunC.lean ====
/-
  The body's run in the case of the last column block: the lane sums are added, and the row block's losses, computed from the eight finished accumulators, are stored into the output block.
  On whole staging memrefs holding the six input blocks, the body runs to its end without a fault, leaves the inputs as
  they were, and leaves in each accumulator (and, in the last case, in the output block) a list of written pieces that
  the run itself finds.
-/
import proofs.«125663_j9543417332489_1_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32)
    (xs0 xs1 xs2 xs3 xs4 xs5 xs6 xs7 : Vec F S512x1 .f32) :
    Σ' (L6 : List (View.Piece (Elt F) S512 .f32)) (LS0 LS1 LS2 LS3 LS4 LS5 LS6 : List (View.Piece (Elt F) S512x1 .f32)), { LS7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ (∃ f, arg16.view.loc (c : Thread nD τ) ↦[arg16.view.set]{fullShare} arg16.view.writes (Elt F) f LS7)) -∗ K ⟨⟩))
          ⊢ wp frame (wpE (defs₀ (F := F)) Variants.none c none) E (cc0__rank_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0__rank_loss_kernel_eq_skeleton]; unfold cc0__rank_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Hand

end
-- ==== Proof.KBOuts.lean ====
/-
  What each case of the ranking-loss kernel's body leaves in the eight accumulators and in the output block: the
  pieces the case's run wrote, read back; the pieces of every accumulator (and, in the last case, of the output block)
  tile it, so what was there before does not matter.
-/
import proofs.«125663_j9543417332489_1_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the accumulators as views, through which contents are stated. -/
abbrev VO6 : View sig .tc .vmem S512 .f32 := (Memref.whole cc0_stg6_0 : Memref sig .tc .vmem S512 .f32).view
abbrev VS0 : View sig .tc .vmem S512x1 .f32 := (sc0).view
abbrev VS1 : View sig .tc .vmem S512x1 .f32 := (sc1).view
abbrev VS2 : View sig .tc .vmem S512x1 .f32 := (sc2).view
abbrev VS3 : View sig .tc .vmem S512x1 .f32 := (sc3).view
abbrev VS4 : View sig .tc .vmem S512x1 .f32 := (sc4).view
abbrev VS5 : View sig .tc .vmem S512x1 .f32 := (sc5).view
abbrev VS6 : View sig .tc .vmem S512x1 .f32 := (sc6).view
abbrev VS7 : View sig .tc .vmem S512x1 .f32 := (sc7).view

/-! ## Case A -/

theorem scoverA_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1 S512x1.size (by sl_kernel_rfl) y
theorem scoverA_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1 S512x1.size (by sl_kernel_rfl) y
theorem scoverA_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1 S512x1.size (by sl_kernel_rfl) y
theorem scoverA_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1 S512x1.size (by sl_kernel_rfl) y
theorem scoverA_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1 S512x1.size (by sl_kernel_rfl) y
theorem scoverA_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.1 S512x1.size (by sl_kernel_rfl) y
theorem scoverA_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.1 S512x1.size (by sl_kernel_rfl) y
theorem scoverA_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.2.1 S512x1.size (by sl_kernel_rfl) y

/-- What case A leaves in the eight accumulators: its pieces read back. -/
def soutA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) : Fin 8 → Vec F S512x1 .f32 := fun k => match k with
  | ⟨0, _⟩ => VS0.read (Elt F) (VS0.writes (Elt F) VS0.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1)
  | ⟨1, _⟩ => VS1.read (Elt F) (VS1.writes (Elt F) VS1.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1)
  | ⟨2, _⟩ => VS2.read (Elt F) (VS2.writes (Elt F) VS2.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1)
  | ⟨3, _⟩ => VS3.read (Elt F) (VS3.writes (Elt F) VS3.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1)
  | ⟨4, _⟩ => VS4.read (Elt F) (VS4.writes (Elt F) VS4.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1)
  | ⟨5, _⟩ => VS5.read (Elt F) (VS5.writes (Elt F) VS5.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.1)
  | ⟨6, _⟩ => VS6.read (Elt F) (VS6.writes (Elt F) VS6.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.1)
  | ⟨7, _⟩ => VS7.read (Elt F) (VS7.writes (Elt F) VS7.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.2.1)

/-- What case A leaves in the output block (nothing: a placeholder nobody reads). -/
def outA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) : Vec F S512 .f32 :=
  VO6.read (Elt F) (VO6.writes (Elt F) VO6.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).1)

/-! ## Case B -/

theorem scoverB_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1 S512x1.size (by sl_kernel_rfl) y
theorem scoverB_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1 S512x1.size (by sl_kernel_rfl) y
theorem scoverB_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1 S512x1.size (by sl_kernel_rfl) y
theorem scoverB_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1 S512x1.size (by sl_kernel_rfl) y
theorem scoverB_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1 S512x1.size (by sl_kernel_rfl) y
theorem scoverB_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1 S512x1.size (by sl_kernel_rfl) y
theorem scoverB_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1 S512x1.size (by sl_kernel_rfl) y
theorem scoverB_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1 S512x1.size (by sl_kernel_rfl) y

/-- What case B leaves in the eight accumulators: its pieces read back. -/
def soutB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) : Fin 8 → Vec F S512x1 .f32 := fun k => match k with
  | ⟨0, _⟩ => VS0.read (Elt F) (VS0.writes (Elt F) VS0.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1)
  | ⟨1, _⟩ => VS1.read (Elt F) (VS1.writes (Elt F) VS1.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1)
  | ⟨2, _⟩ => VS2.read (Elt F) (VS2.writes (Elt F) VS2.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1)
  | ⟨3, _⟩ => VS3.read (Elt F) (VS3.writes (Elt F) VS3.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1)
  | ⟨4, _⟩ => VS4.read (Elt F) (VS4.writes (Elt F) VS4.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1)
  | ⟨5, _⟩ => VS5.read (Elt F) (VS5.writes (Elt F) VS5.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1)
  | ⟨6, _⟩ => VS6.read (Elt F) (VS6.writes (Elt F) VS6.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1)
  | ⟨7, _⟩ => VS7.read (Elt F) (VS7.writes (Elt F) VS7.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1)

/-- What case B leaves in the output block (nothing: a placeholder nobody reads). -/
def outB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) : Vec F S512 .f32 :=
  VO6.read (Elt F) (VO6.writes (Elt F) VO6.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1)

/-! ## Case C -/

theorem scoverC_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1 S512x1.size (by sl_kernel_rfl) y
theorem scoverC_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1 S512x1.size (by sl_kernel_rfl) y
theorem scoverC_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1 S512x1.size (by sl_kernel_rfl) y
theorem scoverC_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1 S512x1.size (by sl_kernel_rfl) y
theorem scoverC_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1 S512x1.size (by sl_kernel_rfl) y
theorem scoverC_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1 S512x1.size (by sl_kernel_rfl) y
theorem scoverC_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1 S512x1.size (by sl_kernel_rfl) y
theorem scoverC_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1 S512x1.size (by sl_kernel_rfl) y

/-- What case C leaves in the eight accumulators: its pieces read back. -/
def soutC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) : Fin 8 → Vec F S512x1 .f32 := fun k => match k with
  | ⟨0, _⟩ => VS0.read (Elt F) (VS0.writes (Elt F) VS0.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1)
  | ⟨1, _⟩ => VS1.read (Elt F) (VS1.writes (Elt F) VS1.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1)
  | ⟨2, _⟩ => VS2.read (Elt F) (VS2.writes (Elt F) VS2.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1)
  | ⟨3, _⟩ => VS3.read (Elt F) (VS3.writes (Elt F) VS3.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1)
  | ⟨4, _⟩ => VS4.read (Elt F) (VS4.writes (Elt F) VS4.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1)
  | ⟨5, _⟩ => VS5.read (Elt F) (VS5.writes (Elt F) VS5.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1)
  | ⟨6, _⟩ => VS6.read (Elt F) (VS6.writes (Elt F) VS6.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1)
  | ⟨7, _⟩ => VS7.read (Elt F) (VS7.writes (Elt F) VS7.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1)

theorem coverC_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1 S512.size (by sl_kernel_rfl) y

/-- What case C leaves in the output block. -/
def outC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) : Vec F S512 .f32 :=
  VO6.read (Elt F) (VO6.writes (Elt F) VO6.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1)

end Cert.Kernel.Hand

end
-- ==== Proof.KBData.lean ====
/-
  What the eight accumulators and the output block of the ranking-loss kernel hold after every grid point, the
  invariant between points, and the pipeline's proof data.

  The contents are a recursion on the point: the first column block of a row block starts from nothing, every other
  column block from what the point before left in the accumulators. Between points the accumulators hold those
  contents (before the first point: anything), beside the generator register. The row-side and the column-side input
  windows of one array each hold half of it.
-/
import proofs.«125663_j9543417332489_1_alg».proof.Proof.KBOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators and the output block hold after each point -/

/-- After the body at position `n`: the output block's staging buffer, and the eight accumulators. -/
def outsAt (c : Dev nD) : (n : ℕ) → n < cfg0.N → Vec F S512 .f32 × (Fin 8 → Vec F S512x1 .f32)
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7), soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7))
      else
        (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7), soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7))

theorem outsAt_A (c : Dev nD) (t : Fin cfg0.N) (h0 : t.val % 8 = 0) (h1 : ¬t.val % 8 = 7) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t), soutA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7), soutB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7), soutC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulators hold anything; before any other, what the point before left. -/
def PhiS (c : Dev nD) : (n : ℕ) → n ≤ cfg0.N → sProp 𝕄
  | 0, _ => Pipeline.ΦA spec0 c
  | n + 1, hn => iprop(iprop(owns (c : Thread nD τ) sc0 fullShare ((outsAt m c n hn).2 0) ∗ owns (c : Thread nD τ) sc1 fullShare ((outsAt m c n hn).2 1) ∗ owns (c : Thread nD τ) sc2 fullShare ((outsAt m c n hn).2 2) ∗ owns (c : Thread nD τ) sc3 fullShare ((outsAt m c n hn).2 3) ∗ owns (c : Thread nD τ) sc4 fullShare ((outsAt m c n hn).2 4) ∗ owns (c : Thread nD τ) sc5 fullShare ((outsAt m c n hn).2 5) ∗ owns (c : Thread nD τ) sc6 fullShare ((outsAt m c n hn).2 6) ∗ owns (c : Thread nD τ) sc7 fullShare ((outsAt m c n hn).2 7)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((outsAt m c n hn).2 0) ∗ owns (c : Thread nD τ) sc1 fullShare ((outsAt m c n hn).2 1) ∗ owns (c : Thread nD τ) sc2 fullShare ((outsAt m c n hn).2 2) ∗ owns (c : Thread nD τ) sc3 fullShare ((outsAt m c n hn).2 3) ∗ owns (c : Thread nD τ) sc4 fullShare ((outsAt m c n hn).2 4) ∗ owns (c : Thread nD τ) sc5 fullShare ((outsAt m c n hn).2 5) ∗ owns (c : Thread nD τ) sc6 fullShare ((outsAt m c n hn).2 6) ∗ owns (c : Thread nD τ) sc7 fullShare ((outsAt m c n hn).2 7)) ∗ (∃ r, prngReg c r)) := rfl

theorem PhiS_pos (c : Dev nD) (n : ℕ) (h : n ≤ cfg0.N) (hz : n ≠ 0) :
    PhiS m c n h = iprop(iprop(owns (c : Thread nD τ) sc0 fullShare ((outsAt m c (n - 1) (by omega)).2 0) ∗ owns (c : Thread nD τ) sc1 fullShare ((outsAt m c (n - 1) (by omega)).2 1) ∗ owns (c : Thread nD τ) sc2 fullShare ((outsAt m c (n - 1) (by omega)).2 2) ∗ owns (c : Thread nD τ) sc3 fullShare ((outsAt m c (n - 1) (by omega)).2 3) ∗ owns (c : Thread nD τ) sc4 fullShare ((outsAt m c (n - 1) (by omega)).2 4) ∗ owns (c : Thread nD τ) sc5 fullShare ((outsAt m c (n - 1) (by omega)).2 5) ∗ owns (c : Thread nD τ) sc6 fullShare ((outsAt m c (n - 1) (by omega)).2 6) ∗ owns (c : Thread nD τ) sc7 fullShare ((outsAt m c (n - 1) (by omega)).2 7)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest_eq]

/-! ## The pipeline's proof data -/

/-- The arrays as the region finds them; after the body each input window's buffer at its block and the output's at
    `outsAt`; the invariant above; nothing owed. An array read through two windows is held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.Kernel.Hand

end
-- ==== Proof.KBBody.lean ====
/-
  The body obligation of the ranking-loss kernel's pipeline: at every grid point, from the invariant and the windows'
  current staging buffers, the body runs without a fault to the next invariant and the buffers it leaves.
-/
import proofs.«125663_j9543417332489_1_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the input windows' buffers hold their blocks; the point's case is decided by its position in
    the row block; the invariant hands over the accumulators at what the point before left (at anything before the
    first point) and takes them back at this point's contents; the output block is handed back untouched except in the
    last case, where it holds the row block's losses. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_in 0 (by decide) _], after0]
  rw [show (dats m 0 c).leavesExact 1 t = owns (c : Thread nD τ) (ms1 t) fullShare ((dats m 0 c).after 1 t) from by
    unfold Dat.leavesExact; rw [liveAt_in 1 (by decide) _], after1]
  rw [show (dats m 0 c).leavesExact 2 t = owns (c : Thread nD τ) (ms2 t) fullShare ((dats m 0 c).after 2 t) from by
    unfold Dat.leavesExact; rw [liveAt_in 2 (by decide) _], after2]
  rw [show (dats m 0 c).leavesExact 3 t = owns (c : Thread nD τ) (ms3 t) fullShare ((dats m 0 c).after 3 t) from by
    unfold Dat.leavesExact; rw [liveAt_in 3 (by decide) _], after3]
  rw [show (dats m 0 c).leavesExact 4 t = owns (c : Thread nD τ) (ms4 t) fullShare ((dats m 0 c).after 4 t) from by
    unfold Dat.leavesExact; rw [liveAt_in 4 (by decide) _], after4]
  rw [show (dats m 0 c).leavesExact 5 t = owns (c : Thread nD τ) (ms5 t) fullShare ((dats m 0 c).after 5 t) from by
    unfold Dat.leavesExact; rw [liveAt_in 5 (by decide) _], after5]
  have hN : t.val < 64 := lt_of_lt_of_eq t.isLt (show cfg0.N = 64 from N_0)
  by_cases h0 : t.val % 8 = 0
  · by_cases h1 : t.val % 8 = 7
    · exfalso; omega
    · rw [Dat.leavesExact_idle (dats m 0 c) 6 t (idleAt6 t (fun h => h1 ((hcond1 t).mp h))) (noFlush6 t (fun h => h1 ((hcond1 t).mp h)))]
      by_cases hz : t.val = 0
      · rw [PhiS_castSucc m c t, PhiS_zero m c t.val (Nat.le_of_lt t.isLt) hz, PhiA_eq]
        rw [outsAt_A m c t h0 h1]
        unfold soutA; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverA_4 c _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverA_5 c _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverA_6 c _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverA_7 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c t.val (Nat.le_of_lt t.isLt) hz]
        rw [outsAt_A m c t h0 h1]
        unfold soutA; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        isplitl [HS7]; · iexists _; iexact HS7
        iintro ⟨H0, H1, H2, H3, H4, H5, H6, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverA_4 c _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverA_5 c _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverA_6 c _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverA_7 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [show (dats m 0 c).leavesExact 6 t = owns (c : Thread nD τ) (ms6 t) fullShare ((dats m 0 c).after 6 t) from by
        unfold Dat.leavesExact; rw [liveAt6 t ((hcond1 t).mpr h1)], after6]
      rw [PhiS_castSucc m c t, PhiS_pos m c t.val (Nat.le_of_lt t.isLt) hz]
      rw [outsAt_C m c t h0 h1]
      unfold outC soutC; (try dsimp only)
      ·
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)).2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, ⟨%e6, H6⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverC_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverC_1 c _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverC_2 c _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverC_3 c _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverC_4 c _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverC_5 c _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverC_6 c _ _ _ _ _ _ _ _ _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverC_7 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverC_6 c _ _ _ _ _ _ _ _ _ _ _ _ _ _ _ _ _ _ _ _ _ _ _ _ _ _ _ _ _ _ _ _ _ _ _ _ _ _ _ _ _ _ _ _ _ _ _)
    · rw [Dat.leavesExact_idle (dats m 0 c) 6 t (idleAt6 t (fun h => h1 ((hcond1 t).mp h))) (noFlush6 t (fun h => h1 ((hcond1 t).mp h)))]
      rw [PhiS_castSucc m c t, PhiS_pos m c t.val (Nat.le_of_lt t.isLt) hz]
      rw [outsAt_B m c t h0 h1]
      unfold soutB; (try dsimp only)
      ·
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverB_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverB_1 c _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverB_2 c _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverB_3 c _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverB_4 c _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverB_5 c _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverB_6 c _ _ _ _ _ _ _ _ _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverB_7 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HS0, HS1, HS2, HS3, HS4, HS5, HS6, HS7⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

end Cert.Kernel.Hand

end
-- ==== Proof.LibShareDeal.lean ====
/-
  Dealing the shares of array buffers among the windows that read them.

  A pipelined kernel holds each window's array at a share of the buffer behind it. When several input windows read one
  and the same buffer, the buffer's full share has to be dealt among them before the region and gathered again after
  it. Three facts, none about a particular kernel:
    a separating product over a finite set, regrouped by the value of a function on the set (the windows by the buffer
    behind each);
    hence: if every array is a whole buffer and, buffer by buffer, the full share of the buffer is the product of the
    shares of the windows on it, then the distinct array buffers whole at the full share ARE the windows' arrays at
    their shares, at the same contents — both the dealing and the gathering, as one equation;
    and the two shapes of that per-buffer condition met in practice: one window holding the full share, or two windows
    holding its left and right halves (a share is the composition of its halves).
-/
import Idealize.ShloMosaic.Lib.Pipeline.Frame
import Idealize.ShloMosaic.Lib.Pipeline.Regions
import Idealize.ShloMosaic.Lib.Pipeline.RegionsLoop

noncomputable section

namespace LibShareDeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-! ## Regrouping a product by the value of a function -/

section Fibres

universe u v w
variable {M : Type u} [URA M] {I : Type v} {J : Type w} [DecidableEq I] [DecidableEq J]

/-- A product over `s`, regrouped by the value of `g`: over the values (any finite set `T` holding them all), the product
    over the members of `s` with that value. -/
theorem bigSep_fibres (T : Finset J) (g : I → J) (Φ : I → sProp M) :
    ∀ s : Finset I, (∀ i ∈ s, g i ∈ T) → bigSep s Φ = bigSep T fun j => bigSep (s.filter fun i => g i = j) Φ := by
  induction T using Finset.induction_on with
  | empty =>
    intro s hg
    have hs : s = ∅ := Finset.eq_empty_of_forall_notMem fun i hi => absurd (hg i hi) (Finset.notMem_empty _)
    subst hs
    rfl
  | insert j T hj ih =>
    intro s hg
    rw [bigSep_insert hj, bigSep_filter_split s (fun i => g i = j),
      ih (s.filter fun i => ¬ g i = j) (fun i hi => by
        have hi' := Finset.mem_filter.mp hi
        rcases Finset.mem_insert.mp (hg i hi'.1) with h | h
        · exact absurd h hi'.2
        · exact h)]
    refine congrArg (fun R => BI.sep (bigSep (s.filter fun i => g i = j) Φ) R) (bigSep_congr fun j' hj' => ?_)
    rw [Finset.filter_filter]
    refine congrArg (fun t => bigSep t Φ) (Finset.filter_congr fun i _ => ?_)
    constructor
    · exact fun h => h.2
    · intro h
      exact ⟨fun e => hj (by rw [← e, h]; exact hj'), h⟩

end Fibres

variable {nD : Nat} {τ : Topo} {sig : RefSig} {Val : EltTy → Type} {U : Type} [URA U]
variable {Λ₀ : Idealize.SL.Sem.Labels}

local notation "𝕄" => MT nD τ sig Unit Val ℕ U ℕ

/-! ## One buffer's full share as the product of its windows' shares -/

section Fibre

variable {ι : Type} [DecidableEq ι] (ℓ : Loc nD τ sig) (f : Buf Val ℓ) (q : ι → PosShare TreeShare) (s : Finset ι)

/-- One window on the buffer, holding the full share. -/
theorem fibre_one (w : ι) (hs : s = {w}) (hq : q w = fullShare) :
    (ℓ ↦{fullShare} f : sProp 𝕄) = bigSep s fun w => (ℓ ↦{q w} f : sProp 𝕄) := by
  subst hs
  rw [bigSep_singleton, hq]

/-- Two windows on the buffer, holding the left and the right half of the full share. -/
theorem fibre_two (w₁ w₂ : ι) (hne : w₁ ≠ w₂) (hs : s = {w₁, w₂}) (h₁ : q w₁ = fullShare.left) (h₂ : q w₂ = fullShare.right) :
    (ℓ ↦{fullShare} f : sProp 𝕄) = bigSep s fun w => (ℓ ↦{q w} f : sProp 𝕄) := by
  subst hs
  rw [bigSep_insert (fun h => hne (Finset.mem_singleton.mp h)), bigSep_singleton, h₁, h₂]
  have h : (ℓ ↦{fullShare} f : sProp 𝕄) ⊣⊢ iprop((ℓ ↦{fullShare.left} f) ∗ ℓ ↦{fullShare.right} f) :=
    pointsTo_share (PosShare.mem_left_op_right fullShare)
  exact BI.equiv_iff.mp ⟨h.1, h.2⟩

end Fibre

/-! ## A whole array at a share, and at the two halves of the full share -/

section Whole

variable (c : Thread nD τ) {sp : Space} {sh : Shape} {e : EltTy} (m : Memref sig c.2.kind sp sh e)

/-- A whole buffer's elements are all of the buffer's. -/
theorem whole_eq (hm : m.IsWhole) (q : PosShare TreeShare) (X : Buf Val (m.view.loc c)) :
    (m.view.loc c ↦[m.view.set]{q} X : sProp 𝕄) = (m.view.loc c ↦{q} X) := by
  rw [hm.set_eq_univ]

/-- The array at the full share is the array at its left half and at its right half, at the same contents: split, and
    joined again. -/
theorem halves (X : Buf Val (m.view.loc c)) :
    (m.view.loc c ↦[m.view.set]{fullShare} X : sProp 𝕄)
      ⊣⊢ iprop((m.view.loc c ↦[m.view.set]{fullShare.left} X) ∗ (m.view.loc c ↦[m.view.set]{fullShare.right} X)) :=
  pointsTo_share (PosShare.mem_left_op_right fullShare)

end Whole

/-! ## The array buffers whole are the windows' arrays at their shares -/

section Deal

variable {cfg : Cfg sig Λ₀} {c : Dev nD} (dat : Dat τ Val Unit ℕ U ℕ cfg c)

/-- Every array a whole buffer; buffer by buffer, the full share the product of the shares of the windows on it
    (`hfib`: by `fibre_one` / `fibre_two`); the windows' contents the buffers' (`hF`). Then the distinct array buffers
    whole at the full share are the pipeline's arrays. -/
theorem arrays_deal (harr : ∀ w, (cfg.spec w).arr.IsWhole)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w))
    (hfib : ∀ b ∈ Finset.univ.image (arrRef cfg.spec),
      (((c.tc : Thread nD τ).loc b) ↦{fullShare} V b : sProp 𝕄)
        = bigSep (Finset.univ.filter fun w => arrRef cfg.spec w = b) fun w => (((c.tc : Thread nD τ).loc b) ↦{dat.share w} V b : sProp 𝕄)) :
    (arrBufs cfg.spec c V : sProp 𝕄) = dat.arrays F := by
  classical
  unfold arrBufs Dat.arrays
  refine Eq.trans (bigSep_congr fun b hb => hfib b hb) (Eq.trans ?_ (bigSep_fibres (Finset.univ.image (arrRef cfg.spec))
    (arrRef cfg.spec) _ Finset.univ (fun w _ => Finset.mem_image_of_mem _ (Finset.mem_univ w))).symm)
  refine bigSep_congr fun b hb => bigSep_congr fun w hw => ?_
  have hwb : arrRef cfg.spec w = b := (Finset.mem_filter.mp hw).2
  subst hwb
  rw [(harr w).set_eq_univ, hF w]

end Deal

end LibShareDeal

end
-- ==== Proof.KBShares.lean ====
/-
  Dealing the ranking-loss kernel's array buffers among its windows.

  The kernel's seven windows stand on four buffers: the normalised rows are read through a row-side and a column-side
  window, and so are the labels and the groups; the output has a window of its own. Each of the three shared buffers
  is held half by its row-side window (the left half of the full share) and half by its column-side window (the right
  half); the output buffer is held whole by its window. So the four buffers whole at the full share are the seven
  windows' arrays at their shares, at the same contents: dealt on the way into the region, gathered on the way out.
-/
import proofs.«125663_j9543417332489_1_alg».proof.Proof.KBData
import proofs.«125663_j9543417332489_1_alg».proof.Proof.LibShareDeal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' shares -/

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl

/-! ## The buffers behind the windows, and the windows on each -/

theorem arr_bufs : ∀ b ∈ Finset.univ.image (Pipeline.arrRef spec0), b = main_v4 ∨ b = main_arg1 ∨ b = main_arg2 ∨ b = main_v5 := by
  decide
theorem on_v4 : (Finset.univ.filter fun w => Pipeline.arrRef spec0 w = main_v4) = {0, 1} := by decide
theorem on_arg1 : (Finset.univ.filter fun w => Pipeline.arrRef spec0 w = main_arg1) = {2, 3} := by decide
theorem on_arg2 : (Finset.univ.filter fun w => Pipeline.arrRef spec0 w = main_arg2) = {4, 5} := by decide
theorem on_v5 : (Finset.univ.filter fun w => Pipeline.arrRef spec0 w = main_v5) = {6} := by decide

/-! ## Dealing and gathering -/

/-- The four array buffers whole at the full share are the seven windows' arrays at their shares, at the same contents. -/
theorem arr_deal (c : Dev nD) (Vb : (b : Ref sig .tc) → Buf (Elt F) ((c : Thread nD τ).loc b))
    (Fw : (w : Fin cfg0.W) → Buf (Elt F) ((cfg0.win w).arr.view.loc (c : Thread nD τ)))
    (hF : ∀ w, Fw w = Vb (Pipeline.arrRef spec0 w)) :
    (Pipeline.arrBufs spec0 c Vb : sProp 𝕄) = (dats m 0 c).arrays Fw :=
  LibShareDeal.arrays_deal (dats m 0 c) arr_whole0 Vb Fw hF (fun b hb => by
    obtain rfl | rfl | rfl | rfl := arr_bufs b hb
    · exact LibShareDeal.fibre_two _ _ _ _ 0 1 (by decide) on_v4 (share0 m c) (share1 m c)
    · exact LibShareDeal.fibre_two _ _ _ _ 2 3 (by decide) on_arg1 (share2 m c) (share3 m c)
    · exact LibShareDeal.fibre_two _ _ _ _ 4 5 (by decide) on_arg2 (share4 m c) (share5 m c)
    · exact LibShareDeal.fibre_one _ _ _ _ 6 on_v5 (share6 m c))

/-- Entering the region: the array buffers, as the host operations before the region left them, are dealt to the windows. -/
theorem arr_split (c : Dev nD) :
    (Pipeline.arrBufs spec0 c (fun b => W2 m c b) : sProp 𝕄) ⊢ (dats m 0 c).arrays ((dats m 0 c).arrAt · 0) :=
  Entails.of_eq (arr_deal m c (fun b => W2 m c b) _ (fun w => A_eq m c w))

/-- Leaving the region: the windows' arrays, at what the write-backs left, are gathered into the array buffers at any
    contents that has them there. -/
theorem arr_join' (W' : Dev nD → Valuation τ sig (Elt F))
    (hF : ∀ c w, (dats m 0 c).arrAt w cfg0.N = W' c (Pipeline.arrRef spec0 w)) (c : Dev nD) :
    (dats m 0 c).arrays ((dats m 0 c).arrAt · cfg0.N) ⊢ (Pipeline.arrBufs spec0 c (fun b => W' c b) : sProp 𝕄) :=
  Entails.of_eq (arr_deal m c (fun b => W' c b) _ (hF c)).symm

end Cert.Kernel.Hand

end
-- ==== Proof.KBEnds.lean ====
/-
  The buffers of the ranking-loss program after the kernel region and at the end: the region writes the 4096 row
  losses into their array and leaves every other unscoped buffer as it found it; the host then takes their mean.
-/
import proofs.«125663_j9543417332489_1_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the region: the losses' array at what the write-backs left, everything else as the region found it. -/
def W3 (c : Dev nD) : Valuation τ sig (Elt F) :=
  Function.update (W2 m c) (Proc.devRef .tc main_v5) ((dats m 0 c).arrAt 6 cfg0.N)
/-- The buffers at the end: the mean has been taken. -/
abbrev W4 (c : Dev nD) : Valuation τ sig (Elt F) := StableHlo.after hostOps1 (W3 m c)

/-- Outside the windows' arrays the region changes nothing. -/
theorem W3_rest (c : Dev nD) (b : Ref sig .tc) (hb : b ∉ Finset.univ.image (Pipeline.arrRef spec0)) : W3 m c b = W2 m c b := by
  unfold W3
  refine Function.update_of_ne (fun h => hb ?_) _ _
  have : b = main_v5 := Proc.devRef_injective _ h
  subst this
  exact Finset.mem_image.mpr ⟨6, Finset.mem_univ _, rfl⟩

theorem arr_ne5 : ∀ w : Fin 7, w.val < 6 → Pipeline.arrRef spec0 w ≠ main_v5 := by decide

/-- Each window's array after the region is what `W3` gives it: an input's as the region found it, the output's as written back. -/
theorem W3_arr (c : Dev nD) (w : Fin cfg0.W) : (dats m 0 c).arrAt w cfg0.N = W3 m c (Pipeline.arrRef spec0 w) :=
  match w with
  | ⟨0, h⟩ => ((dats m 0 c).arrAt_in ⟨0, h⟩ rfl _).trans ((A_eq m c ⟨0, h⟩).trans (by unfold W3; exact (Function.update_of_ne (StableHlo.devRef_ne_of_ne (arr_ne5 _ (by show (0 : ℕ) < 6; decide))) _ _).symm))
  | ⟨1, h⟩ => ((dats m 0 c).arrAt_in ⟨1, h⟩ rfl _).trans ((A_eq m c ⟨1, h⟩).trans (by unfold W3; exact (Function.update_of_ne (StableHlo.devRef_ne_of_ne (arr_ne5 _ (by show (1 : ℕ) < 6; decide))) _ _).symm))
  | ⟨2, h⟩ => ((dats m 0 c).arrAt_in ⟨2, h⟩ rfl _).trans ((A_eq m c ⟨2, h⟩).trans (by unfold W3; exact (Function.update_of_ne (StableHlo.devRef_ne_of_ne (arr_ne5 _ (by show (2 : ℕ) < 6; decide))) _ _).symm))
  | ⟨3, h⟩ => ((dats m 0 c).arrAt_in ⟨3, h⟩ rfl _).trans ((A_eq m c ⟨3, h⟩).trans (by unfold W3; exact (Function.update_of_ne (StableHlo.devRef_ne_of_ne (arr_ne5 _ (by show (3 : ℕ) < 6; decide))) _ _).symm))
  | ⟨4, h⟩ => ((dats m 0 c).arrAt_in ⟨4, h⟩ rfl _).trans ((A_eq m c ⟨4, h⟩).trans (by unfold W3; exact (Function.update_of_ne (StableHlo.devRef_ne_of_ne (arr_ne5 _ (by show (4 : ℕ) < 6; decide))) _ _).symm))
  | ⟨5, h⟩ => ((dats m 0 c).arrAt_in ⟨5, h⟩ rfl _).trans ((A_eq m c ⟨5, h⟩).trans (by unfold W3; exact (Function.update_of_ne (StableHlo.devRef_ne_of_ne (arr_ne5 _ (by show (5 : ℕ) < 6; decide))) _ _).symm))
  | ⟨6, h⟩ => by
    show _ = W3 m c (Proc.devRef .tc main_v5)
    unfold W3; rw [Function.update_self]; rfl

end Cert.Kernel.Hand

end
-- ==== Proof.LibRegionTracked.lean ====
/-
  A kernel region of a program of several regions, as a segment record, for a kernel that carries state between points.

  A region of @main launches one pipelined kernel: at every grid point each window's block is fetched into a staging
  buffer, the body runs, and each output window's buffer is written back. The rule for a program of several regions
  takes, per region, a record saying how the thread's resources are sorted before the region, what the body's invariant
  is made of, and how everything is put back afterwards.

  Here the kernel keeps scratch contents from one point to the next (an accumulator that a later point reads), so the
  invariant is not one assertion but depends on the point: at point t it says what the scratch buffers hold after the
  points before t. The region's two ends need only this of it: the first invariant follows from the generator register
  and the scoped non-staging buffers at any contents whatever, and the last invariant gives those back. Several input
  windows may read one and the same array; the buffers behind the arrays still split off the unscoped buffers, and the
  dealing of each buffer's full share among the windows on it, and its gathering after the region, is asked of the caller.
    before   every unscoped buffer of the core at contents `W`, the generator register at some state, nothing owed;
    entry    the array buffers split off at the contents `W` gives them and are dealt to the windows (`hsplit`); the
             others ride past the region untouched;
    inside   the proof data's invariant, point by point (`hin` at the first, `hout` at the last);
    exit     the windows' arrays, at what the write-backs left, are gathered into the array buffers at `W'` (`hjoin`) and
             rejoin the others, which `W'` leaves as `W` had them (`hrest`).
-/
import Idealize.ShloMosaic.Lib.Pipeline.Frame
import Idealize.ShloMosaic.Lib.Pipeline.Regions
import Idealize.ShloMosaic.Lib.Pipeline.RegionsLoop

noncomputable section

namespace LibRegionTracked

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What rides beside the buffers through every segment: the core's generator register at some state, and the core
    owing nothing. -/
abbrev Rest (c : Dev nD) : sProp 𝕄 :=
  iprop((∃ r, prngReg c r) ∗ ∃ S, owes (c : Thread nD τ) (0 : CellTallies nD τ sig Unit) S)

-- the library's lemmas are stated over the pinned configuration `pin pcs a p`; a record's fields over `pcs p`
set_option backward.isDefEq.respectTransparency.types false in
/-- The segment record of a region whose kernel carries scratch contents from point to point and whose input windows may
    share arrays. Entered from every unscoped buffer at `W`, left at `W'`; the buffers behind the arrays split off the
    unscoped buffers, and how each buffer's full share is dealt among the windows on it and gathered again is asked of
    the caller (`hsplit`, `hjoin`). The invariant is the proof data's own, point by point: `hin` makes the first one from
    the generator register and the scoped buffers no window stages, `hout` gets them back from the last one. -/
def trackedShared (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts₀ (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hK : IsEmpty (Fin (pcs p).pre.K))
    (hin : ∀ c, iprop((∃ r, prngReg c r) ∗ scopedRest (pin pcs a p).spec c) ⊢ (pdats p c).Φ 0)
    (hout : ∀ c, (pdats p c).Φ (Fin.last (pin pcs a p).N) ⊢ iprop((∃ r, prngReg c r) ∗ scopedRest (pin pcs a p).spec c))
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hsplit : ∀ c, (arrBufs (pin pcs a p).spec c (fun b => W c b) : sProp 𝕄) ⊢ (pdats p c).arrays ((pdats p c).arrAt · 0))
    (hjoin : ∀ c, (pdats p c).arrays ((pdats p c).arrAt · (pin pcs a p).N)
      ⊢ (arrBufs (pin pcs a p).spec c (fun b => W' c b) : sProp 𝕄))
    (hrest : ∀ c (b : Ref sig .tc), b ∉ Finset.univ.image (arrRef (pin pcs a p).spec) → W' c b = W c b) :
    RegionSeg pcs a pdats () defs₀ 𝒱₀ L lv p where
  win := hw
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    haveI := hK
    have hub : StableHlo.held (c : Thread nD τ) (ucRefs τ sig) (W c)
        = iprop((arrBufs (pin pcs a p).spec c (fun b => W c b) : sProp 𝕄) ∗ unscopedRest (pin pcs a p).spec c (fun b => W c b)) := by
      rw [← unscopedBufs_held]; exact unscopedBufs_split₀ (pin pcs a) p hw.arr_unscoped c (fun b => W c b)
    have hnotable : (prefHeld (pcs p).pre c (fun _ => fullShare) (a p).1 : sProp 𝕄) = BI.emp := by
      unfold prefHeld; rw [Finset.univ_eq_empty, BI.bigSep_empty]
    rw [hnotable, ownSems0_none, hub]
    iintro ⟨⟨⟨Hbufs, Hoth⟩, Hreg, Howes⟩, -, -⟩
    ihave Harr := (hsplit c) $$ Hbufs
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    iintro ⟨Hreg, -, Hsc⟩
    iapply (hin c)
    isplitl [Hreg]; · iexact Hreg
    iexact Hsc
  hout c := by
    rw [ownSems0_none]
    iintro Hinv
    ihave H := (hout c) $$ Hinv
    icases H with ⟨Hreg, Hsc⟩
    isplitl [Hreg]; · iexact Hreg
    isplitr; · iempintro
    iexact Hsc
  hexit c := by
    have hub : StableHlo.held (c : Thread nD τ) (ucRefs τ sig) (W' c)
        = iprop((arrBufs (pin pcs a p).spec c (fun b => W' c b) : sProp 𝕄) ∗ unscopedRest (pin pcs a p).spec c (fun b => W' c b)) := by
      rw [← unscopedBufs_held]; exact unscopedBufs_split₀ (pin pcs a) p hw.arr_unscoped c (fun b => W' c b)
    have hoth : (unscopedRest (pin pcs a p).spec c (fun b => W c b) : sProp 𝕄)
        = unscopedRest (pin pcs a p).spec c (fun b => W' c b) := by
      unfold unscopedRest
      exact bigSep_congr fun b hb => by dsimp only; rw [hrest c b (Finset.mem_sdiff.mp hb).2]
    rw [hub, ← hoth]
    iintro ⟨Harr, Howes, Hreg, Hoth⟩
    ihave Hbufs := (hjoin c) $$ Harr
    imodintro
    isplitl [Hbufs Hoth]
    · isplitl [Hbufs]; · iexact Hbufs
      iexact Hoth
    isplitl [Hreg]; · iexact Hreg
    unfold Dat.owesAt owesWithin
    rw [howed c (Fin.last _)]
    icases Howes with ⟨%S, -, Howes⟩
    iexists S; iexact Howes

end LibRegionTracked

end
-- ==== Proof.KBLaunch.lean ====
/-
  The run of the ranking-loss program: the host computes the row norms and divides the rows by them, the kernel region
  computes the 4096 row losses, the host averages them. Every weakly fair execution ends, without a fault, with every
  unscoped buffer of the core at what these four stretches leave in turn: the launch contents, the norms, the
  normalised rows, the row losses written back by the region, and their mean.
-/
import proofs.«125663_j9543417332489_1_alg».proof.Proof.KBBody
import proofs.«125663_j9543417332489_1_alg».proof.Proof.KBShares
import proofs.«125663_j9543417332489_1_alg».proof.Proof.KBEnds
import proofs.«125663_j9543417332489_1_alg».proof.Proof.LibRegionTracked
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through every stretch: the generator register, and the core owing nothing. -/
abbrev R (c : Dev nD) : sProp 𝕄 := LibRegionTracked.Rest c

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The row norms. -/
def segA : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    fresh0 (W0 m) R
/-- The rows divided by their clamped norms. -/
def segB : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    fresh0_1 (W1 m) R
/-- The mean of the row losses. -/
def segC : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    fresh1 (W3 m) R

-- the record is stated over the pinned configuration; ours is the printed one
set_option backward.isDefEq.respectTransparency.types false in
/-- The region: entered with the normalised rows, the labels and the groups dealt to its six input windows; left with
    the losses' array written. -/
def reg0 : Pipeline.RegionSeg (pcfgs (F := F)) adm (dats m) () defs₀ 𝒱₀ L lv 0 :=
  LibRegionTracked.trackedShared (pcfgs (F := F)) adm (dats m) defs₀ 𝒱₀ L lv 0 winFacts₀0 block_pos0 stage_whole0
    (by dsimp only [pcfgs, Pipeline.Cfg.toPCfg]; infer_instance)
    (fun c => by
      iintro ⟨Hr, Hs⟩
      iapply (hin m c)
      unfold Pipeline.ΦA
      isplitl [Hs] <;> iassumption)
    (fun c => by
      iintro H
      ihave H' := (hout m c) $$ H
      unfold Pipeline.ΦA
      icases H' with ⟨Hs, Hr⟩
      isplitl [Hr] <;> iassumption)
    (fun _ _ => rfl) (fun _ _ => rfl) (body_obligation m) (W2 m) (W3 m) (arr_split m) (arr_join' m (W3 m) (W3_arr m)) (W3_rest m)

abbrev segs : List (Pipeline.Seg (pcfgs (F := F)) adm (dats m) () defs₀ 𝒱₀ L lv) :=
  [.host (segA m), .host (segB m), .region (reg0 m), .host (segC m)]

/-- The launch element: the pipeline library's, at the staging cells. -/
def u₀ : UR sig nD τ := initOf (Pipeline.cells cfgs cellOf_inj) (Pipeline.launchToks cfgs cellOf_inj)

/-- The physical post: every unscoped buffer of every core at the end's contents. -/
def QC : PUnit × MemSt nD τ sig (Elt F) → Prop := fun r =>
  ∀ c : Dev nD, ∀ b ∈ Pipeline.ucRefs τ sig, r.2.mem ((c : Thread nD τ).1, b) = W4 m c b

set_option backward.isDefEq.respectTransparency.types false in
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      refine (show (ownU (u₀ : UR sig nD τ) : sProp 𝕄) ⊢ BI.own ((EP (F := F)) (initOf (Pipeline.cells (Pipeline.pin (pcfgs (F := F)) adm) cellOf_inj) (Pipeline.launchToks (Pipeline.pin (pcfgs (F := F)) adm) cellOf_inj))) from .rfl).trans ?_
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ ((∃ r, prngReg c r) ∗ ∃ S, owes (c : Thread nD τ) (0 : CellTallies nD τ sig Unit) S)) ⊢ _
      iintro ⟨Hh, Hr, Ho⟩
      isplitr [Ho]
      · isplitl [Hh] <;> iassumption
      · iexact Ho⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem ((c : Thread nD τ).1, b) = W4 m c b)
    (hfin := fun c s' => by
      iintro ⟨⟨Hh, -⟩, HSI⟩
      unfold StableHlo.held
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.KBKept.lean ====
/-
  The host operations around the kernel region of the ranking-loss program leave the arguments alone.

  No host operation before or after the region writes an argument, and the region writes only the losses' array: the
  labels and the groups the region reads, and all three arguments at the end, are the launch contents; and the losses'
  array after the region is what the write-backs left there.
-/
import proofs.«125663_j9543417332489_1_alg».proof.Proof.KBEnds

set_option maxRecDepth 16384

noncomputable section

namespace Cert.Kernel.Tail

open Cert.Kernel Cert.Kernel.Gen Cert.Kernel.Hand
open Idealize.ShloMosaic Idealize.ShloMosaic.TcCoe
open Idealize.ShloMosaic.StableHlo (after_cons after_nil nullary_result unary_result binary_result nullary_result_ne unary_result_ne binary_result_ne)

variable {F : FTy → Type} [FloatOps F] (m : (ℓ : Loc nD τ sig) → Buf (Elt F) ℓ)

/-! ## What the region finds -/

/-- The rows' argument, when the region is entered, is the launch contents. -/
theorem W2_arg0 (c : Dev nD) : W2 m c (Proc.devRef .tc main_arg0) = m (c, Proc.devRef .tc main_arg0) := by
  show StableHlo.after hostOps0_1 (StableHlo.after hostOps0 (fun b => m (c, b))) (Proc.devRef .tc main_arg0) = _
  after_results

/-- The labels the region reads are the launch contents. -/
theorem W2_arg1 (c : Dev nD) : W2 m c (Proc.devRef .tc main_arg1) = m (c, Proc.devRef .tc main_arg1) := by
  show StableHlo.after hostOps0_1 (StableHlo.after hostOps0 (fun b => m (c, b))) (Proc.devRef .tc main_arg1) = _
  after_results

/-- The groups the region reads are the launch contents. -/
theorem W2_arg2 (c : Dev nD) : W2 m c (Proc.devRef .tc main_arg2) = m (c, Proc.devRef .tc main_arg2) := by
  show StableHlo.after hostOps0_1 (StableHlo.after hostOps0 (fun b => m (c, b))) (Proc.devRef .tc main_arg2) = _
  after_results

/-! ## After the region -/

/-- The losses' array after the region is what the write-backs left. -/
theorem W3_v5 (c : Dev nD) : W3 m c (Proc.devRef .tc main_v5) = (dats m 0 c).arrAt 6 cfg0.N := by
  unfold W3
  rw [Function.update_self]

/-! ## At the end -/

/-- The three arguments at the end are the launch contents. -/
theorem W4_arg0 (c : Dev nD) : W4 m c (Proc.devRef .tc main_arg0) = m (c, Proc.devRef .tc main_arg0) := by
  show StableHlo.after hostOps1 (W3 m c) (Proc.devRef .tc main_arg0) = _
  after_results
  unfold W3
  rw [Function.update_of_ne (StableHlo.devRef_ne_of_ne (by decide))]
  exact W2_arg0 m c
theorem W4_arg1 (c : Dev nD) : W4 m c (Proc.devRef .tc main_arg1) = m (c, Proc.devRef .tc main_arg1) := by
  show StableHlo.after hostOps1 (W3 m c) (Proc.devRef .tc main_arg1) = _
  after_results
  unfold W3
  rw [Function.update_of_ne (StableHlo.devRef_ne_of_ne (by decide))]
  exact W2_arg1 m c
theorem W4_arg2 (c : Dev nD) : W4 m c (Proc.devRef .tc main_arg2) = m (c, Proc.devRef .tc main_arg2) := by
  show StableHlo.after hostOps1 (W3 m c) (Proc.devRef .tc main_arg2) = _
  after_results
  unfold W3
  rw [Function.update_of_ne (StableHlo.devRef_ne_of_ne (by decide))]
  exact W2_arg2 m c

end Cert.Kernel.Tail

end
-- ==== Proof.KBFrameGen.lean ====
/-
  The ranking-loss program runs and leaves its three arguments as it found them.

  The run ends with every unscoped buffer of every core at what the host operations and the region left in turn; the
  arguments are unscoped buffers that nothing writes, so they end at the launch contents.
-/
import proofs.«125663_j9543417332489_1_alg».proof.Proof.KBLaunch
import proofs.«125663_j9543417332489_1_alg».proof.Proof.KBKept

set_option maxRecDepth 16384

noncomputable section

namespace Cert.Kernel.Tail

open Cert.Kernel Cert.Kernel.Gen Cert.Kernel.Hand
open Idealize.ShloMosaic Idealize.ShloMosaic.TcCoe Idealize.SL.Sem

/-! ## The arguments and the result are unscoped buffers of the core -/

theorem arg0_uc : Proc.devRef (τ := τ) .tc main_arg0 ∈ Pipeline.ucRefs τ sig :=
  Finset.mem_filter.mpr ⟨StableHlo.devRef_mem_tcRefs _, by decide⟩
theorem arg1_uc : Proc.devRef (τ := τ) .tc main_arg1 ∈ Pipeline.ucRefs τ sig :=
  Finset.mem_filter.mpr ⟨StableHlo.devRef_mem_tcRefs _, by decide⟩
theorem arg2_uc : Proc.devRef (τ := τ) .tc main_arg2 ∈ Pipeline.ucRefs τ sig :=
  Finset.mem_filter.mpr ⟨StableHlo.devRef_mem_tcRefs _, by decide⟩
theorem v7_uc : Proc.devRef (τ := τ) .tc main_v7 ∈ Pipeline.ucRefs τ sig :=
  Finset.mem_filter.mpr ⟨StableHlo.devRef_mem_tcRefs _, by decide⟩

/-! ## The frame -/

variable {F : FTy → Type} [FloatOps F] (m : (ℓ : Loc nD τ sig) → Buf (Elt F) ℓ)

/-- Every weakly fair execution terminates without a fault, the three arguments unchanged. -/
theorem frame_gen (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ arg0_uc).trans (W4_arg0 m c), (h c _ arg1_uc).trans (W4_arg1 m c), (h c _ arg2_uc).trans (W4_arg2 m c)⟩)
    (run_main m ρ)

end Cert.Kernel.Tail

end
-- ==== Proof.KIShared.lean ====
/-
  What the frame of the ranking-loss kernel is stated over.

  The kernel runs on an 8 × 8 grid, the column block innermost: point t = 8·bi + bj works on row block bi and column
  block bj. At bj = 0 it zeroes its eight accumulators; at every point it adds the column block's eight lane sums to
  them; at bj = 7 it writes the row block's 512 losses into the output block. So a point is in one of three cases:
  first column block (reset, no output), a middle one (neither), the last one (output written). The output window is
  idle, and not written back, except in the last case. The row-side windows (0, 2, 4) move only when bi changes; the
  column-side windows (1, 3, 5) move at every point; each holds its block of the array as the region found it.
-/
import proofs.«125663_j9543417332489_1_alg».proof.Proof.Gen.KernelIdeal.Launch
import proofs.«125663_j9543417332489_1_alg».proof.Proof.Gen.KernelIdeal.Skeleton
import proofs.«125663_j9543417332489_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, -/
abbrev W0 (c : Dev nD) : Valuation τ sig (Elt F) := fun b => m (c, b)
/-- after the row norms have been computed, -/
abbrev W1 (c : Dev nD) : Valuation τ sig (Elt F) := StableHlo.after hostOps0 (W0 m c)
/-- and after the rows have been divided by their clamped norms: what the region finds. -/
abbrev W2 (c : Dev nD) : Valuation τ sig (Elt F) := StableHlo.after hostOps0_1 (W1 m c)
/-- The same read at a TensorCore reference. -/
abbrev V (c : Dev nD) (b : Ref sig .tc) : Buf (Elt F) ((c : Thread nD τ).loc b) := W2 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the block
    index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The reset's condition: the column block is the first. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- The output's condition: the column block is the last. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt_in : ∀ (w : Fin 7), w.val < 6 → ∀ i : grid0.Coords, cfg0.idle w i = false := by
  intro w hw i
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
/-- Off the last column block the output window is idle and is not written back. -/
theorem idleAt6 : ∀ t : Fin cfg0.N, ¬cond1 (grid0.coords t) → cfg0.idle 6 (grid0.coords t) = true := by decide +kernel
theorem noFlush6 : ∀ t : Fin cfg0.N, ¬cond1 (grid0.coords t) → (cfg0.win 6).flush t = false := by decide +kernel
/-- At the last column block it is live. -/
theorem liveAt6 : ∀ t : Fin cfg0.N, cond1 (grid0.coords t) → cfg0.idle 6 (grid0.coords t) = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512 .f32 := win0_6.stage (cfg0.slots t 6)
abbrev hs6 (t : Fin cfg0.N) : (ms6 t).IsWhole := hstage0_6 ((cfg0.slots t 6).cast nbuf0_6)
/-- The eight accumulators: whole scoped buffers of the kernel's own. -/
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x1 .f32 := Memref.whole cc0_scratch5
abbrev sc6 : Memref sig .tc .vmem S512x1 .f32 := Memref.whole cc0_scratch6
abbrev sc7 : Memref sig .tc .vmem S512x1 .f32 := Memref.whole cc0_scratch7

/-- The scoped buffers that are no staging buffer are the eight accumulators, each owned whole at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)
        ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) := by
  rw [scopedRest0_eq]; simp only [sc0, sc1, sc2, sc3, sc4, sc5, sc6, sc7, owns_whole]; try rfl

end Cert.KernelIdeal.Hand

end
-- ==== Proof.KIRunA.lean ====
/-
  The body's run in the case of the first column block of a row block: the accumulators are zeroed, then the block's lane sums are added; nothing is stored into the output block.
  On whole staging memrefs holding the six input blocks, the body runs to its end without a fault, leaves the inputs as
  they were, and leaves in each accumulator (and, in the last case, in the output block) a list of written pieces that
  the run itself finds.
-/
import proofs.«125663_j9543417332489_1_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    Σ' (L6 : List (View.Piece (Elt F) S512 .f32)) (LS0 LS1 LS2 LS3 LS4 LS5 LS6 : List (View.Piece (Elt F) S512x1 .f32)), { LS7 : List (View.Piece (Elt F) S512x1 .f32) //
      ∀ (xi6 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ (∃ f, arg16.view.loc (c : Thread nD τ) ↦[arg16.view.set]{fullShare} arg16.view.writes (Elt F) f LS7)) -∗ K ⟨⟩))
          ⊢ wp frame (wpE (defs₀ (F := F)) Variants.none c none) E (cc0__rank_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, ?_, ?_, ?_, ?_, fun xi6 E K => ?run⟩
  case run =>
    simp only [cc0__rank_loss_kernel_eq_skeleton]; unfold cc0__rank_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Hand

end
-- ==== Proof.KIRunB.lean ====
/-
  The body's run in the case of a middle column block: the block's lane sums are added to what the point before left in the accumulators; nothing is stored into the output block.
  On whole staging memrefs holding the six input blocks, the body runs to its end without a fault, leaves the inputs as
  they were, and leaves in each accumulator (and, in the last case, in the output block) a list of written pieces that
  the run itself finds.
-/
import proofs.«125663_j9543417332489_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32)
    (xs0 xs1 xs2 xs3 xs4 xs5 xs6 xs7 : Vec F S512x1 .f32) :
    Σ' (L6 : List (View.Piece (Elt F) S512 .f32)) (LS0 LS1 LS2 LS3 LS4 LS5 LS6 : List (View.Piece (Elt F) S512x1 .f32)), { LS7 : List (View.Piece (Elt F) S512x1 .f32) //
      ∀ (xi6 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ (∃ f, arg16.view.loc (c : Thread nD τ) ↦[arg16.view.set]{fullShare} arg16.view.writes (Elt F) f LS7)) -∗ K ⟨⟩))
          ⊢ wp frame (wpE (defs₀ (F := F)) Variants.none c none) E (cc0__rank_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, ?_, ?_, ?_, ?_, fun xi6 E K => ?run⟩
  case run =>
    simp only [cc0__rank_loss_kernel_eq_skeleton]; unfold cc0__rank_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Hand

end
-- ==== Proof.KIRunC.lean ====
/-
  The body's run in the case of the last column block: the lane sums are added, and the row block's losses, computed from the eight finished accumulators, are stored into the output block.
  On whole staging memrefs holding the six input blocks, the body runs to its end without a fault, leaves the inputs as
  they were, and leaves in each accumulator (and, in the last case, in the output block) a list of written pieces that
  the run itself finds.
-/
import proofs.«125663_j9543417332489_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32)
    (xs0 xs1 xs2 xs3 xs4 xs5 xs6 xs7 : Vec F S512x1 .f32) :
    Σ' (L6 : List (View.Piece (Elt F) S512 .f32)) (LS0 LS1 LS2 LS3 LS4 LS5 LS6 : List (View.Piece (Elt F) S512x1 .f32)), { LS7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ (∃ f, arg16.view.loc (c : Thread nD τ) ↦[arg16.view.set]{fullShare} arg16.view.writes (Elt F) f LS7)) -∗ K ⟨⟩))
          ⊢ wp frame (wpE (defs₀ (F := F)) Variants.none c none) E (cc0__rank_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0__rank_loss_kernel_eq_skeleton]; unfold cc0__rank_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Hand

end
-- ==== Proof.KIOuts.lean ====
/-
  What each case of the ranking-loss kernel's body leaves in the eight accumulators and in the output block: the
  pieces the case's run wrote, read back; the pieces of every accumulator (and, in the last case, of the output block)
  tile it, so what was there before does not matter.
-/
import proofs.«125663_j9543417332489_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the accumulators as views, through which contents are stated. -/
abbrev VO6 : View sig .tc .vmem S512 .f32 := (Memref.whole cc0_stg6_0 : Memref sig .tc .vmem S512 .f32).view
abbrev VS0 : View sig .tc .vmem S512x1 .f32 := (sc0).view
abbrev VS1 : View sig .tc .vmem S512x1 .f32 := (sc1).view
abbrev VS2 : View sig .tc .vmem S512x1 .f32 := (sc2).view
abbrev VS3 : View sig .tc .vmem S512x1 .f32 := (sc3).view
abbrev VS4 : View sig .tc .vmem S512x1 .f32 := (sc4).view
abbrev VS5 : View sig .tc .vmem S512x1 .f32 := (sc5).view
abbrev VS6 : View sig .tc .vmem S512x1 .f32 := (sc6).view
abbrev VS7 : View sig .tc .vmem S512x1 .f32 := (sc7).view

/-! ## Case A -/

theorem scoverA_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1 S512x1.size (by sl_kernel_rfl) y
theorem scoverA_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1 S512x1.size (by sl_kernel_rfl) y
theorem scoverA_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1 S512x1.size (by sl_kernel_rfl) y
theorem scoverA_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1 S512x1.size (by sl_kernel_rfl) y
theorem scoverA_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1 S512x1.size (by sl_kernel_rfl) y
theorem scoverA_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.1 S512x1.size (by sl_kernel_rfl) y
theorem scoverA_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.1 S512x1.size (by sl_kernel_rfl) y
theorem scoverA_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) (y : S512x1.Idx) :
    ∃ pc ∈ (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.2.1 S512x1.size (by sl_kernel_rfl) y

/-- What case A leaves in the eight accumulators: its pieces read back. -/
def soutA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) : Fin 8 → Vec F S512x1 .f32 := fun k => match k with
  | ⟨0, _⟩ => VS0.read (Elt F) (VS0.writes (Elt F) VS0.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1)
  | ⟨1, _⟩ => VS1.read (Elt F) (VS1.writes (Elt F) VS1.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1)
  | ⟨2, _⟩ => VS2.read (Elt F) (VS2.writes (Elt F) VS2.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1)
  | ⟨3, _⟩ => VS3.read (Elt F) (VS3.writes (Elt F) VS3.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1)
  | ⟨4, _⟩ => VS4.read (Elt F) (VS4.writes (Elt F) VS4.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1)
  | ⟨5, _⟩ => VS5.read (Elt F) (VS5.writes (Elt F) VS5.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.1)
  | ⟨6, _⟩ => VS6.read (Elt F) (VS6.writes (Elt F) VS6.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.1)
  | ⟨7, _⟩ => VS7.read (Elt F) (VS7.writes (Elt F) VS7.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.2.2.2.1)

/-- What case A leaves in the output block (nothing: a placeholder nobody reads). -/
def outA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) : Vec F S512 .f32 :=
  VO6.read (Elt F) (VO6.writes (Elt F) VO6.junk (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).1)

/-! ## Case B -/

theorem scoverB_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1 S512x1.size (by sl_kernel_rfl) y
theorem scoverB_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1 S512x1.size (by sl_kernel_rfl) y
theorem scoverB_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1 S512x1.size (by sl_kernel_rfl) y
theorem scoverB_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1 S512x1.size (by sl_kernel_rfl) y
theorem scoverB_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1 S512x1.size (by sl_kernel_rfl) y
theorem scoverB_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1 S512x1.size (by sl_kernel_rfl) y
theorem scoverB_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1 S512x1.size (by sl_kernel_rfl) y
theorem scoverB_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1 S512x1.size (by sl_kernel_rfl) y

/-- What case B leaves in the eight accumulators: its pieces read back. -/
def soutB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) : Fin 8 → Vec F S512x1 .f32 := fun k => match k with
  | ⟨0, _⟩ => VS0.read (Elt F) (VS0.writes (Elt F) VS0.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1)
  | ⟨1, _⟩ => VS1.read (Elt F) (VS1.writes (Elt F) VS1.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1)
  | ⟨2, _⟩ => VS2.read (Elt F) (VS2.writes (Elt F) VS2.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1)
  | ⟨3, _⟩ => VS3.read (Elt F) (VS3.writes (Elt F) VS3.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1)
  | ⟨4, _⟩ => VS4.read (Elt F) (VS4.writes (Elt F) VS4.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1)
  | ⟨5, _⟩ => VS5.read (Elt F) (VS5.writes (Elt F) VS5.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1)
  | ⟨6, _⟩ => VS6.read (Elt F) (VS6.writes (Elt F) VS6.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1)
  | ⟨7, _⟩ => VS7.read (Elt F) (VS7.writes (Elt F) VS7.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1)

/-- What case B leaves in the output block (nothing: a placeholder nobody reads). -/
def outB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) : Vec F S512 .f32 :=
  VO6.read (Elt F) (VO6.writes (Elt F) VO6.junk (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1)

/-! ## Case C -/

theorem scoverC_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1 S512x1.size (by sl_kernel_rfl) y
theorem scoverC_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1 S512x1.size (by sl_kernel_rfl) y
theorem scoverC_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1 S512x1.size (by sl_kernel_rfl) y
theorem scoverC_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1 S512x1.size (by sl_kernel_rfl) y
theorem scoverC_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1 S512x1.size (by sl_kernel_rfl) y
theorem scoverC_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1 S512x1.size (by sl_kernel_rfl) y
theorem scoverC_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1 S512x1.size (by sl_kernel_rfl) y
theorem scoverC_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512x1.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1 S512x1.size (by sl_kernel_rfl) y

/-- What case C leaves in the eight accumulators: its pieces read back. -/
def soutC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) : Fin 8 → Vec F S512x1 .f32 := fun k => match k with
  | ⟨0, _⟩ => VS0.read (Elt F) (VS0.writes (Elt F) VS0.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.1)
  | ⟨1, _⟩ => VS1.read (Elt F) (VS1.writes (Elt F) VS1.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.1)
  | ⟨2, _⟩ => VS2.read (Elt F) (VS2.writes (Elt F) VS2.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.1)
  | ⟨3, _⟩ => VS3.read (Elt F) (VS3.writes (Elt F) VS3.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.1)
  | ⟨4, _⟩ => VS4.read (Elt F) (VS4.writes (Elt F) VS4.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.1)
  | ⟨5, _⟩ => VS5.read (Elt F) (VS5.writes (Elt F) VS5.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.1)
  | ⟨6, _⟩ => VS6.read (Elt F) (VS6.writes (Elt F) VS6.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.1)
  | ⟨7, _⟩ => VS7.read (Elt F) (VS7.writes (Elt F) VS7.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).2.2.2.2.2.2.2.2.1)

theorem coverC_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) (y : S512.Idx) :
    ∃ pc ∈ (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1 S512.size (by sl_kernel_rfl) y

/-- What case C leaves in the output block. -/
def outC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) : Vec F S512 .f32 :=
  VO6.read (Elt F) (VO6.writes (Elt F) VO6.junk (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7).1)

end Cert.KernelIdeal.Hand

end
-- ==== Proof.KIData.lean ====
/-
  What the eight accumulators and the output block of the ranking-loss kernel hold after every grid point, the
  invariant between points, and the pipeline's proof data.

  The contents are a recursion on the point: the first column block of a row block starts from nothing, every other
  column block from what the point before left in the accumulators. Between points the accumulators hold those
  contents (before the first point: anything), beside the generator register. The row-side and the column-side input
  windows of one array each hold half of it.
-/
import proofs.«125663_j9543417332489_1_alg».proof.Proof.KIOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators and the output block hold after each point -/

/-- After the body at position `n`: the output block's staging buffer, and the eight accumulators. -/
def outsAt (c : Dev nD) : (n : ℕ) → n < cfg0.N → Vec F S512 .f32 × (Fin 8 → Vec F S512x1 .f32)
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7), soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7))
      else
        (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7), soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((outsAt c n (Nat.lt_of_succ_lt hn)).2 0) ((outsAt c n (Nat.lt_of_succ_lt hn)).2 1) ((outsAt c n (Nat.lt_of_succ_lt hn)).2 2) ((outsAt c n (Nat.lt_of_succ_lt hn)).2 3) ((outsAt c n (Nat.lt_of_succ_lt hn)).2 4) ((outsAt c n (Nat.lt_of_succ_lt hn)).2 5) ((outsAt c n (Nat.lt_of_succ_lt hn)).2 6) ((outsAt c n (Nat.lt_of_succ_lt hn)).2 7))

theorem outsAt_A (c : Dev nD) (t : Fin cfg0.N) (h0 : t.val % 8 = 0) (h1 : ¬t.val % 8 = 7) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t), soutA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7), soutB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7), soutC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulators hold anything; before any other, what the point before left. -/
def PhiS (c : Dev nD) : (n : ℕ) → n ≤ cfg0.N → sProp 𝕄
  | 0, _ => Pipeline.ΦA spec0 c
  | n + 1, hn => iprop(iprop(owns (c : Thread nD τ) sc0 fullShare ((outsAt m c n hn).2 0) ∗ owns (c : Thread nD τ) sc1 fullShare ((outsAt m c n hn).2 1) ∗ owns (c : Thread nD τ) sc2 fullShare ((outsAt m c n hn).2 2) ∗ owns (c : Thread nD τ) sc3 fullShare ((outsAt m c n hn).2 3) ∗ owns (c : Thread nD τ) sc4 fullShare ((outsAt m c n hn).2 4) ∗ owns (c : Thread nD τ) sc5 fullShare ((outsAt m c n hn).2 5) ∗ owns (c : Thread nD τ) sc6 fullShare ((outsAt m c n hn).2 6) ∗ owns (c : Thread nD τ) sc7 fullShare ((outsAt m c n hn).2 7)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((outsAt m c n hn).2 0) ∗ owns (c : Thread nD τ) sc1 fullShare ((outsAt m c n hn).2 1) ∗ owns (c : Thread nD τ) sc2 fullShare ((outsAt m c n hn).2 2) ∗ owns (c : Thread nD τ) sc3 fullShare ((outsAt m c n hn).2 3) ∗ owns (c : Thread nD τ) sc4 fullShare ((outsAt m c n hn).2 4) ∗ owns (c : Thread nD τ) sc5 fullShare ((outsAt m c n hn).2 5) ∗ owns (c : Thread nD τ) sc6 fullShare ((outsAt m c n hn).2 6) ∗ owns (c : Thread nD τ) sc7 fullShare ((outsAt m c n hn).2 7)) ∗ (∃ r, prngReg c r)) := rfl

theorem PhiS_pos (c : Dev nD) (n : ℕ) (h : n ≤ cfg0.N) (hz : n ≠ 0) :
    PhiS m c n h = iprop(iprop(owns (c : Thread nD τ) sc0 fullShare ((outsAt m c (n - 1) (by omega)).2 0) ∗ owns (c : Thread nD τ) sc1 fullShare ((outsAt m c (n - 1) (by omega)).2 1) ∗ owns (c : Thread nD τ) sc2 fullShare ((outsAt m c (n - 1) (by omega)).2 2) ∗ owns (c : Thread nD τ) sc3 fullShare ((outsAt m c (n - 1) (by omega)).2 3) ∗ owns (c : Thread nD τ) sc4 fullShare ((outsAt m c (n - 1) (by omega)).2 4) ∗ owns (c : Thread nD τ) sc5 fullShare ((outsAt m c (n - 1) (by omega)).2 5) ∗ owns (c : Thread nD τ) sc6 fullShare ((outsAt m c (n - 1) (by omega)).2 6) ∗ owns (c : Thread nD τ) sc7 fullShare ((outsAt m c (n - 1) (by omega)).2 7)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest_eq]

/-! ## The pipeline's proof data -/

/-- The arrays as the region finds them; after the body each input window's buffer at its block and the output's at
    `outsAt`; the invariant above; nothing owed. An array read through two windows is held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.KernelIdeal.Hand

end
-- ==== Proof.KIBody.lean ====
/-
  The body obligation of the ranking-loss kernel's pipeline: at every grid point, from the invariant and the windows'
  current staging buffers, the body runs without a fault to the next invariant and the buffers it leaves.
-/
import proofs.«125663_j9543417332489_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the input windows' buffers hold their blocks; the point's case is decided by its position in
    the row block; the invariant hands over the accumulators at what the point before left (at anything before the
    first point) and takes them back at this point's contents; the output block is handed back untouched except in the
    last case, where it holds the row block's losses. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_in 0 (by decide) _], after0]
  rw [show (dats m 0 c).leavesExact 1 t = owns (c : Thread nD τ) (ms1 t) fullShare ((dats m 0 c).after 1 t) from by
    unfold Dat.leavesExact; rw [liveAt_in 1 (by decide) _], after1]
  rw [show (dats m 0 c).leavesExact 2 t = owns (c : Thread nD τ) (ms2 t) fullShare ((dats m 0 c).after 2 t) from by
    unfold Dat.leavesExact; rw [liveAt_in 2 (by decide) _], after2]
  rw [show (dats m 0 c).leavesExact 3 t = owns (c : Thread nD τ) (ms3 t) fullShare ((dats m 0 c).after 3 t) from by
    unfold Dat.leavesExact; rw [liveAt_in 3 (by decide) _], after3]
  rw [show (dats m 0 c).leavesExact 4 t = owns (c : Thread nD τ) (ms4 t) fullShare ((dats m 0 c).after 4 t) from by
    unfold Dat.leavesExact; rw [liveAt_in 4 (by decide) _], after4]
  rw [show (dats m 0 c).leavesExact 5 t = owns (c : Thread nD τ) (ms5 t) fullShare ((dats m 0 c).after 5 t) from by
    unfold Dat.leavesExact; rw [liveAt_in 5 (by decide) _], after5]
  have hN : t.val < 64 := lt_of_lt_of_eq t.isLt (show cfg0.N = 64 from N_0)
  by_cases h0 : t.val % 8 = 0
  · by_cases h1 : t.val % 8 = 7
    · exfalso; omega
    · rw [Dat.leavesExact_idle (dats m 0 c) 6 t (idleAt6 t (fun h => h1 ((hcond1 t).mp h))) (noFlush6 t (fun h => h1 ((hcond1 t).mp h)))]
      by_cases hz : t.val = 0
      · rw [PhiS_castSucc m c t, PhiS_zero m c t.val (Nat.le_of_lt t.isLt) hz, PhiA_eq]
        rw [outsAt_A m c t h0 h1]
        unfold soutA; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverA_4 c _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverA_5 c _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverA_6 c _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverA_7 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c t.val (Nat.le_of_lt t.isLt) hz]
        rw [outsAt_A m c t h0 h1]
        unfold soutA; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        isplitl [HS7]; · iexists _; iexact HS7
        iintro ⟨H0, H1, H2, H3, H4, H5, H6, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverA_4 c _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverA_5 c _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverA_6 c _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverA_7 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [show (dats m 0 c).leavesExact 6 t = owns (c : Thread nD τ) (ms6 t) fullShare ((dats m 0 c).after 6 t) from by
        unfold Dat.leavesExact; rw [liveAt6 t ((hcond1 t).mpr h1)], after6]
      rw [PhiS_castSucc m c t, PhiS_pos m c t.val (Nat.le_of_lt t.isLt) hz]
      rw [outsAt_C m c t h0 h1]
      unfold outC soutC; (try dsimp only)
      ·
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)).2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, ⟨%e6, H6⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverC_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverC_1 c _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverC_2 c _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverC_3 c _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverC_4 c _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverC_5 c _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverC_6 c _ _ _ _ _ _ _ _ _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverC_7 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverC_6 c _ _ _ _ _ _ _ _ _ _ _ _ _ _ _ _ _ _ _ _ _ _ _ _ _ _ _ _ _ _ _ _ _ _ _ _ _ _ _ _ _ _ _ _ _ _ _)
    · rw [Dat.leavesExact_idle (dats m 0 c) 6 t (idleAt6 t (fun h => h1 ((hcond1 t).mp h))) (noFlush6 t (fun h => h1 ((hcond1 t).mp h)))]
      rw [PhiS_castSucc m c t, PhiS_pos m c t.val (Nat.le_of_lt t.isLt) hz]
      rw [outsAt_B m c t h0 h1]
      unfold soutB; (try dsimp only)
      ·
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) ((outsAt m c (t.val - 1) (Nat.lt_of_le_of_lt (Nat.sub_le _ _) t.isLt)).2 0) ((outsAt m c (t.val - 1) (Nat.lt_of_le_of_lt (Nat.sub_le _ _) t.isLt)).2 1) ((outsAt m c (t.val - 1) (Nat.lt_of_le_of_lt (Nat.sub_le _ _) t.isLt)).2 2) ((outsAt m c (t.val - 1) (Nat.lt_of_le_of_lt (Nat.sub_le _ _) t.isLt)).2 3) ((outsAt m c (t.val - 1) (Nat.lt_of_le_of_lt (Nat.sub_le _ _) t.isLt)).2 4) ((outsAt m c (t.val - 1) (Nat.lt_of_le_of_lt (Nat.sub_le _ _) t.isLt)).2 5) ((outsAt m c (t.val - 1) (Nat.lt_of_le_of_lt (Nat.sub_le _ _) t.isLt)).2 6) ((outsAt m c (t.val - 1) (Nat.lt_of_le_of_lt (Nat.sub_le _ _) t.isLt)).2 7)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, ⟨%es0, HS0⟩, ⟨%es1, HS1⟩, ⟨%es2, HS2⟩, ⟨%es3, HS3⟩, ⟨%es4, HS4⟩, ⟨%es5, HS5⟩, ⟨%es6, HS6⟩, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scoverB_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverB_1 c _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scoverB_2 c _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scoverB_3 c _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scoverB_4 c _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scoverB_5 c _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scoverB_6 c _ _ _ _ _ _ _ _ _ _ _ _ _ _ _ _ _ _ _ _ _ _ _ _ _ _ _ _ _ _ _ _ _ _ _ _ _ _ _ _ _ _ _ _ _ _ _)
            unfold owns; iexists _; isplitr
            swap; · iexact HS7
            ipureintro; exact View.read_writes_of_cover _ _ _ _ _ (scoverB_7 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HS0, HS1, HS2, HS3, HS4, HS5, HS6, HS7⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

end Cert.KernelIdeal.Hand

end
-- ==== Proof.KIShares.lean ====
/-
  Dealing the ranking-loss kernel's array buffers among its windows.

  The kernel's seven windows stand on four buffers: the normalised rows are read through a row-side and a column-side
  window, and so are the labels and the groups; the output has a window of its own. Each of the three shared buffers
  is held half by its row-side window (the left half of the full share) and half by its column-side window (the right
  half); the output buffer is held whole by its window. So the four buffers whole at the full share are the seven
  windows' arrays at their shares, at the same contents: dealt on the way into the region, gathered on the way out.
-/
import proofs.«125663_j9543417332489_1_alg».proof.Proof.KIData
import proofs.«125663_j9543417332489_1_alg».proof.Proof.LibShareDeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' shares -/

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl

/-! ## The buffers behind the windows, and the windows on each -/

theorem arr_bufs : ∀ b ∈ Finset.univ.image (Pipeline.arrRef spec0), b = main_v4 ∨ b = main_arg1 ∨ b = main_arg2 ∨ b = main_v5 := by
  decide
theorem on_v4 : (Finset.univ.filter fun w => Pipeline.arrRef spec0 w = main_v4) = {0, 1} := by decide
theorem on_arg1 : (Finset.univ.filter fun w => Pipeline.arrRef spec0 w = main_arg1) = {2, 3} := by decide
theorem on_arg2 : (Finset.univ.filter fun w => Pipeline.arrRef spec0 w = main_arg2) = {4, 5} := by decide
theorem on_v5 : (Finset.univ.filter fun w => Pipeline.arrRef spec0 w = main_v5) = {6} := by decide

/-! ## Dealing and gathering -/

/-- The four array buffers whole at the full share are the seven windows' arrays at their shares, at the same contents. -/
theorem arr_deal (c : Dev nD) (Vb : (b : Ref sig .tc) → Buf (Elt F) ((c : Thread nD τ).loc b))
    (Fw : (w : Fin cfg0.W) → Buf (Elt F) ((cfg0.win w).arr.view.loc (c : Thread nD τ)))
    (hF : ∀ w, Fw w = Vb (Pipeline.arrRef spec0 w)) :
    (Pipeline.arrBufs spec0 c Vb : sProp 𝕄) = (dats m 0 c).arrays Fw :=
  LibShareDeal.arrays_deal (dats m 0 c) arr_whole0 Vb Fw hF (fun b hb => by
    obtain rfl | rfl | rfl | rfl := arr_bufs b hb
    · exact LibShareDeal.fibre_two _ _ _ _ 0 1 (by decide) on_v4 (share0 m c) (share1 m c)
    · exact LibShareDeal.fibre_two _ _ _ _ 2 3 (by decide) on_arg1 (share2 m c) (share3 m c)
    · exact LibShareDeal.fibre_two _ _ _ _ 4 5 (by decide) on_arg2 (share4 m c) (share5 m c)
    · exact LibShareDeal.fibre_one _ _ _ _ 6 on_v5 (share6 m c))

/-- Entering the region: the array buffers, as the host operations before the region left them, are dealt to the windows. -/
theorem arr_split (c : Dev nD) :
    (Pipeline.arrBufs spec0 c (fun b => W2 m c b) : sProp 𝕄) ⊢ (dats m 0 c).arrays ((dats m 0 c).arrAt · 0) :=
  Entails.of_eq (arr_deal m c (fun b => W2 m c b) _ (fun w => A_eq m c w))

/-- Leaving the region: the windows' arrays, at what the write-backs left, are gathered into the array buffers at any
    contents that has them there. -/
theorem arr_join' (W' : Dev nD → Valuation τ sig (Elt F))
    (hF : ∀ c w, (dats m 0 c).arrAt w cfg0.N = W' c (Pipeline.arrRef spec0 w)) (c : Dev nD) :
    (dats m 0 c).arrays ((dats m 0 c).arrAt · cfg0.N) ⊢ (Pipeline.arrBufs spec0 c (fun b => W' c b) : sProp 𝕄) :=
  Entails.of_eq (arr_deal m c (fun b => W' c b) _ (hF c)).symm

end Cert.KernelIdeal.Hand

end
-- ==== Proof.KIEnds.lean ====
/-
  The buffers of the ranking-loss program after the kernel region and at the end: the region writes the 4096 row
  losses into their array and leaves every other unscoped buffer as it found it; the host then takes their mean.
-/
import proofs.«125663_j9543417332489_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the region: the losses' array at what the write-backs left, everything else as the region found it. -/
def W3 (c : Dev nD) : Valuation τ sig (Elt F) :=
  Function.update (W2 m c) (Proc.devRef .tc main_v5) ((dats m 0 c).arrAt 6 cfg0.N)
/-- The buffers at the end: the mean has been taken. -/
abbrev W4 (c : Dev nD) : Valuation τ sig (Elt F) := StableHlo.after hostOps1 (W3 m c)

/-- Outside the windows' arrays the region changes nothing. -/
theorem W3_rest (c : Dev nD) (b : Ref sig .tc) (hb : b ∉ Finset.univ.image (Pipeline.arrRef spec0)) : W3 m c b = W2 m c b := by
  unfold W3
  refine Function.update_of_ne (fun h => hb ?_) _ _
  have : b = main_v5 := Proc.devRef_injective _ h
  subst this
  exact Finset.mem_image.mpr ⟨6, Finset.mem_univ _, rfl⟩

theorem arr_ne5 : ∀ w : Fin 7, w.val < 6 → Pipeline.arrRef spec0 w ≠ main_v5 := by decide

/-- Each window's array after the region is what `W3` gives it: an input's as the region found it, the output's as written back. -/
theorem W3_arr (c : Dev nD) (w : Fin cfg0.W) : (dats m 0 c).arrAt w cfg0.N = W3 m c (Pipeline.arrRef spec0 w) :=
  match w with
  | ⟨0, h⟩ => ((dats m 0 c).arrAt_in ⟨0, h⟩ rfl _).trans ((A_eq m c ⟨0, h⟩).trans (by unfold W3; exact (Function.update_of_ne (StableHlo.devRef_ne_of_ne (arr_ne5 _ (by show (0 : ℕ) < 6; decide))) _ _).symm))
  | ⟨1, h⟩ => ((dats m 0 c).arrAt_in ⟨1, h⟩ rfl _).trans ((A_eq m c ⟨1, h⟩).trans (by unfold W3; exact (Function.update_of_ne (StableHlo.devRef_ne_of_ne (arr_ne5 _ (by show (1 : ℕ) < 6; decide))) _ _).symm))
  | ⟨2, h⟩ => ((dats m 0 c).arrAt_in ⟨2, h⟩ rfl _).trans ((A_eq m c ⟨2, h⟩).trans (by unfold W3; exact (Function.update_of_ne (StableHlo.devRef_ne_of_ne (arr_ne5 _ (by show (2 : ℕ) < 6; decide))) _ _).symm))
  | ⟨3, h⟩ => ((dats m 0 c).arrAt_in ⟨3, h⟩ rfl _).trans ((A_eq m c ⟨3, h⟩).trans (by unfold W3; exact (Function.update_of_ne (StableHlo.devRef_ne_of_ne (arr_ne5 _ (by show (3 : ℕ) < 6; decide))) _ _).symm))
  | ⟨4, h⟩ => ((dats m 0 c).arrAt_in ⟨4, h⟩ rfl _).trans ((A_eq m c ⟨4, h⟩).trans (by unfold W3; exact (Function.update_of_ne (StableHlo.devRef_ne_of_ne (arr_ne5 _ (by show (4 : ℕ) < 6; decide))) _ _).symm))
  | ⟨5, h⟩ => ((dats m 0 c).arrAt_in ⟨5, h⟩ rfl _).trans ((A_eq m c ⟨5, h⟩).trans (by unfold W3; exact (Function.update_of_ne (StableHlo.devRef_ne_of_ne (arr_ne5 _ (by show (5 : ℕ) < 6; decide))) _ _).symm))
  | ⟨6, h⟩ => by
    show _ = W3 m c (Proc.devRef .tc main_v5)
    unfold W3; rw [Function.update_self]; rfl

end Cert.KernelIdeal.Hand

end
-- ==== Proof.KILaunch.lean ====
/-
  The run of the ranking-loss program: the host computes the row norms and divides the rows by them, the kernel region
  computes the 4096 row losses, the host averages them. Every weakly fair execution ends, without a fault, with every
  unscoped buffer of the core at what these four stretches leave in turn: the launch contents, the norms, the
  normalised rows, the row losses written back by the region, and their mean.
-/
import proofs.«125663_j9543417332489_1_alg».proof.Proof.KIBody
import proofs.«125663_j9543417332489_1_alg».proof.Proof.KIShares
import proofs.«125663_j9543417332489_1_alg».proof.Proof.KIEnds
import proofs.«125663_j9543417332489_1_alg».proof.Proof.LibRegionTracked
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through every stretch: the generator register, and the core owing nothing. -/
abbrev R (c : Dev nD) : sProp 𝕄 := LibRegionTracked.Rest c

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The row norms. -/
def segA : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    fresh0 (W0 m) R
/-- The rows divided by their clamped norms. -/
def segB : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    fresh0_1 (W1 m) R
/-- The mean of the row losses. -/
def segC : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    fresh1 (W3 m) R

-- the record is stated over the pinned configuration; ours is the printed one
set_option backward.isDefEq.respectTransparency.types false in
/-- The region: entered with the normalised rows, the labels and the groups dealt to its six input windows; left with
    the losses' array written. -/
def reg0 : Pipeline.RegionSeg (pcfgs (F := F)) adm (dats m) () defs₀ 𝒱₀ L lv 0 :=
  LibRegionTracked.trackedShared (pcfgs (F := F)) adm (dats m) defs₀ 𝒱₀ L lv 0 winFacts₀0 block_pos0 stage_whole0
    (by dsimp only [pcfgs, Pipeline.Cfg.toPCfg]; infer_instance)
    (fun c => by
      iintro ⟨Hr, Hs⟩
      iapply (hin m c)
      unfold Pipeline.ΦA
      isplitl [Hs] <;> iassumption)
    (fun c => by
      iintro H
      ihave H' := (hout m c) $$ H
      unfold Pipeline.ΦA
      icases H' with ⟨Hs, Hr⟩
      isplitl [Hr] <;> iassumption)
    (fun _ _ => rfl) (fun _ _ => rfl) (body_obligation m) (W2 m) (W3 m) (arr_split m) (arr_join' m (W3 m) (W3_arr m)) (W3_rest m)

abbrev segs : List (Pipeline.Seg (pcfgs (F := F)) adm (dats m) () defs₀ 𝒱₀ L lv) :=
  [.host (segA m), .host (segB m), .region (reg0 m), .host (segC m)]

/-- The launch element: the pipeline library's, at the staging cells. -/
def u₀ : UR sig nD τ := initOf (Pipeline.cells cfgs cellOf_inj) (Pipeline.launchToks cfgs cellOf_inj)

/-- The physical post: every unscoped buffer of every core at the end's contents. -/
def QC : PUnit × MemSt nD τ sig (Elt F) → Prop := fun r =>
  ∀ c : Dev nD, ∀ b ∈ Pipeline.ucRefs τ sig, r.2.mem ((c : Thread nD τ).1, b) = W4 m c b

set_option backward.isDefEq.respectTransparency.types false in
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      refine (show (ownU (u₀ : UR sig nD τ) : sProp 𝕄) ⊢ BI.own ((EP (F := F)) (initOf (Pipeline.cells (Pipeline.pin (pcfgs (F := F)) adm) cellOf_inj) (Pipeline.launchToks (Pipeline.pin (pcfgs (F := F)) adm) cellOf_inj))) from .rfl).trans ?_
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ ((∃ r, prngReg c r) ∗ ∃ S, owes (c : Thread nD τ) (0 : CellTallies nD τ sig Unit) S)) ⊢ _
      iintro ⟨Hh, Hr, Ho⟩
      isplitr [Ho]
      · isplitl [Hh] <;> iassumption
      · iexact Ho⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem ((c : Thread nD τ).1, b) = W4 m c b)
    (hfin := fun c s' => by
      iintro ⟨⟨Hh, -⟩, HSI⟩
      unfold StableHlo.held
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KIKept.lean ====
/-
  The host operations around the kernel region of the ranking-loss program leave the arguments alone.

  No host operation before or after the region writes an argument, and the region writes only the losses' array: the
  labels and the groups the region reads, and all three arguments at the end, are the launch contents; and the losses'
  array after the region is what the write-backs left there.
-/
import proofs.«125663_j9543417332489_1_alg».proof.Proof.KIEnds

set_option maxRecDepth 16384

noncomputable section

namespace Cert.KernelIdeal.Tail

open Cert.KernelIdeal Cert.KernelIdeal.Gen Cert.KernelIdeal.Hand
open Idealize.ShloMosaic Idealize.ShloMosaic.TcCoe
open Idealize.ShloMosaic.StableHlo (after_cons after_nil nullary_result unary_result binary_result nullary_result_ne unary_result_ne binary_result_ne)

variable {F : FTy → Type} [FloatOps F] (m : (ℓ : Loc nD τ sig) → Buf (Elt F) ℓ)

/-! ## What the region finds -/

/-- The rows' argument, when the region is entered, is the launch contents. -/
theorem W2_arg0 (c : Dev nD) : W2 m c (Proc.devRef .tc main_arg0) = m (c, Proc.devRef .tc main_arg0) := by
  show StableHlo.after hostOps0_1 (StableHlo.after hostOps0 (fun b => m (c, b))) (Proc.devRef .tc main_arg0) = _
  after_results

/-- The labels the region reads are the launch contents. -/
theorem W2_arg1 (c : Dev nD) : W2 m c (Proc.devRef .tc main_arg1) = m (c, Proc.devRef .tc main_arg1) := by
  show StableHlo.after hostOps0_1 (StableHlo.after hostOps0 (fun b => m (c, b))) (Proc.devRef .tc main_arg1) = _
  after_results

/-- The groups the region reads are the launch contents. -/
theorem W2_arg2 (c : Dev nD) : W2 m c (Proc.devRef .tc main_arg2) = m (c, Proc.devRef .tc main_arg2) := by
  show StableHlo.after hostOps0_1 (StableHlo.after hostOps0 (fun b => m (c, b))) (Proc.devRef .tc main_arg2) = _
  after_results

/-! ## After the region -/

/-- The losses' array after the region is what the write-backs left. -/
theorem W3_v5 (c : Dev nD) : W3 m c (Proc.devRef .tc main_v5) = (dats m 0 c).arrAt 6 cfg0.N := by
  unfold W3
  rw [Function.update_self]

/-! ## At the end -/

/-- The three arguments at the end are the launch contents. -/
theorem W4_arg0 (c : Dev nD) : W4 m c (Proc.devRef .tc main_arg0) = m (c, Proc.devRef .tc main_arg0) := by
  show StableHlo.after hostOps1 (W3 m c) (Proc.devRef .tc main_arg0) = _
  after_results
  unfold W3
  rw [Function.update_of_ne (StableHlo.devRef_ne_of_ne (by decide))]
  exact W2_arg0 m c
theorem W4_arg1 (c : Dev nD) : W4 m c (Proc.devRef .tc main_arg1) = m (c, Proc.devRef .tc main_arg1) := by
  show StableHlo.after hostOps1 (W3 m c) (Proc.devRef .tc main_arg1) = _
  after_results
  unfold W3
  rw [Function.update_of_ne (StableHlo.devRef_ne_of_ne (by decide))]
  exact W2_arg1 m c
theorem W4_arg2 (c : Dev nD) : W4 m c (Proc.devRef .tc main_arg2) = m (c, Proc.devRef .tc main_arg2) := by
  show StableHlo.after hostOps1 (W3 m c) (Proc.devRef .tc main_arg2) = _
  after_results
  unfold W3
  rw [Function.update_of_ne (StableHlo.devRef_ne_of_ne (by decide))]
  exact W2_arg2 m c

end Cert.KernelIdeal.Tail

end
-- ==== Proof.KIFrameGen.lean ====
/-
  The ranking-loss program runs and leaves its three arguments as it found them.

  The run ends with every unscoped buffer of every core at what the host operations and the region left in turn; the
  arguments are unscoped buffers that nothing writes, so they end at the launch contents.
-/
import proofs.«125663_j9543417332489_1_alg».proof.Proof.KILaunch
import proofs.«125663_j9543417332489_1_alg».proof.Proof.KIKept

set_option maxRecDepth 16384

noncomputable section

namespace Cert.KernelIdeal.Tail

open Cert.KernelIdeal Cert.KernelIdeal.Gen Cert.KernelIdeal.Hand
open Idealize.ShloMosaic Idealize.ShloMosaic.TcCoe Idealize.SL.Sem

/-! ## The arguments and the result are unscoped buffers of the core -/

theorem arg0_uc : Proc.devRef (τ := τ) .tc main_arg0 ∈ Pipeline.ucRefs τ sig :=
  Finset.mem_filter.mpr ⟨StableHlo.devRef_mem_tcRefs _, by decide⟩
theorem arg1_uc : Proc.devRef (τ := τ) .tc main_arg1 ∈ Pipeline.ucRefs τ sig :=
  Finset.mem_filter.mpr ⟨StableHlo.devRef_mem_tcRefs _, by decide⟩
theorem arg2_uc : Proc.devRef (τ := τ) .tc main_arg2 ∈ Pipeline.ucRefs τ sig :=
  Finset.mem_filter.mpr ⟨StableHlo.devRef_mem_tcRefs _, by decide⟩
theorem v7_uc : Proc.devRef (τ := τ) .tc main_v7 ∈ Pipeline.ucRefs τ sig :=
  Finset.mem_filter.mpr ⟨StableHlo.devRef_mem_tcRefs _, by decide⟩

/-! ## The frame -/

variable {F : FTy → Type} [FloatOps F] (m : (ℓ : Loc nD τ sig) → Buf (Elt F) ℓ)

/-- Every weakly fair execution terminates without a fault, the three arguments unchanged. -/
theorem frame_gen (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ arg0_uc).trans (W4_arg0 m c), (h c _ arg1_uc).trans (W4_arg1 m c), (h c _ arg2_uc).trans (W4_arg2 m c)⟩)
    (run_main m ρ)

end Cert.KernelIdeal.Tail

end
-- ==== Proof.RankSpec.lean ====
/-
  The ranking loss of a batch of 4096 unit-normalised rows, as one function on the extended reals.

  For rows `x r` (r < 4096, 2048 coordinates each), labels `tg r` and groups `sb r`:
    dist r c  = sqrt (max ((|x r|² + |x c|²) − 2·⟨x r, x c⟩) ε)          the clamped Euclidean distance of two rows;
    a pair (r, c), r ≠ c, is positive when the labels agree and negative when they differ, and is intra-group or
    cross-group by the groups; that sorts the pairs of a row into four classes (a pair on the diagonal with equal
    labels is in none).
  Per row, eight sums over all 4096 columns:
    positives, intra:  S1 = Σ max(dist − 1.4, 0),  N1 = the number of such pairs;  the same for cross with 0.7;
    negatives, intra, closer than 2.4:  P3 = Σ (2.4 − dist)·e^(2.4 − dist),  W3 = Σ e^(2.4 − dist);  cross with 2.2.
  The row's loss is S1/(N1+δ) + S2/(N2+δ) + P3/(W3+δ) + P4/(W4+δ), and the loss is the mean of the rows' losses.

  Every constant is kept as the 32-bit word the programs print, so that no word is ever evaluated; only the zero word
  is known to be 0. A sum over the 4096 columns splits into eight consecutive blocks of 512 (`part`): the value after
  the first n blocks is the sum over the columns below 512·n.
-/
import Idealize.ShloMosaic.PureOps.Ideal
import Idealize.ShloMosaic.PureOps.Ideal.Laws
import Idealize.ShloMosaic.Lib.ValueIdx

noncomputable section

namespace RankSpec

open Idealize.ShloMosaic

/-- A 32-bit word read as the extended real it denotes. -/
abbrev L (b : BitVec 32) : EReal := Ideal.ofBits .f32 b

/-- Negation of a one-bit truth value. -/
abbrev not1 (b : BitVec 1) : BitVec 1 := IntOp.xori b 1#1

section Pair

variable (x : Fin 4096 → Fin 2048 → EReal) (tg sb : Fin 4096 → BitVec 32)

/-- The squared length of row `r`. -/
def sq (r : Fin 4096) : EReal := ∑ k : Fin 2048, x r k * x r k
/-- The inner product of rows `r` and `c`. -/
def dot (r c : Fin 4096) : EReal := ∑ k : Fin 2048, x r k * x c k
/-- The clamped distance of rows `r` and `c`. -/
def dist (r c : Fin 4096) : EReal :=
  Ideal.sqrt (max ((sq x r + sq x c) - L 0x40000000#32 * dot x r c) (L 0x2B8CBCCC#32))

/-- The labels agree; the groups agree; the pair is on the diagonal. -/
def same (r c : Fin 4096) : BitVec 1 := IntOp.cmpi .eq (tg r) (tg c)
def intra (r c : Fin 4096) : BitVec 1 := IntOp.cmpi .eq (sb r) (sb c)
def eye (r c : Fin 4096) : BitVec 1 := BitVec.ofBool (decide (r = c))
/-- Positive pairs (equal labels, off the diagonal) and negative pairs (different labels). -/
def pos (r c : Fin 4096) : BitVec 1 := IntOp.andi (same tg r c) (not1 (eye r c))
def neg (r c : Fin 4096) : BitVec 1 := not1 (same tg r c)
/-- The four classes of pairs. -/
def m1 (r c : Fin 4096) : BitVec 1 := IntOp.andi (pos tg r c) (intra sb r c)
def m2 (r c : Fin 4096) : BitVec 1 := IntOp.andi (pos tg r c) (not1 (intra sb r c))
def m3 (r c : Fin 4096) : BitVec 1 := IntOp.andi (neg tg r c) (intra sb r c)
def m4 (r c : Fin 4096) : BitVec 1 := IntOp.andi (neg tg r c) (not1 (intra sb r c))

/-- A positive pair's hinge term, with the margin word `w`; and a class's indicator as a number. -/
def hinge (w : BitVec 32) (m : BitVec 1) (d : EReal) : EReal :=
  Scalar.select m (max (d + L w) (L 0x00000000#32)) (L 0x00000000#32)
def ind (m : BitVec 1) : EReal := (((m.setWidth 32).toInt : ℝ) : EReal)
/-- A negative pair closer than the threshold word `w`: its weight and its weighted gap. -/
def near (w : BitVec 32) (m : BitVec 1) (d : EReal) : BitVec 1 := IntOp.andi m (Ideal.cmp .olt d (L w))
def gap (w : BitVec 32) (d : EReal) : EReal := L w - d
def weight (w : BitVec 32) (m : BitVec 1) (d : EReal) : EReal :=
  Scalar.select (near w m d) (Ideal.exp (L 0x3F800000#32 * gap w d)) (L 0x00000000#32)
def wgap (w : BitVec 32) (m : BitVec 1) (d : EReal) : EReal :=
  Scalar.select (near w m d) (gap w d) (L 0x00000000#32) * weight w m d

/-- The eight per-pair terms. -/
def t1 (r c : Fin 4096) : EReal := hinge 0xBFB33333#32 (m1 tg sb r c) (dist x r c)
def c1 (r c : Fin 4096) : EReal := ind (m1 tg sb r c)
def t2 (r c : Fin 4096) : EReal := hinge 0xBF333333#32 (m2 tg sb r c) (dist x r c)
def c2 (r c : Fin 4096) : EReal := ind (m2 tg sb r c)
def p3 (r c : Fin 4096) : EReal := wgap 0x4019999A#32 (m3 tg sb r c) (dist x r c)
def w3 (r c : Fin 4096) : EReal := weight 0x4019999A#32 (m3 tg sb r c) (dist x r c)
def p4 (r c : Fin 4096) : EReal := wgap 0x400CCCCD#32 (m4 tg sb r c) (dist x r c)
def w4 (r c : Fin 4096) : EReal := weight 0x400CCCCD#32 (m4 tg sb r c) (dist x r c)

end Pair

/-- A per-pair term summed over a whole row, -/
def rowSum (f : Fin 4096 → Fin 4096 → EReal) (r : Fin 4096) : EReal := ∑ c : Fin 4096, f r c
/-- and over its first `n` blocks of 512 columns. -/
def part (f : Fin 4096 → Fin 4096 → EReal) (r : Fin 4096) (n : ℕ) : EReal :=
  ∑ c ∈ Finset.univ.filter (fun c : Fin 4096 => c.val < 512 * n), f r c

/-- Column `q` of block `j`. -/
def col (j : Fin 8) (q : Fin 512) : Fin 4096 := ⟨512 * j.val + q.val, by omega⟩
/-- Row `p` of block `i`. -/
abbrev row (i : Fin 8) (p : Fin 512) : Fin 4096 := col i p

theorem part_zero (f : Fin 4096 → Fin 4096 → EReal) (r : Fin 4096) : part f r 0 = 0 := by
  unfold part; simp

theorem part_eight (f : Fin 4096 → Fin 4096 → EReal) (r : Fin 4096) : part f r 8 = rowSum f r := by
  unfold part rowSum
  rw [Finset.filter_true_of_mem (fun c _ => by have := c.isLt; omega)]

/-- Adding block `j` to the first `j` blocks gives the first `j + 1`. -/
theorem part_succ (f : Fin 4096 → Fin 4096 → EReal) (r : Fin 4096) (j : Fin 8) :
    part f r (j.val + 1) = part f r j.val + ∑ q : Fin 512, f r (col j q) := by
  unfold part
  have hsplit : Finset.univ.filter (fun c : Fin 4096 => c.val < 512 * (j.val + 1))
      = Finset.univ.filter (fun c : Fin 4096 => c.val < 512 * j.val) ∪ Finset.univ.image (col j) := by
    ext c
    simp only [Finset.mem_filter, Finset.mem_univ, true_and, Finset.mem_union, Finset.mem_image]
    constructor
    · intro h
      by_cases hc : c.val < 512 * j.val
      · exact Or.inl hc
      · exact Or.inr ⟨⟨c.val - 512 * j.val, by omega⟩, Fin.ext (by simp only [col]; omega)⟩
    · rintro (h | ⟨q, rfl⟩)
      · omega
      · simp only [col]; omega
  have hdisj : Disjoint (Finset.univ.filter (fun c : Fin 4096 => c.val < 512 * j.val)) (Finset.univ.image (col j)) := by
    rw [Finset.disjoint_left]
    intro c hc hc'
    simp only [Finset.mem_filter, Finset.mem_univ, true_and] at hc
    obtain ⟨q, -, rfl⟩ := Finset.mem_image.mp hc'
    simp only [col] at hc; omega
  rw [hsplit, Finset.sum_union hdisj, Finset.sum_image]
  intro a _ b _ h
  exact Fin.ext (by have := congrArg Fin.val h; simp only [col] at this; omega)

section Loss

variable (x : Fin 4096 → Fin 2048 → EReal) (tg sb : Fin 4096 → BitVec 32)

/-- One class's share of a row's loss: its sum over its count or total weight, regularised by the word `δ`. -/
def share (num den : EReal) : EReal := Ideal.div num (den + L 0x3727C5AC#32)

/-- The loss of row `r`. -/
def rowLoss (r : Fin 4096) : EReal :=
  share (rowSum (t1 x tg sb) r) (rowSum (c1 tg sb) r) + share (rowSum (t2 x tg sb) r) (rowSum (c2 tg sb) r)
    + share (rowSum (p3 x tg sb) r) (rowSum (w3 x tg sb) r) + share (rowSum (p4 x tg sb) r) (rowSum (w4 x tg sb) r)

/-- The loss: the mean of the rows' losses. -/
def loss : EReal := Ideal.div (∑ r : Fin 4096, rowLoss x tg sb r) (L 0x45800000#32)

end Loss

end RankSpec

end
-- ==== Proof.LibSumIdx1.lean ====
/-
  A sum over a rank-1 index set is the sum over its one coordinate.
-/
import Idealize.ShloMosaic.Lib.ValueIdx

noncomputable section

namespace SumIdx1

open Idealize.ShloMosaic Idealize.ShloMosaic.ValueIdx

/-- A rank-1 index set is its coordinate's range … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

end SumIdx1

end
-- ==== Proof.KITail.lean ====
/-
  The host operations around the kernel region of the ranking-loss program, read back at the ideal values.

  Before the region the host normalises the rows: the row sums of squares, their square roots clamped from below, the
  rows divided by them — the same operations, on the same argument, as the reference's first stage, so the array the
  region reads is that stage. After the region the host sums the 4096 row losses from the zero word and divides by the
  word of 4096: the mean; if each row's entry is the specification's row loss, the result is the specification's loss.
-/
import proofs.«125663_j9543417332489_1_alg».proof.Proof.KIKept
import proofs.«125663_j9543417332489_1_alg».proof.Proof.Gen.ReferenceIdeal.Read
import proofs.«125663_j9543417332489_1_alg».proof.Proof.RankSpec
import proofs.«125663_j9543417332489_1_alg».proof.Proof.LibSumIdx1

set_option maxRecDepth 16384

noncomputable section

namespace Cert.KernelIdeal.Tail

open Cert.KernelIdeal Cert.KernelIdeal.Gen Cert.KernelIdeal.Hand
open Idealize.ShloMosaic Idealize.ShloMosaic.TcCoe
open Idealize.ShloMosaic.StableHlo (after_cons after_nil nullary_result unary_result binary_result nullary_result_ne unary_result_ne binary_result_ne)

variable (m : (ℓ : Loc nD τ sig) → Buf (Elt Ideal) ℓ)

/-- The normalised rows the region reads are the reference's stage of the same name, of the same argument. -/
theorem rows_eq (c : Dev nD) :
    (W2 (F := Ideal) m c (Proc.devRef .tc main_v4) : Cert.ReferenceIdeal.S4096x2048.Idx → EReal)
      = Cert.ReferenceIdeal.Read.val_main_v4 (F := Ideal) (m (c, Proc.devRef .tc main_arg0)) := by
  show StableHlo.after hostOps0_1 (StableHlo.after hostOps0 (fun b => m (c, b))) (Proc.devRef .tc main_v4) = _
  after_results
  rfl

/-- The result: the sum of the losses' array from the zero word, divided by the word of 4096. -/
theorem result_eq (c : Dev nD) :
    W4 (F := Ideal) m c (Proc.devRef .tc main_v7)
      = fun _ => Ideal.div (∑ r : Fin 4096, (W3 (F := Ideal) m c (Proc.devRef .tc main_v5) : S4096.Idx → EReal) (ValueIdx.ix1 r)) (RankSpec.L 0x45800000#32) := by
  show StableHlo.after hostOps1 (W3 m c) (Proc.devRef .tc main_v7) = _
  after_results
  funext i
  show FloatOps.hostDivf (Host.reduceAdd (W3 m c (Proc.devRef .tc main_v5)) (constant (F := Ideal) S_ .f32 0x00000000#32) reducesTo_S4096_S_d0 h_S_ i)
      (constant (F := Ideal) S_ .f32 0x45800000#32 i) = _
  simp only [Host.reduceAdd, Ideal.hostReduceAdd_def, Ideal.hostDivf_def, ValueIdx.constant_apply]
  rw [Ideal.hostReduceAdd_total reducesTo_S4096_S_d0 (fun b => b.elim0), Ideal.ofBits_zero_f32, zero_add, SumIdx1.sum_idx1]

/-- If every row's entry of the losses' array is the specification's row loss of the arrays the region read, the result
    is the specification's loss of them. -/
theorem result_loss (c : Dev nD)
    (hrow : ∀ r : Fin 4096, ((dats m 0 c).arrAt 6 cfg0.N : S4096.Idx → EReal) (ValueIdx.ix1 r)
      = RankSpec.rowLoss (fun r k => (W2 (F := Ideal) m c (Proc.devRef .tc main_v4) : S4096x2048.Idx → EReal) (ValueIdx.ix2 r k))
          (fun r => (W2 (F := Ideal) m c (Proc.devRef .tc main_arg1) : S4096.Idx → BitVec 32) (ValueIdx.ix1 r))
          (fun r => (W2 (F := Ideal) m c (Proc.devRef .tc main_arg2) : S4096.Idx → BitVec 32) (ValueIdx.ix1 r)) r) :
    W4 (F := Ideal) m c (Proc.devRef .tc main_v7)
      = fun _ => RankSpec.loss (fun r k => (W2 (F := Ideal) m c (Proc.devRef .tc main_v4) : S4096x2048.Idx → EReal) (ValueIdx.ix2 r k))
          (fun r => (W2 (F := Ideal) m c (Proc.devRef .tc main_arg1) : S4096.Idx → BitVec 32) (ValueIdx.ix1 r))
          (fun r => (W2 (F := Ideal) m c (Proc.devRef .tc main_arg2) : S4096.Idx → BitVec 32) (ValueIdx.ix1 r)) := by
  refine (result_eq m c).trans ?_
  funext _
  unfold RankSpec.loss
  refine congrArg (fun s => Ideal.div s (RankSpec.L 0x45800000#32)) (Finset.sum_congr rfl fun r _ => ?_)
  refine Eq.trans ?_ (hrow r)
  rw [W3_v5]

end Cert.KernelIdeal.Tail

end
-- ==== Proof.KIVal4.lean ====
/-
  The six input blocks of a grid point, in terms of the batch.

  Point t of the 8 by 8 grid, the column block innermost, works on row block t / 8 and column block t mod 8. The rows,
  labels and groups are the arrays as the region finds them; the row-side windows hold, at point t, rows
  512 (t / 8) + p of their array and the column-side windows rows 512 (t mod 8) + q: a block's coordinate is its index
  times its size plus the coordinate inside the block, and the index maps are decided once over the grid.
-/
import proofs.«125663_j9543417332489_1_alg».proof.Proof.KIData
import proofs.«125663_j9543417332489_1_alg».proof.Proof.RankSpec
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-- The rows, the labels and the groups of the batch, as the region finds them on core c. -/
def X (c : Dev nD) : Fin 4096 → Fin 2048 → EReal := fun r k => (V m c main_v4 : S4096x2048.Idx → EReal) (ValueIdx.ix2 r k)
def TG (c : Dev nD) : Fin 4096 → BitVec 32 := fun r => (V m c main_arg1 : S4096.Idx → BitVec 32) (ValueIdx.ix1 r)
def SB (c : Dev nD) : Fin 4096 → BitVec 32 := fun r => (V m c main_arg2 : S4096.Idx → BitVec 32) (ValueIdx.ix1 r)

theorem N_lt (t : Fin cfg0.N) : t.val < 64 := lt_of_lt_of_eq t.isLt (show cfg0.N = 64 from N_0)

/-- The row block and the column block of point t. -/
def bi (t : Fin cfg0.N) : Fin 8 := ⟨t.val / 8, by have := N_lt t; omega⟩
def bj (t : Fin cfg0.N) : Fin 8 := ⟨t.val % 8, Nat.mod_lt _ (by decide)⟩

/-- The grid coordinates of point t. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem coords0 (t : Fin cfg0.N) : (grid0.coords t 0).val = (bi t).val := (coords_facts t).1
theorem coords1 (t : Fin cfg0.N) : (grid0.coords t 1).val = (bj t).val := (coords_facts t).2

/-- The windows' block indices at point t. -/
theorem idx_facts : ∀ t : Fin cfg0.N,
    (win0_0.index t 0 = t.val / 8 ∧ win0_0.index t 1 = 0) ∧ (win0_1.index t 0 = t.val % 8 ∧ win0_1.index t 1 = 0)
      ∧ win0_2.index t 0 = t.val / 8 ∧ win0_3.index t 0 = t.val % 8 ∧ win0_4.index t 0 = t.val / 8
      ∧ win0_5.index t 0 = t.val % 8 ∧ win0_6.index t 0 = t.val / 8 :=
  (by decide +kernel : ∀ t : Fin grid0.N,
    (win0_0.index t 0 = t.val / 8 ∧ win0_0.index t 1 = 0) ∧ (win0_1.index t 0 = t.val % 8 ∧ win0_1.index t 1 = 0)
      ∧ win0_2.index t 0 = t.val / 8 ∧ win0_3.index t 0 = t.val % 8 ∧ win0_4.index t 0 = t.val / 8
      ∧ win0_5.index t 0 = t.val % 8 ∧ win0_6.index t 0 = t.val / 8)

/-- The row block's rows. -/
theorem iblk0_apply (c : Dev nD) (t : Fin cfg0.N) (p : Fin 512) (k : Fin 2048) :
    (iblk m c 0 t : Vec Ideal S512x2048 .f32) (ValueIdx.ix2 p k) = X m c (RankSpec.row (bi t) p) k := by
  unfold iblk X
  rw [View.read_apply]
  show V m c main_v4 _ = V m c main_v4 _
  refine congrArg (V m c main_v4) (funext fun a => Fin.ext ?_)
  match a with
  | ⟨0, _⟩ =>
    show win0_0.index t 0 * 512 + 1 * p.val = 512 * (t.val / 8) + p.val
    rw [(idx_facts t).1.1]; omega
  | ⟨1, _⟩ =>
    show win0_0.index t 1 * 2048 + 1 * k.val = k.val
    rw [(idx_facts t).1.2]; omega

/-- The column block's rows. -/
theorem iblk1_apply (c : Dev nD) (t : Fin cfg0.N) (q : Fin 512) (k : Fin 2048) :
    (iblk m c 1 t : Vec Ideal S512x2048 .f32) (ValueIdx.ix2 q k) = X m c (RankSpec.col (bj t) q) k := by
  unfold iblk X
  rw [View.read_apply]
  show V m c main_v4 _ = V m c main_v4 _
  refine congrArg (V m c main_v4) (funext fun a => Fin.ext ?_)
  match a with
  | ⟨0, _⟩ =>
    show win0_1.index t 0 * 512 + 1 * q.val = 512 * (t.val % 8) + q.val
    rw [(idx_facts t).2.1.1]; omega
  | ⟨1, _⟩ =>
    show win0_1.index t 1 * 2048 + 1 * k.val = k.val
    rw [(idx_facts t).2.1.2]; omega

/-- The row block's labels. -/
theorem iblk2_apply (c : Dev nD) (t : Fin cfg0.N) (p : Fin 512) :
    (iblk m c 2 t : Vec Ideal S512 .i32) (ValueIdx.ix1 p) = TG m c (RankSpec.row (bi t) p) := by
  unfold iblk TG
  rw [View.read_apply]
  show V m c main_arg1 _ = V m c main_arg1 _
  refine congrArg (V m c main_arg1) (funext fun a => Fin.ext ?_)
  match a with
  | ⟨0, _⟩ =>
    show win0_2.index t 0 * 512 + 1 * p.val = 512 * (t.val / 8) + p.val
    rw [(idx_facts t).2.2.1]; omega

/-- The column block's labels. -/
theorem iblk3_apply (c : Dev nD) (t : Fin cfg0.N) (q : Fin 512) :
    (iblk m c 3 t : Vec Ideal S512 .i32) (ValueIdx.ix1 q) = TG m c (RankSpec.col (bj t) q) := by
  unfold iblk TG
  rw [View.read_apply]
  show V m c main_arg1 _ = V m c main_arg1 _
  refine congrArg (V m c main_arg1) (funext fun a => Fin.ext ?_)
  match a with
  | ⟨0, _⟩ =>
    show win0_3.index t 0 * 512 + 1 * q.val = 512 * (t.val % 8) + q.val
    rw [(idx_facts t).2.2.2.1]; omega

/-- The row block's groups. -/
theorem iblk4_apply (c : Dev nD) (t : Fin cfg0.N) (p : Fin 512) :
    (iblk m c 4 t : Vec Ideal S512 .i32) (ValueIdx.ix1 p) = SB m c (RankSpec.row (bi t) p) := by
  unfold iblk SB
  rw [View.read_apply]
  show V m c main_arg2 _ = V m c main_arg2 _
  refine congrArg (V m c main_arg2) (funext fun a => Fin.ext ?_)
  match a with
  | ⟨0, _⟩ =>
    show win0_4.index t 0 * 512 + 1 * p.val = 512 * (t.val / 8) + p.val
    rw [(idx_facts t).2.2.2.2.1]; omega

/-- The column block's groups. -/
theorem iblk5_apply (c : Dev nD) (t : Fin cfg0.N) (q : Fin 512) :
    (iblk m c 5 t : Vec Ideal S512 .i32) (ValueIdx.ix1 q) = SB m c (RankSpec.col (bj t) q) := by
  unfold iblk SB
  rw [View.read_apply]
  show V m c main_arg2 _ = V m c main_arg2 _
  refine congrArg (V m c main_arg2) (funext fun a => Fin.ext ?_)
  match a with
  | ⟨0, _⟩ =>
    show win0_5.index t 0 * 512 + 1 * q.val = 512 * (t.val % 8) + q.val
    rw [(idx_facts t).2.2.2.2.2.1]; omega

end Cert.KernelIdeal.Val

end
-- ==== Proof.KIVal1.lean ====
/-
  What a middle point leaves in the eight accumulators.

  At a point that is neither the first nor the last column block of its row block, the body loads each accumulator,
  adds the lane sums of the block's per-pair terms, and stores the result over the whole accumulator: each accumulator
  ends at its update term over the six input blocks and its previous contents.
-/
import proofs.«125663_j9543417332489_1_alg».proof.Proof.KIOuts
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- Accumulator 0 (class 1's hinge sum) after a middle point: what it held plus the block's lane sums. -/
theorem soutB_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨0, by decide⟩
      = k0_pay26 (k0_pay12 x0 x1) (k0_pay13 x2) (k0_pay14 x3) (k0_pay15 x4) (k0_pay16 x5) (Scalar.muli (BitVec.ofNat 32 (i 1).val) 512#32) (k0_pay17 i) (iota .tc S1x512 32 [1] iota_S1x512_d1_w32) xs0 := by
  unfold soutB
  dsimp only
  rw [View.read_writes_eq_canon _ _ _ (scoverB_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 1 (class 1's count) after a middle point: what it held plus the block's lane sums. -/
theorem soutB_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨1, by decide⟩
      = k0_pay27 (k0_pay13 x2) (k0_pay14 x3) (k0_pay15 x4) (k0_pay16 x5) (Scalar.muli (BitVec.ofNat 32 (i 1).val) 512#32) (k0_pay17 i) (iota .tc S1x512 32 [1] iota_S1x512_d1_w32) xs1 := by
  unfold soutB
  dsimp only
  rw [View.read_writes_eq_canon _ _ _ (scoverB_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 2 (class 2's hinge sum) after a middle point: what it held plus the block's lane sums. -/
theorem soutB_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨2, by decide⟩
      = k0_pay28 (k0_pay12 x0 x1) (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) xs2 := by
  unfold soutB
  dsimp only
  rw [View.read_writes_eq_canon _ _ _ (scoverB_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 3 (class 2's count) after a middle point: what it held plus the block's lane sums. -/
theorem soutB_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨3, by decide⟩
      = k0_pay29 (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) xs3 := by
  unfold soutB
  dsimp only
  rw [View.read_writes_eq_canon _ _ _ (scoverB_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 4 (class 3's weighted gaps) after a middle point: what it held plus the block's lane sums. -/
theorem soutB_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨4, by decide⟩
      = k0_pay34 xs4 (k0_pay33 (k0_pay12 x0 x1) (k0_pay24 (k0_pay13 x2) (k0_pay14 x3) (k0_pay15 x4) (k0_pay16 x5))) := by
  unfold soutB
  dsimp only
  rw [View.read_writes_eq_canon _ _ _ (scoverB_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 5 (class 3's weights) after a middle point: what it held plus the block's lane sums. -/
theorem soutB_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨5, by decide⟩
      = k0_pay35 (k0_pay32 (k0_pay12 x0 x1) (k0_pay24 (k0_pay13 x2) (k0_pay14 x3) (k0_pay15 x4) (k0_pay16 x5))) xs5 := by
  unfold soutB
  dsimp only
  rw [View.read_writes_eq_canon _ _ _ (scoverB_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 6 (class 4's weighted gaps) after a middle point: what it held plus the block's lane sums. -/
theorem soutB_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨6, by decide⟩
      = k0_pay39 (k0_pay12 x0 x1) (k0_pay25 (k0_pay13 x2) (k0_pay14 x3) (k0_pay15 x4) (k0_pay16 x5)) xs6 := by
  unfold soutB
  dsimp only
  rw [View.read_writes_eq_canon _ _ _ (scoverB_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 7 (class 4's weights) after a middle point: what it held plus the block's lane sums. -/
theorem soutB_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (xs0 xs1 xs2 xs3 xs4 xs5 xs6 xs7 : Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨7, by decide⟩
      = k0_pay1 (k0_pay40 (k0_pay12 x0 x1) (k0_pay25 (k0_pay13 x2) (k0_pay14 x3) (k0_pay15 x4) (k0_pay16 x5)) xs7) := by
  unfold soutB
  dsimp only
  rw [View.read_writes_eq_canon _ _ _ (scoverB_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunB
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

end Cert.KernelIdeal.Val

end
-- ==== Proof.KIVal2.lean ====
/-
  What the last point of a row block leaves in the eight accumulators and in the output block.

  At the last column block the body updates the accumulators as at a middle point, then reads all eight back and stores
  the row block's 512 losses over the whole output block: the loss term over the eight updated accumulators.
-/
import proofs.«125663_j9543417332489_1_alg».proof.Proof.KIOuts
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

private theorem hz1 : (![0] : Fin 1 → Nat) = fun _ => 0 := funext fun a => by fin_cases a; rfl
private theorem hz2 : (![0, 0] : Fin 2 → Nat) = fun _ => 0 := funext fun a => by fin_cases a <;> rfl

/-- Accumulator 0 (class 1's hinge sum) after the last point of a row block: what it held plus the block's lane sums. -/
theorem soutC_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨0, by decide⟩
      = k0_pay26 (k0_pay12 x0 x1) (k0_pay13 x2) (k0_pay14 x3) (k0_pay15 x4) (k0_pay16 x5) (Scalar.muli (BitVec.ofNat 32 (i 1).val) 512#32) (k0_pay17 i) (iota .tc S1x512 32 [1] iota_S1x512_d1_w32) xs0 := by
  unfold soutC
  dsimp only
  rw [View.read_writes_eq_canon _ _ _ (scoverC_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 1 (class 1's count) after the last point of a row block: what it held plus the block's lane sums. -/
theorem soutC_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨1, by decide⟩
      = k0_pay27 (k0_pay13 x2) (k0_pay14 x3) (k0_pay15 x4) (k0_pay16 x5) (Scalar.muli (BitVec.ofNat 32 (i 1).val) 512#32) (k0_pay17 i) (iota .tc S1x512 32 [1] iota_S1x512_d1_w32) xs1 := by
  unfold soutC
  dsimp only
  rw [View.read_writes_eq_canon _ _ _ (scoverC_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 2 (class 2's hinge sum) after the last point of a row block: what it held plus the block's lane sums. -/
theorem soutC_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨2, by decide⟩
      = k0_pay28 (k0_pay12 x0 x1) (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) xs2 := by
  unfold soutC
  dsimp only
  rw [View.read_writes_eq_canon _ _ _ (scoverC_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 3 (class 2's count) after the last point of a row block: what it held plus the block's lane sums. -/
theorem soutC_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨3, by decide⟩
      = k0_pay29 (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) xs3 := by
  unfold soutC
  dsimp only
  rw [View.read_writes_eq_canon _ _ _ (scoverC_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 4 (class 3's weighted gaps) after the last point of a row block: what it held plus the block's lane sums. -/
theorem soutC_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨4, by decide⟩
      = k0_pay34 xs4 (k0_pay33 (k0_pay12 x0 x1) (k0_pay24 (k0_pay13 x2) (k0_pay14 x3) (k0_pay15 x4) (k0_pay16 x5))) := by
  unfold soutC
  dsimp only
  rw [View.read_writes_eq_canon _ _ _ (scoverC_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 5 (class 3's weights) after the last point of a row block: what it held plus the block's lane sums. -/
theorem soutC_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨5, by decide⟩
      = k0_pay35 (k0_pay32 (k0_pay12 x0 x1) (k0_pay24 (k0_pay13 x2) (k0_pay14 x3) (k0_pay15 x4) (k0_pay16 x5))) xs5 := by
  unfold soutC
  dsimp only
  rw [View.read_writes_eq_canon _ _ _ (scoverC_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 6 (class 4's weighted gaps) after the last point of a row block: what it held plus the block's lane sums. -/
theorem soutC_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨6, by decide⟩
      = k0_pay39 (k0_pay12 x0 x1) (k0_pay25 (k0_pay13 x2) (k0_pay14 x3) (k0_pay15 x4) (k0_pay16 x5)) xs6 := by
  unfold soutC
  dsimp only
  rw [View.read_writes_eq_canon _ _ _ (scoverC_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 7 (class 4's weights) after the last point of a row block: what it held plus the block's lane sums. -/
theorem soutC_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨7, by decide⟩
      = k0_pay1 (k0_pay40 (k0_pay12 x0 x1) (k0_pay25 (k0_pay13 x2) (k0_pay14 x3) (k0_pay15 x4) (k0_pay16 x5)) xs7) := by
  unfold soutC
  dsimp only
  rw [View.read_writes_eq_canon _ _ _ (scoverC_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- The output block after the last point: the loss term over the eight updated accumulators, spelled out. -/
theorem outC_pay (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    outC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7
      = k0_pay2 (k0_pay26 (k0_pay12 x0 x1) (k0_pay13 x2) (k0_pay14 x3) (k0_pay15 x4) (k0_pay16 x5) (Scalar.muli (BitVec.ofNat 32 (i 1).val) 512#32) (k0_pay17 i) (iota .tc S1x512 32 [1] iota_S1x512_d1_w32) xs0)
          (k0_pay27 (k0_pay13 x2) (k0_pay14 x3) (k0_pay15 x4) (k0_pay16 x5) (Scalar.muli (BitVec.ofNat 32 (i 1).val) 512#32) (k0_pay17 i) (iota .tc S1x512 32 [1] iota_S1x512_d1_w32) xs1)
          (k0_pay28 (k0_pay12 x0 x1) (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) xs2)
          (k0_pay29 (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) xs3)
          (k0_pay34 xs4 (k0_pay33 (k0_pay12 x0 x1) (k0_pay24 (k0_pay13 x2) (k0_pay14 x3) (k0_pay15 x4) (k0_pay16 x5))))
          (k0_pay35 (k0_pay32 (k0_pay12 x0 x1) (k0_pay24 (k0_pay13 x2) (k0_pay14 x3) (k0_pay15 x4) (k0_pay16 x5))) xs5)
          (k0_pay39 (k0_pay12 x0 x1) (k0_pay25 (k0_pay13 x2) (k0_pay14 x3) (k0_pay15 x4) (k0_pay16 x5)) xs6)
          (k0_pay1 (k0_pay40 (k0_pay12 x0 x1) (k0_pay25 (k0_pay13 x2) (k0_pay14 x3) (k0_pay15 x4) (k0_pay16 x5)) xs7)) := by
  unfold outC
  rw [View.read_writes_eq_canon _ _ _ (coverC_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7)]
  unfold kernelRunC
  dsimp only
  sl_unfold_words
  rw [View.canon_unit_zero hz1]
  simp only [View.readCov_unit_zero (S := S512x1) _ hz2, View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- The same over what the point leaves in the accumulators: the final loads read back what was just stored. -/
theorem outC_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (xs0 xs1 xs2 xs3 xs4 xs5 xs6 xs7 : Vec F S512x1 .f32) :
    outC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7
      = k0_pay2 (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨0, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨1, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨2, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨3, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨4, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨5, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨6, by decide⟩)
          (soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7 ⟨7, by decide⟩) := by
  rw [soutC_0, soutC_1, soutC_2, soutC_3, soutC_4, soutC_5, soutC_6, soutC_7]
  exact outC_pay c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 xs3 xs4 xs5 xs6 xs7

end Cert.KernelIdeal.Val

end
-- ==== Proof.KIVal3.lean ====
/-
  What the first point of a row block leaves in the eight accumulators.

  At the first column block the body first stores the zero word over every accumulator, then updates each as at a
  middle point: the loaded accumulator is the zero column just stored, so each accumulator ends at its update term over
  the six input blocks and the zero column.
-/
import proofs.«125663_j9543417332489_1_alg».proof.Proof.KIOuts
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

private theorem hz1 : (![0] : Fin 1 → Nat) = fun _ => 0 := funext fun a => by fin_cases a; rfl
private theorem hz2 : (![0, 0] : Fin 2 → Nat) = fun _ => 0 := funext fun a => by fin_cases a <;> rfl

/-- Accumulator 0 (class 1's hinge sum) after the first point of a row block: zero, plus the block's lane sums. -/
theorem soutA_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨0, by decide⟩
      = k0_pay26 (k0_pay12 x0 x1) (k0_pay13 x2) (k0_pay14 x3) (k0_pay15 x4) (k0_pay16 x5) (Scalar.muli (BitVec.ofNat 32 (i 1).val) 512#32) (k0_pay17 i) (iota .tc S1x512 32 [1] iota_S1x512_d1_w32) (k0_pay3 (F := F)) := by
  unfold soutA
  dsimp only
  rw [View.read_writes_eq_canon _ _ _ (scoverA_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 1 (class 1's count) after the first point of a row block: zero, plus the block's lane sums. -/
theorem soutA_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨1, by decide⟩
      = k0_pay27 (k0_pay13 x2) (k0_pay14 x3) (k0_pay15 x4) (k0_pay16 x5) (Scalar.muli (BitVec.ofNat 32 (i 1).val) 512#32) (k0_pay17 i) (iota .tc S1x512 32 [1] iota_S1x512_d1_w32) (k0_pay4 (F := F)) := by
  unfold soutA
  dsimp only
  rw [View.read_writes_eq_canon _ _ _ (scoverA_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 2 (class 2's hinge sum) after the first point of a row block: zero, plus the block's lane sums. -/
theorem soutA_2 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨2, by decide⟩
      = k0_pay28 (k0_pay12 x0 x1) (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) (k0_pay5 (F := F)) := by
  unfold soutA
  dsimp only
  rw [View.read_writes_eq_canon _ _ _ (scoverA_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 3 (class 2's count) after the first point of a row block: zero, plus the block's lane sums. -/
theorem soutA_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨3, by decide⟩
      = k0_pay29 (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) (k0_pay6 (F := F)) := by
  unfold soutA
  dsimp only
  rw [View.read_writes_eq_canon _ _ _ (scoverA_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 4 (class 3's weighted gaps) after the first point of a row block: zero, plus the block's lane sums. -/
theorem soutA_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨4, by decide⟩
      = k0_pay34 (k0_pay7 (F := F)) (k0_pay33 (k0_pay12 x0 x1) (k0_pay24 (k0_pay13 x2) (k0_pay14 x3) (k0_pay15 x4) (k0_pay16 x5))) := by
  unfold soutA
  dsimp only
  rw [View.read_writes_eq_canon _ _ _ (scoverA_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 5 (class 3's weights) after the first point of a row block: zero, plus the block's lane sums. -/
theorem soutA_5 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨5, by decide⟩
      = k0_pay35 (k0_pay32 (k0_pay12 x0 x1) (k0_pay24 (k0_pay13 x2) (k0_pay14 x3) (k0_pay15 x4) (k0_pay16 x5))) (k0_pay8 (F := F)) := by
  unfold soutA
  dsimp only
  rw [View.read_writes_eq_canon _ _ _ (scoverA_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 6 (class 4's weighted gaps) after the first point of a row block: zero, plus the block's lane sums. -/
theorem soutA_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨6, by decide⟩
      = k0_pay39 (k0_pay12 x0 x1) (k0_pay25 (k0_pay13 x2) (k0_pay14 x3) (k0_pay15 x4) (k0_pay16 x5)) (k0_pay9 (F := F)) := by
  unfold soutA
  dsimp only
  rw [View.read_writes_eq_canon _ _ _ (scoverA_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

/-- Accumulator 7 (class 4's weights) after the first point of a row block: zero, plus the block's lane sums. -/
theorem soutA_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 ⟨7, by decide⟩
      = k0_pay1 (k0_pay40 (k0_pay12 x0 x1) (k0_pay25 (k0_pay13 x2) (k0_pay14 x3) (k0_pay15 x4) (k0_pay16 x5)) (k0_pay11 (k0_pay10 (F := F)))) := by
  unfold soutA
  dsimp only
  rw [View.read_writes_eq_canon _ _ _ (scoverA_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5)]
  unfold kernelRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    harg14.read_unread, harg15.read_unread, harg16.read_unread, View.ld_unit_zero (S := S512x1) hz2, View.ld_unit_zero (S := S512x2048) hz2,
    View.ld_unit_zero (S := S512) hz1]

end Cert.KernelIdeal.Val

end
-- ==== Proof.KIVal5.lean ====
/-
  One point's update of the eight accumulators as one function.

  Whatever the point's case, each accumulator ends at its update term over the point's six input blocks and the
  accumulator's contents before the update: what the point before left, or the zero column at the first column block.
  The eight update terms are gathered into one function of the blocks and of the family of previous contents, and the
  three cases' results are that function at the right family.
-/
import proofs.«125663_j9543417332489_1_alg».proof.Proof.KIVal1
import proofs.«125663_j9543417332489_1_alg».proof.Proof.KIVal2
import proofs.«125663_j9543417332489_1_alg».proof.Proof.KIVal3
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The eight accumulators after one update, from the six blocks and the eight accumulators before it. -/
def upd (i : grid0.Coords) (x0 x1 : Vec F S512x2048 .f32) (x2 x3 x4 x5 : Vec F S512 .i32) (a : Fin 8 → Vec F S512x1 .f32) : Fin 8 → Vec F S512x1 .f32
  | ⟨0, _⟩ => k0_pay26 (k0_pay12 x0 x1) (k0_pay13 x2) (k0_pay14 x3) (k0_pay15 x4) (k0_pay16 x5) (Scalar.muli (BitVec.ofNat 32 (i 1).val) 512#32) (k0_pay17 i) (iota .tc S1x512 32 [1] iota_S1x512_d1_w32) (a 0)
  | ⟨1, _⟩ => k0_pay27 (k0_pay13 x2) (k0_pay14 x3) (k0_pay15 x4) (k0_pay16 x5) (Scalar.muli (BitVec.ofNat 32 (i 1).val) 512#32) (k0_pay17 i) (iota .tc S1x512 32 [1] iota_S1x512_d1_w32) (a 1)
  | ⟨2, _⟩ => k0_pay28 (k0_pay12 x0 x1) (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) (a 2)
  | ⟨3, _⟩ => k0_pay29 (k0_pay23 (k0_pay13 x2) (k0_pay14 x3) (k0_pay15 x4) (k0_pay16 x5) (Scalar.muli (BitVec.ofNat 32 (i 1).val) 512#32) (k0_pay17 i) (iota .tc S1x512 32 [1] iota_S1x512_d1_w32)) (a 3)
  | ⟨4, _⟩ => k0_pay34 (a 4) (k0_pay33 (k0_pay12 x0 x1) (k0_pay24 (k0_pay13 x2) (k0_pay14 x3) (k0_pay15 x4) (k0_pay16 x5)))
  | ⟨5, _⟩ => k0_pay35 (k0_pay32 (k0_pay12 x0 x1) (k0_pay24 (k0_pay13 x2) (k0_pay14 x3) (k0_pay15 x4) (k0_pay16 x5))) (a 5)
  | ⟨6, _⟩ => k0_pay39 (k0_pay12 x0 x1) (k0_pay25 (k0_pay13 x2) (k0_pay14 x3) (k0_pay15 x4) (k0_pay16 x5)) (a 6)
  | ⟨7, _⟩ => k0_pay1 (k0_pay40 (k0_pay12 x0 x1) (k0_pay25 (k0_pay13 x2) (k0_pay14 x3) (k0_pay15 x4) (k0_pay16 x5)) (a 7))

/-- The eight accumulators as the reset leaves them. -/
def zeros : Fin 8 → Vec F S512x1 .f32
  | ⟨0, _⟩ => k0_pay3
  | ⟨1, _⟩ => k0_pay4
  | ⟨2, _⟩ => k0_pay5
  | ⟨3, _⟩ => k0_pay6
  | ⟨4, _⟩ => k0_pay7
  | ⟨5, _⟩ => k0_pay8
  | ⟨6, _⟩ => k0_pay9
  | ⟨7, _⟩ => k0_pay11 k0_pay10

/-- A middle point updates what the point before left. -/
theorem soutB_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : ¬cond1 i)
    (x0 x1 : Vec F S512x2048 .f32) (x2 x3 x4 x5 : Vec F S512 .i32) (a : Fin 8 → Vec F S512x1 .f32) :
    soutB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7) = upd i x0 x1 x2 x3 x4 x5 a :=
  funext fun k => match k with
  | ⟨0, _⟩ => soutB_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨1, _⟩ => soutB_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨2, _⟩ => soutB_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨3, _⟩ => soutB_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨4, _⟩ => soutB_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨5, _⟩ => soutB_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨6, _⟩ => soutB_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨7, _⟩ => soutB_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)

/-- So does the last point of a row block. -/
theorem soutC_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (a : Fin 8 → Vec F S512x1 .f32) :
    soutC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7) = upd i x0 x1 x2 x3 x4 x5 a :=
  funext fun k => match k with
  | ⟨0, _⟩ => soutC_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨1, _⟩ => soutC_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨2, _⟩ => soutC_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨3, _⟩ => soutC_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨4, _⟩ => soutC_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨5, _⟩ => soutC_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨6, _⟩ => soutC_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
  | ⟨7, _⟩ => soutC_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)

/-- The first point of a row block updates the zero columns. -/
theorem soutA_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0 i) (hc1 : ¬cond1 i)
    (x0 x1 : Vec F S512x2048 .f32) (x2 x3 x4 x5 : Vec F S512 .i32) :
    soutA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 = upd i x0 x1 x2 x3 x4 x5 zeros :=
  funext fun k => match k with
  | ⟨0, _⟩ => soutA_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨1, _⟩ => soutA_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨2, _⟩ => soutA_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨3, _⟩ => soutA_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨4, _⟩ => soutA_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨5, _⟩ => soutA_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨6, _⟩ => soutA_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5
  | ⟨7, _⟩ => soutA_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5

/-- The output block after the last point of a row block: the loss term over the eight updated accumulators. -/
theorem outC_upd (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .i32) (harg6 : arg6.IsWhole) (arg7 : Memref sig .tc .vmem S512 .i32) (harg7 : arg7.IsWhole) (arg8 : Memref sig .tc .vmem S512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0 i) (hc1 : cond1 i)
    (x0 x1 : Vec F S512x2048 .f32) (x2 x3 x4 x5 : Vec F S512 .i32) (a : Fin 8 → Vec F S512x1 .f32) :
    outC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)
      = k0_pay2 (upd i x0 x1 x2 x3 x4 x5 a ⟨0, by decide⟩) (upd i x0 x1 x2 x3 x4 x5 a ⟨1, by decide⟩) (upd i x0 x1 x2 x3 x4 x5 a ⟨2, by decide⟩) (upd i x0 x1 x2 x3 x4 x5 a ⟨3, by decide⟩) (upd i x0 x1 x2 x3 x4 x5 a ⟨4, by decide⟩) (upd i x0 x1 x2 x3 x4 x5 a ⟨5, by decide⟩) (upd i x0 x1 x2 x3 x4 x5 a ⟨6, by decide⟩) (upd i x0 x1 x2 x3 x4 x5 a ⟨7, by decide⟩) :=
  outC_pay c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 (a 0) (a 1) (a 2) (a 3) (a 4) (a 5) (a 6) (a 7)

end Cert.KernelIdeal.Val

end
-- ==== Proof.KPay1.lean ====
/-
  The accumulator resets and the row's loss, read at an index.

  At the first column block every one of the eight per-row accumulators is set to the zero word, which denotes 0.
  After the last column block the row's loss is formed from the eight accumulators: each class's sum over its
  regularised count or total weight, the four shares added in order.
-/
import proofs.«125663_j9543417332489_1_alg».proof.Proof.Gen.KernelIdeal.Skeleton
import proofs.«125663_j9543417332489_1_alg».proof.Proof.RankSpec
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The zero word broadcast over a column and cast to the same shape is 0 everywhere. -/
theorem zero_col_apply (h : S512x1.ShapeCasts S512x1) (j : S512x1.Idx) :
    shapeCast S512x1 (broadcast S512x1 (Scalar.ofBits (F := Ideal) .f32 0x00000000#32)) h j = 0 := by
  rw [shapeCast_self]
  exact Ideal.ofBits_zero_f32

theorem pay3_apply (j : S512x1.Idx) : k0_pay3 (F := Ideal) j = 0 := zero_col_apply shapeCasts_S512x1_S512x1 j
theorem pay4_apply (j : S512x1.Idx) : k0_pay4 (F := Ideal) j = 0 := zero_col_apply shapeCasts_S512x1_S512x1 j
theorem pay5_apply (j : S512x1.Idx) : k0_pay5 (F := Ideal) j = 0 := zero_col_apply shapeCasts_S512x1_S512x1 j
theorem pay6_apply (j : S512x1.Idx) : k0_pay6 (F := Ideal) j = 0 := zero_col_apply shapeCasts_S512x1_S512x1 j
theorem pay7_apply (j : S512x1.Idx) : k0_pay7 (F := Ideal) j = 0 := zero_col_apply shapeCasts_S512x1_S512x1 j
theorem pay8_apply (j : S512x1.Idx) : k0_pay8 (F := Ideal) j = 0 := zero_col_apply shapeCasts_S512x1_S512x1 j
theorem pay9_apply (j : S512x1.Idx) : k0_pay9 (F := Ideal) j = 0 := zero_col_apply shapeCasts_S512x1_S512x1 j
theorem pay10_apply (j : S512x1.Idx) : k0_pay10 (F := Ideal) j = 0 := Ideal.ofBits_zero_f32
theorem pay11_pay10_apply (j : S512x1.Idx) : k0_pay11 (k0_pay10 (F := Ideal)) j = 0 :=
  zero_col_apply shapeCasts_S512x1_S512x1 j

/-- The row's loss from the eight accumulators of the row. -/
theorem pay2_apply (a0 a1 a2 a3 a4 a5 a6 a7 : Vec Ideal S512x1 .f32) (p : Fin 512) :
    k0_pay2 a0 a1 a2 a3 a4 a5 a6 a7 (ix1 p)
      = RankSpec.share (a0 (ix2 p 0)) (a1 (ix2 p 0)) + RankSpec.share (a2 (ix2 p 0)) (a3 (ix2 p 0))
        + RankSpec.share (a4 (ix2 p 0)) (a5 (ix2 p 0)) + RankSpec.share (a6 (ix2 p 0)) (a7 (ix2 p 0)) := by
  unfold k0_pay2
  refine (shapeCast_apply _ _ (ix1 p) (ix2 p (0 : Fin 1)) ?_).trans ?_
  · rw [Shape.rowMajor_val_two, Shape.rowMajor_val_one]
    show p.val * 1 + 0 = p.val
    omega
  · rfl

end Cert.KernelIdeal.Pay

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibRowBroadcast.lean ====
/-
  Reading a row vector that is laid along the lanes at an index.

  A vector `[b]` cast to a one-row array `[1, b]` holds, at `(0, k)`, the vector's entry `k`; such a row broadcast over `a` rows,
  `[1, b] → [a, b]`, holds at `(r, k)` the row's entry `k`, whatever the row number `r`.  Each lemma reads one of these at an index
  written with literal coordinates.
-/
import Idealize.ShloMosaic.Lib.ValueIdx
import Idealize.ShloMosaic.Lib.ValueLayout
import Idealize.ShloMosaic.Lib.Pipeline.Value

noncomputable section

namespace RowBroadcast

open Idealize.ShloMosaic Idealize.ShloMosaic.ValueIdx

variable {α : Type} {a b : ℕ}

/-- A vector `[b]` cast to a row `[1, b]` reads, at `(u, k)`, the vector at `k`. -/
theorem shapeCast_b_1b_apply (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A row `[1, b]` broadcast over `a` rows reads, at `(r, k)`, the row at `k`. -/
theorem broadcastTo_1b_ab_apply (v : (⟨2, ![1, b]⟩ : Shape).Idx → α) (h : (⟨2, ![1, b]⟩ : Shape).Broadcasts ⟨2, ![a, b]⟩)
    (r : Fin a) (k : Fin b) : broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

end RowBroadcast

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.KPay2.lean ====
/-
  The distance tile of one grid point, read at an index.

  For the row block's rows and the column block's rows, the tile holds at (p, q) the clamped distance of row p of the
  one and row q of the other: the squared lengths are lane sums into a zero accumulator, the inner product is the
  product of the row block with the transposed column block into a zero accumulator (rounding the operands to the
  shorter format changes nothing on the extended reals), and the rest is pointwise.
-/
import proofs.«125663_j9543417332489_1_alg».proof.Proof.Gen.KernelIdeal.Skeleton
import proofs.«125663_j9543417332489_1_alg».proof.Proof.RankSpec
import proofs.«125663_j9543417332489_1_alg».proof.Proof.LibKeepDims
import proofs.«125663_j9543417332489_1_alg».proof.Proof.LibRowBroadcast
import proofs.«125663_j9543417332489_1_alg».proof.Proof.LibPlainDot
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The transposed block reads, at (k, q), the block at (q, k). -/
theorem transpose_apply_kq {α : Type} (v : S512x2048.Idx → α) (h : S512x2048.Transposes [1, 0] S2048x512)
    (k : Fin 2048) (q : Fin 512) : transpose S2048x512 [1, 0] v h (ix2 k q) = v (ix2 q k) := by
  refine transpose_apply [1, 0] v h (ix2 k q) (ix2 q k) fun b => ?_
  match b with
  | ⟨0, _⟩ => rfl
  | ⟨1, _⟩ => rfl

/-- The kernel's product is a plain one: rows by contraction times contraction by columns. -/
theorem dot_isPlain : PlainDot.IsPlain dot_S512x2048_S2048x512_S512x512_1_0_0_1_n_n :=
  ⟨rfl, rfl, rfl, rfl, rfl, rfl⟩

/-- The inner products of the rows of two blocks: the first block times the transposed second, into zero. -/
theorem inner_apply (a b : FVec Ideal S512x2048 .f32) (p q : Fin 512) :
    matmul (F := Ideal) dot_S512x2048_S2048x512_S512x512_1_0_0_1_n_n none
        (truncf .bf16 a bitsLt_bf16_f32)
        (transpose S2048x512 [1, 0] (truncf .bf16 b bitsLt_bf16_f32) transposes_S512x2048_p1_0_S2048x512)
        (constant S512x512 .f32 0x00000000#32) (ix2 p q)
      = ∑ k : Fin 2048, a (ix2 p k) * b (ix2 q k) := by
  refine (PlainDot.matmul_zero_apply dot_isPlain _ _ p q).trans ?_
  refine Finset.sum_congr rfl fun k _ => ?_
  rw [transpose_apply_kq]
  rfl

/-- The squared lengths of a block's rows, as a column broadcast over the lanes. -/
theorem rowsq_apply (a : FVec Ideal S512x2048 .f32) (p q : Fin 512) :
    broadcastTo S512x512 (shapeCast S512x1 (multiReduction (F := Ideal) .add [1] S512 (mulf a a) 0x00000000#32
        reduces_S512x2048_S512 (.inl rfl) rfl) shapeCasts_S512_S512x1) broadcasts_S512x1_S512x512 (ix2 p q)
      = ∑ k : Fin 2048, a (ix2 p k) * a (ix2 p k) := by
  rw [KeepDims.broadcastTo_a1_ab_apply, KeepDims.shapeCast_a_a1_apply, KeepDims.laneSum_apply]
  rfl

/-- The squared lengths of a block's rows, as a row broadcast over the sublanes. -/
theorem colsq_apply (b : FVec Ideal S512x2048 .f32) (p q : Fin 512) :
    broadcastTo S512x512 (shapeCast S1x512 (multiReduction (F := Ideal) .add [1] S512 (mulf b b) 0x00000000#32
        reduces_S512x2048_S512 (.inl rfl) rfl) shapeCasts_S512_S1x512) broadcasts_S1x512_S512x512 (ix2 p q)
      = ∑ k : Fin 2048, b (ix2 q k) * b (ix2 q k) := by
  rw [RowBroadcast.broadcastTo_1b_ab_apply, RowBroadcast.shapeCast_b_1b_apply, KeepDims.laneSum_apply]
  rfl

/-- THE DISTANCE TILE at (p, q): the clamped distance of row p of the row block and row q of the column block. -/
theorem dist_at (x : Fin 4096 → Fin 2048 → EReal) (bi bj : Fin 8) (v3 v5 : Vec Ideal S512x2048 .f32)
    (h3 : ∀ p k, v3 (ix2 p k) = x (RankSpec.row bi p) k) (h5 : ∀ q k, v5 (ix2 q k) = x (RankSpec.col bj q) k)
    (p q : Fin 512) :
    k0_pay12 v3 v5 (ix2 p q) = RankSpec.dist x (RankSpec.row bi p) (RankSpec.col bj q) := by
  have e3 : shapeCast S512x2048 v3 shapeCasts_S512x2048_S512x2048 = v3 := shapeCast_self _ _
  have e5 : shapeCast S512x2048 v5 shapeCasts_S512x2048_S512x2048 = v5 := shapeCast_self _ _
  unfold k0_pay12
  rw [e3, e5]
  show Ideal.sqrt (max ((_ + _) - RankSpec.L 0x40000000#32 * _) (RankSpec.L 0x2B8CBCCC#32)) = _
  rw [rowsq_apply, colsq_apply, inner_apply]
  unfold RankSpec.dist RankSpec.sq RankSpec.dot
  simp only [h3, h5]

end Cert.KernelIdeal.Pay

end
-- ==== Proof.KPay3.lean ====
/-
  The four class masks of one grid point, read at an index.

  The labels and groups of the row block are columns broadcast over the lanes, those of the column block rows
  broadcast over the sublanes; the global row and column numbers are 512 times the block number plus a counter
  along the axis, as 32-bit words. Two such words are equal exactly when the two numbers are, both being below 4096,
  so the diagonal test is the equality of the row and the column.
-/
import proofs.«125663_j9543417332489_1_alg».proof.Proof.Gen.KernelIdeal.Skeleton
import proofs.«125663_j9543417332489_1_alg».proof.Proof.RankSpec
import proofs.«125663_j9543417332489_1_alg».proof.Proof.LibKeepDims
import proofs.«125663_j9543417332489_1_alg».proof.Proof.LibRowBroadcast
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- 512 times a block number plus a position in the block, as a 32-bit word. -/
theorem word_of_block (b : Fin 8) (r : Fin 512) :
    IntOp.addi (Scalar.muli (BitVec.ofNat 32 b.val) 512#32) (BitVec.ofNat 32 r.val)
      = BitVec.ofNat 32 (512 * b.val + r.val) := by
  show BitVec.ofNat 32 b.val * 512#32 + BitVec.ofNat 32 r.val = _
  apply BitVec.eq_of_toNat_eq
  simp only [BitVec.toNat_add, BitVec.toNat_mul, BitVec.toNat_ofNat]
  have := b.isLt
  have := r.isLt
  omega

/-- The words of a global row number and a global column number are equal exactly when the numbers are. -/
theorem diag_word (bi bj : Fin 8) (p q : Fin 512) :
    IntOp.cmpi .eq (IntOp.addi (Scalar.muli (BitVec.ofNat 32 bi.val) 512#32) (BitVec.ofNat 32 p.val))
        (IntOp.addi (Scalar.muli (BitVec.ofNat 32 bj.val) 512#32) (BitVec.ofNat 32 q.val))
      = RankSpec.eye (RankSpec.row bi p) (RankSpec.col bj q) := by
  rw [word_of_block, word_of_block]
  unfold IntOp.cmpi RankSpec.eye
  refine congrArg BitVec.ofBool ?_
  have hbi := bi.isLt
  have hbj := bj.isLt
  have hp := p.isLt
  have hq := q.isLt
  rw [Bool.eq_iff_iff, beq_iff_eq, decide_eq_true_iff]
  constructor
  · intro h
    have h' := congrArg BitVec.toNat h
    simp only [BitVec.toNat_ofNat] at h'
    refine Fin.ext ?_
    show 512 * bi.val + p.val = 512 * bj.val + q.val
    omega
  · intro h
    have h' : 512 * bi.val + p.val = 512 * bj.val + q.val := congrArg Fin.val h
    rw [h']

/-- A vector cast to a column and broadcast over the lanes reads, at (p, q), the vector at p. -/
theorem colB_apply {α : Type} (v : S512.Idx → α) (p q : Fin 512) :
    broadcastTo S512x512 (shapeCast S512x1 v shapeCasts_S512_S512x1) broadcasts_S512x1_S512x512 (ix2 p q) = v (ix1 p) := by
  rw [KeepDims.broadcastTo_a1_ab_apply, KeepDims.shapeCast_a_a1_apply]

/-- A vector cast to a row and broadcast over the sublanes reads, at (p, q), the vector at q. -/
theorem rowB_apply {α : Type} (v : S512.Idx → α) (p q : Fin 512) :
    broadcastTo S512x512 (shapeCast S1x512 v shapeCasts_S512_S1x512) broadcasts_S1x512_S512x512 (ix2 p q) = v (ix1 q) := by
  rw [RowBroadcast.broadcastTo_1b_ab_apply, RowBroadcast.shapeCast_b_1b_apply]

section Masks

variable (tg sb : Fin 4096 → BitVec 32) (bi bj : Fin 8) (i : grid0.Coords)
  (v26 v28 v30 v32 : Vec Ideal S512 .i32)

/-- The labels agree. -/
theorem pay18_at (h26 : ∀ p, v26 (ix1 p) = tg (RankSpec.row bi p)) (h28 : ∀ q, v28 (ix1 q) = tg (RankSpec.col bj q))
    (p q : Fin 512) :
    k0_pay18 (k0_pay13 (F := Ideal) v26) (k0_pay14 (F := Ideal) v28) (ix2 p q)
      = RankSpec.same tg (RankSpec.row bi p) (RankSpec.col bj q) := by
  unfold k0_pay18 k0_pay13 k0_pay14
  show IntOp.cmpi .eq (broadcastTo S512x512 _ _ (ix2 p q)) (broadcastTo S512x512 _ _ (ix2 p q)) = _
  rw [colB_apply, rowB_apply, h26, h28]
  rfl

/-- The groups agree. -/
theorem pay19_at (h30 : ∀ p, v30 (ix1 p) = sb (RankSpec.row bi p)) (h32 : ∀ q, v32 (ix1 q) = sb (RankSpec.col bj q))
    (p q : Fin 512) :
    k0_pay19 (k0_pay15 (F := Ideal) v30) (k0_pay16 (F := Ideal) v32) (ix2 p q)
      = RankSpec.intra sb (RankSpec.row bi p) (RankSpec.col bj q) := by
  unfold k0_pay19 k0_pay15 k0_pay16
  show IntOp.cmpi .eq (broadcastTo S512x512 _ _ (ix2 p q)) (broadcastTo S512x512 _ _ (ix2 p q)) = _
  rw [colB_apply, rowB_apply, h30, h32]
  rfl

/-- The pair is on the diagonal: the global row number equals the global column number. -/
theorem eye_at (hi0 : (i 0).val = bi.val) (hi1 : (i 1).val = bj.val) (p q : Fin 512) :
    IntOp.cmpi .eq (broadcastTo S512x512 (k0_pay17 i) broadcasts_S512x1_S512x512 (ix2 p q))
        (broadcastTo S512x512 (addi (broadcast S1x512 (Scalar.muli (BitVec.ofNat 32 (i 1).val) 512#32))
          (iota .tc S1x512 32 [1] iota_S1x512_d1_w32)) broadcasts_S1x512_S512x512 (ix2 p q))
      = RankSpec.eye (RankSpec.row bi p) (RankSpec.col bj q) := by
  rw [KeepDims.broadcastTo_a1_ab_apply, RowBroadcast.broadcastTo_1b_ab_apply]
  unfold k0_pay17
  show IntOp.cmpi .eq (IntOp.addi (Scalar.muli (BitVec.ofNat 32 (i 0).val) 512#32)
        (iota .tc S512x1 32 [0] iota_S512x1_d0_w32 (ix2 p (0 : Fin 1))))
      (IntOp.addi (Scalar.muli (BitVec.ofNat 32 (i 1).val) 512#32)
        (iota .tc S1x512 32 [1] iota_S1x512_d1_w32 (ix2 (0 : Fin 1) q))) = _
  rw [iota_single_apply, iota_single_apply, hi0, hi1]
  exact diag_word bi bj p q

end Masks

section Classes

variable (tg sb : Fin 4096 → BitVec 32) (bi bj : Fin 8) (i : grid0.Coords)
  (v26 v28 v30 v32 : Vec Ideal S512 .i32)
  (hi0 : (i 0).val = bi.val) (hi1 : (i 1).val = bj.val)
  (h26 : ∀ p, v26 (ix1 p) = tg (RankSpec.row bi p)) (h28 : ∀ q, v28 (ix1 q) = tg (RankSpec.col bj q))
  (h30 : ∀ p, v30 (ix1 p) = sb (RankSpec.row bi p)) (h32 : ∀ q, v32 (ix1 q) = sb (RankSpec.col bj q))

include hi0 hi1 h26 h28 in
/-- Positive pairs: equal labels, off the diagonal. -/
theorem pay20_at (p q : Fin 512) :
    k0_pay20 (k0_pay13 (F := Ideal) v26) (k0_pay14 (F := Ideal) v28) (Scalar.muli (BitVec.ofNat 32 (i 1).val) 512#32)
        (k0_pay17 i) (iota .tc S1x512 32 [1] iota_S1x512_d1_w32) (ix2 p q)
      = RankSpec.pos tg (RankSpec.row bi p) (RankSpec.col bj q) := by
  unfold k0_pay20
  show IntOp.andi (k0_pay18 _ _ (ix2 p q))
      (IntOp.xori (IntOp.cmpi .eq (broadcastTo S512x512 (k0_pay17 i) _ (ix2 p q)) (broadcastTo S512x512 _ _ (ix2 p q))) 1#1) = _
  rw [pay18_at tg bi bj v26 v28 h26 h28, eye_at bi bj i hi0 hi1]
  rfl

include h26 h28 in
/-- Negative pairs: different labels. -/
theorem pay21_at (p q : Fin 512) :
    k0_pay21 (k0_pay13 (F := Ideal) v26) (k0_pay14 (F := Ideal) v28) (ix2 p q)
      = RankSpec.neg tg (RankSpec.row bi p) (RankSpec.col bj q) := by
  unfold k0_pay21
  show IntOp.xori (k0_pay18 _ _ (ix2 p q)) 1#1 = _
  rw [pay18_at tg bi bj v26 v28 h26 h28]
  rfl

include hi0 hi1 h26 h28 h30 h32 in
/-- Class 1: positive, same group. -/
theorem m1_at (p q : Fin 512) :
    k0_pay22 (k0_pay13 (F := Ideal) v26) (k0_pay14 (F := Ideal) v28) (k0_pay15 (F := Ideal) v30) (k0_pay16 (F := Ideal) v32)
        (Scalar.muli (BitVec.ofNat 32 (i 1).val) 512#32) (k0_pay17 i) (iota .tc S1x512 32 [1] iota_S1x512_d1_w32) (ix2 p q)
      = RankSpec.m1 tg sb (RankSpec.row bi p) (RankSpec.col bj q) := by
  unfold k0_pay22
  show IntOp.andi (k0_pay20 _ _ _ _ _ (ix2 p q)) (k0_pay19 _ _ (ix2 p q)) = _
  rw [pay20_at tg bi bj i v26 v28 hi0 hi1 h26 h28, pay19_at sb bi bj v30 v32 h30 h32]
  rfl

include hi0 hi1 h26 h28 h30 h32 in
/-- Class 2: positive, other group. -/
theorem m2_at (p q : Fin 512) :
    k0_pay23 (k0_pay13 (F := Ideal) v26) (k0_pay14 (F := Ideal) v28) (k0_pay15 (F := Ideal) v30) (k0_pay16 (F := Ideal) v32)
        (Scalar.muli (BitVec.ofNat 32 (i 1).val) 512#32) (k0_pay17 i) (iota .tc S1x512 32 [1] iota_S1x512_d1_w32) (ix2 p q)
      = RankSpec.m2 tg sb (RankSpec.row bi p) (RankSpec.col bj q) := by
  unfold k0_pay23
  show IntOp.andi (k0_pay20 _ _ _ _ _ (ix2 p q)) (IntOp.xori (k0_pay19 _ _ (ix2 p q)) 1#1) = _
  rw [pay20_at tg bi bj i v26 v28 hi0 hi1 h26 h28, pay19_at sb bi bj v30 v32 h30 h32]
  rfl

include h26 h28 h30 h32 in
/-- Class 3: negative, same group. -/
theorem m3_at (p q : Fin 512) :
    k0_pay24 (k0_pay13 (F := Ideal) v26) (k0_pay14 (F := Ideal) v28) (k0_pay15 (F := Ideal) v30) (k0_pay16 (F := Ideal) v32) (ix2 p q)
      = RankSpec.m3 tg sb (RankSpec.row bi p) (RankSpec.col bj q) := by
  unfold k0_pay24
  show IntOp.andi (k0_pay21 _ _ (ix2 p q)) (k0_pay19 _ _ (ix2 p q)) = _
  rw [pay21_at tg bi bj v26 v28 h26 h28, pay19_at sb bi bj v30 v32 h30 h32]
  rfl

include h26 h28 h30 h32 in
/-- Class 4: negative, other group. -/
theorem m4_at (p q : Fin 512) :
    k0_pay25 (k0_pay13 (F := Ideal) v26) (k0_pay14 (F := Ideal) v28) (k0_pay15 (F := Ideal) v30) (k0_pay16 (F := Ideal) v32) (ix2 p q)
      = RankSpec.m4 tg sb (RankSpec.row bi p) (RankSpec.col bj q) := by
  unfold k0_pay25
  show IntOp.andi (k0_pay21 _ _ (ix2 p q)) (IntOp.xori (k0_pay19 _ _ (ix2 p q)) 1#1) = _
  rw [pay21_at tg bi bj v26 v28 h26 h28, pay19_at sb bi bj v30 v32 h30 h32]
  rfl

end Classes

end Cert.KernelIdeal.Pay

end
-- ==== Proof.KPay4.lean ====
/-
  The eight accumulator updates of one grid point, read at an index, for an arbitrary distance tile and class mask.

  Each update loads the accumulator column, adds the lane sums of a 512 by 512 tile of per-pair terms (a lane sum into a
  zero accumulator, cast to a column), and stores the result through identity casts. The per-pair terms are pointwise
  in the distance tile and the class mask: the hinge of a positive pair, the indicator of a class as a number, and for
  a near negative pair its weight and its weighted gap.
-/
import proofs.«125663_j9543417332489_1_alg».proof.Proof.Gen.KernelIdeal.Skeleton
import proofs.«125663_j9543417332489_1_alg».proof.Proof.RankSpec
import proofs.«125663_j9543417332489_1_alg».proof.Proof.LibKeepDims
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- An accumulator column plus the lane sums of a tile, stored through an identity cast, at row p. -/
theorem acc_apply (T : FVec Ideal S512x512 .f32) (s : Vec Ideal S512x1 .f32) (p : Fin 512) :
    shapeCast S512x1 (addf s (shapeCast S512x1 (multiReduction (F := Ideal) .add [1] S512 T 0x00000000#32
        reduces_S512x512_S512 (.inl rfl) rfl) shapeCasts_S512_S512x1)) shapeCasts_S512x1_S512x1 (ix2 p (0 : Fin 1))
      = s (ix2 p 0) + ∑ q : Fin 512, T (ix2 p q) := by
  rw [shapeCast_self]
  show s (ix2 p 0) + shapeCast S512x1 _ _ (ix2 p (0 : Fin 1)) = _
  rw [KeepDims.shapeCast_a_a1_apply, KeepDims.laneSum_apply]

section Generic

variable (D : FVec Ideal S512x512 .f32) (M : IVec S512x512 1) (s : Vec Ideal S512x1 .f32) (p : Fin 512)

/-- Class 1's hinge sum. -/
theorem pay26_gen (V27 : IVec S512x1 32) (V29 : IVec S1x512 32) (V31 : IVec S512x1 32) (V33 : IVec S1x512 32)
    (V35 : BitVec 32) (V38 : IVec S512x1 32) (V39 : IVec S1x512 32) :
    k0_pay26 D V27 V29 V31 V33 V35 V38 V39 s (ix2 p (0 : Fin 1))
      = s (ix2 p 0) + ∑ q : Fin 512,
          RankSpec.hinge 0xBFB33333#32 (k0_pay22 V27 V29 V31 V33 V35 V38 V39 (ix2 p q)) (D (ix2 p q)) := by
  unfold k0_pay26
  exact acc_apply _ s p

/-- Class 1's count. -/
theorem pay27_gen (V27 : IVec S512x1 32) (V29 : IVec S1x512 32) (V31 : IVec S512x1 32) (V33 : IVec S1x512 32)
    (V35 : BitVec 32) (V38 : IVec S512x1 32) (V39 : IVec S1x512 32) :
    k0_pay27 (F := Ideal) V27 V29 V31 V33 V35 V38 V39 s (ix2 p (0 : Fin 1))
      = s (ix2 p 0) + ∑ q : Fin 512, RankSpec.ind (k0_pay22 V27 V29 V31 V33 V35 V38 V39 (ix2 p q)) := by
  unfold k0_pay27
  exact acc_apply _ s p

/-- Class 2's hinge sum. -/
theorem pay28_gen :
    k0_pay28 D M s (ix2 p (0 : Fin 1))
      = s (ix2 p 0) + ∑ q : Fin 512, RankSpec.hinge 0xBF333333#32 (M (ix2 p q)) (D (ix2 p q)) := by
  unfold k0_pay28
  exact acc_apply _ s p

/-- Class 2's count. -/
theorem pay29_gen :
    k0_pay29 (F := Ideal) M s (ix2 p (0 : Fin 1)) = s (ix2 p 0) + ∑ q : Fin 512, RankSpec.ind (M (ix2 p q)) := by
  unfold k0_pay29
  exact acc_apply _ s p

/-- Class 3's weighted gaps. -/
theorem pay34_gen :
    k0_pay34 s (k0_pay33 D M) (ix2 p (0 : Fin 1))
      = s (ix2 p 0) + ∑ q : Fin 512, RankSpec.wgap 0x4019999A#32 (M (ix2 p q)) (D (ix2 p q)) := by
  unfold k0_pay34
  exact acc_apply _ s p

/-- Class 3's weights. -/
theorem pay35_gen :
    k0_pay35 (k0_pay32 D M) s (ix2 p (0 : Fin 1))
      = s (ix2 p 0) + ∑ q : Fin 512, RankSpec.weight 0x4019999A#32 (M (ix2 p q)) (D (ix2 p q)) := by
  unfold k0_pay35
  exact acc_apply _ s p

/-- Class 4's weighted gaps. -/
theorem pay39_gen :
    k0_pay39 D M s (ix2 p (0 : Fin 1))
      = s (ix2 p 0) + ∑ q : Fin 512, RankSpec.wgap 0x400CCCCD#32 (M (ix2 p q)) (D (ix2 p q)) := by
  unfold k0_pay39
  exact acc_apply _ s p

/-- Class 4's weights. -/
theorem pay40_gen :
    k0_pay1 (k0_pay40 D M s) (ix2 p (0 : Fin 1))
      = s (ix2 p 0) + ∑ q : Fin 512, RankSpec.weight 0x400CCCCD#32 (M (ix2 p q)) (D (ix2 p q)) := by
  unfold k0_pay1 k0_pay40
  exact acc_apply _ s p

end Generic

end Cert.KernelIdeal.Pay

end
-- ==== Proof.KPay5.lean ====
/-
  The eight accumulator updates of one grid point, in terms of the rows, labels and groups of the batch.

  Grid point (bi, bj) adds to each accumulator of row p of block bi the sum, over the 512 columns q of block bj, of that
  accumulator's per-pair term of the pair (row bi p, col bj q): the distance tile holds the pairs' clamped distances and
  the four masks the pairs' classes, so each lane sum is a sum of the specification's terms.
-/
import proofs.«125663_j9543417332489_1_alg».proof.Proof.Gen.KernelIdeal.Skeleton
import proofs.«125663_j9543417332489_1_alg».proof.Proof.RankSpec
import proofs.«125663_j9543417332489_1_alg».proof.Proof.KPay2
import proofs.«125663_j9543417332489_1_alg».proof.Proof.KPay3
import proofs.«125663_j9543417332489_1_alg».proof.Proof.KPay4
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

section Point

variable (x : Fin 4096 → Fin 2048 → EReal) (tg sb : Fin 4096 → BitVec 32) (bi bj : Fin 8) (i : grid0.Coords)
  (v3 v5 : Vec Ideal S512x2048 .f32) (v26 v28 v30 v32 : Vec Ideal S512 .i32)
  (hi0 : (i 0).val = bi.val) (hi1 : (i 1).val = bj.val)
  (h3 : ∀ p k, v3 (ix2 p k) = x (RankSpec.row bi p) k) (h5 : ∀ q k, v5 (ix2 q k) = x (RankSpec.col bj q) k)
  (h26 : ∀ p, v26 (ix1 p) = tg (RankSpec.row bi p)) (h28 : ∀ q, v28 (ix1 q) = tg (RankSpec.col bj q))
  (h30 : ∀ p, v30 (ix1 p) = sb (RankSpec.row bi p)) (h32 : ∀ q, v32 (ix1 q) = sb (RankSpec.col bj q))
  (s : Vec Ideal S512x1 .f32) (p : Fin 512)

include hi0 hi1 h3 h5 h26 h28 h30 h32 in
/-- Class 1's hinge sum grows by block bj's terms. -/
theorem acc_t1 :
    k0_pay26 (k0_pay12 v3 v5) (k0_pay13 (F := Ideal) v26) (k0_pay14 (F := Ideal) v28) (k0_pay15 (F := Ideal) v30)
        (k0_pay16 (F := Ideal) v32) (Scalar.muli (BitVec.ofNat 32 (i 1).val) 512#32) (k0_pay17 i)
        (iota .tc S1x512 32 [1] iota_S1x512_d1_w32) s (ix2 p (0 : Fin 1))
      = s (ix2 p 0) + ∑ q : Fin 512, RankSpec.t1 x tg sb (RankSpec.row bi p) (RankSpec.col bj q) := by
  rw [pay26_gen]
  refine congrArg (s (ix2 p 0) + ·) (Finset.sum_congr rfl fun q _ => ?_)
  rw [dist_at x bi bj v3 v5 h3 h5, m1_at tg sb bi bj i v26 v28 v30 v32 hi0 hi1 h26 h28 h30 h32]
  rfl

include hi0 hi1 h26 h28 h30 h32 in
/-- Class 1's count grows by block bj's pairs of the class. -/
theorem acc_c1 :
    k0_pay27 (F := Ideal) (k0_pay13 (F := Ideal) v26) (k0_pay14 (F := Ideal) v28) (k0_pay15 (F := Ideal) v30)
        (k0_pay16 (F := Ideal) v32) (Scalar.muli (BitVec.ofNat 32 (i 1).val) 512#32) (k0_pay17 i)
        (iota .tc S1x512 32 [1] iota_S1x512_d1_w32) s (ix2 p (0 : Fin 1))
      = s (ix2 p 0) + ∑ q : Fin 512, RankSpec.c1 tg sb (RankSpec.row bi p) (RankSpec.col bj q) := by
  rw [pay27_gen]
  refine congrArg (s (ix2 p 0) + ·) (Finset.sum_congr rfl fun q _ => ?_)
  rw [m1_at tg sb bi bj i v26 v28 v30 v32 hi0 hi1 h26 h28 h30 h32]
  rfl

include hi0 hi1 h3 h5 h26 h28 h30 h32 in
/-- Class 2's hinge sum. -/
theorem acc_t2 :
    k0_pay28 (k0_pay12 v3 v5)
        (k0_pay23 (k0_pay13 (F := Ideal) v26) (k0_pay14 (F := Ideal) v28) (k0_pay15 (F := Ideal) v30)
          (k0_pay16 (F := Ideal) v32) (Scalar.muli (BitVec.ofNat 32 (i 1).val) 512#32) (k0_pay17 i)
          (iota .tc S1x512 32 [1] iota_S1x512_d1_w32)) s (ix2 p (0 : Fin 1))
      = s (ix2 p 0) + ∑ q : Fin 512, RankSpec.t2 x tg sb (RankSpec.row bi p) (RankSpec.col bj q) := by
  rw [pay28_gen]
  refine congrArg (s (ix2 p 0) + ·) (Finset.sum_congr rfl fun q _ => ?_)
  rw [dist_at x bi bj v3 v5 h3 h5, m2_at tg sb bi bj i v26 v28 v30 v32 hi0 hi1 h26 h28 h30 h32]
  rfl

include hi0 hi1 h26 h28 h30 h32 in
/-- Class 2's count. -/
theorem acc_c2 :
    k0_pay29 (F := Ideal)
        (k0_pay23 (k0_pay13 (F := Ideal) v26) (k0_pay14 (F := Ideal) v28) (k0_pay15 (F := Ideal) v30)
          (k0_pay16 (F := Ideal) v32) (Scalar.muli (BitVec.ofNat 32 (i 1).val) 512#32) (k0_pay17 i)
          (iota .tc S1x512 32 [1] iota_S1x512_d1_w32)) s (ix2 p (0 : Fin 1))
      = s (ix2 p 0) + ∑ q : Fin 512, RankSpec.c2 tg sb (RankSpec.row bi p) (RankSpec.col bj q) := by
  rw [pay29_gen]
  refine congrArg (s (ix2 p 0) + ·) (Finset.sum_congr rfl fun q _ => ?_)
  rw [m2_at tg sb bi bj i v26 v28 v30 v32 hi0 hi1 h26 h28 h30 h32]
  rfl

include h3 h5 h26 h28 h30 h32 in
/-- Class 3's weighted gaps. -/
theorem acc_p3 :
    k0_pay34 s (k0_pay33 (k0_pay12 v3 v5)
        (k0_pay24 (k0_pay13 (F := Ideal) v26) (k0_pay14 (F := Ideal) v28) (k0_pay15 (F := Ideal) v30)
          (k0_pay16 (F := Ideal) v32))) (ix2 p (0 : Fin 1))
      = s (ix2 p 0) + ∑ q : Fin 512, RankSpec.p3 x tg sb (RankSpec.row bi p) (RankSpec.col bj q) := by
  rw [pay34_gen]
  refine congrArg (s (ix2 p 0) + ·) (Finset.sum_congr rfl fun q _ => ?_)
  rw [dist_at x bi bj v3 v5 h3 h5, m3_at tg sb bi bj v26 v28 v30 v32 h26 h28 h30 h32]
  rfl

include h3 h5 h26 h28 h30 h32 in
/-- Class 3's weights. -/
theorem acc_w3 :
    k0_pay35 (k0_pay32 (k0_pay12 v3 v5)
        (k0_pay24 (k0_pay13 (F := Ideal) v26) (k0_pay14 (F := Ideal) v28) (k0_pay15 (F := Ideal) v30)
          (k0_pay16 (F := Ideal) v32))) s (ix2 p (0 : Fin 1))
      = s (ix2 p 0) + ∑ q : Fin 512, RankSpec.w3 x tg sb (RankSpec.row bi p) (RankSpec.col bj q) := by
  rw [pay35_gen]
  refine congrArg (s (ix2 p 0) + ·) (Finset.sum_congr rfl fun q _ => ?_)
  rw [dist_at x bi bj v3 v5 h3 h5, m3_at tg sb bi bj v26 v28 v30 v32 h26 h28 h30 h32]
  rfl

include h3 h5 h26 h28 h30 h32 in
/-- Class 4's weighted gaps. -/
theorem acc_p4 :
    k0_pay39 (k0_pay12 v3 v5)
        (k0_pay25 (k0_pay13 (F := Ideal) v26) (k0_pay14 (F := Ideal) v28) (k0_pay15 (F := Ideal) v30)
          (k0_pay16 (F := Ideal) v32)) s (ix2 p (0 : Fin 1))
      = s (ix2 p 0) + ∑ q : Fin 512, RankSpec.p4 x tg sb (RankSpec.row bi p) (RankSpec.col bj q) := by
  rw [pay39_gen]
  refine congrArg (s (ix2 p 0) + ·) (Finset.sum_congr rfl fun q _ => ?_)
  rw [dist_at x bi bj v3 v5 h3 h5, m4_at tg sb bi bj v26 v28 v30 v32 h26 h28 h30 h32]
  rfl

include h3 h5 h26 h28 h30 h32 in
/-- Class 4's weights. -/
theorem acc_w4 :
    k0_pay1 (k0_pay40 (k0_pay12 v3 v5)
        (k0_pay25 (k0_pay13 (F := Ideal) v26) (k0_pay14 (F := Ideal) v28) (k0_pay15 (F := Ideal) v30)
          (k0_pay16 (F := Ideal) v32)) s) (ix2 p (0 : Fin 1))
      = s (ix2 p 0) + ∑ q : Fin 512, RankSpec.w4 x tg sb (RankSpec.row bi p) (RankSpec.col bj q) := by
  rw [pay40_gen]
  refine congrArg (s (ix2 p 0) + ·) (Finset.sum_congr rfl fun q _ => ?_)
  rw [dist_at x bi bj v3 v5 h3 h5, m4_at tg sb bi bj v26 v28 v30 v32 h26 h28 h30 h32]
  rfl

end Point

end Cert.KernelIdeal.Pay

end
-- ==== Proof.KPay.lean ====
/-
  The arithmetic of one grid point of the ranking-loss program, read at an index: the accumulator resets and the row's
  loss, the distance tile, the four class masks, and the eight accumulator updates, each as a statement about the rows,
  labels and groups of the batch.  This module only gathers the five parts.
-/
import proofs.«125663_j9543417332489_1_alg».proof.Proof.KPay1
import proofs.«125663_j9543417332489_1_alg».proof.Proof.KPay2
import proofs.«125663_j9543417332489_1_alg».proof.Proof.KPay3
import proofs.«125663_j9543417332489_1_alg».proof.Proof.KPay4
import proofs.«125663_j9543417332489_1_alg».proof.Proof.KPay5
-- ==== Proof.KIVal6.lean ====
/-
  The accumulators after every grid point, and the losses of a row block after its last point.

  One update at point t adds, to accumulator k of row p of the point's row block, the sum of the k-th per-pair term over
  the 512 columns of the point's column block. The column blocks of a row block are visited in order, the first one
  from zero, so after point t accumulator k holds the k-th term summed over the columns of the first t mod 8 + 1
  blocks; after the eighth block that is the sum over the whole row, and the output block then holds the rows' losses.
-/
import proofs.«125663_j9543417332489_1_alg».proof.Proof.KIVal4
import proofs.«125663_j9543417332489_1_alg».proof.Proof.KIVal5
import proofs.«125663_j9543417332489_1_alg».proof.Proof.KPay
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The eight per-pair terms, numbered as the accumulators. -/
def fk (x : Fin 4096 → Fin 2048 → EReal) (tg sb : Fin 4096 → BitVec 32) : Fin 8 → Fin 4096 → Fin 4096 → EReal
  | ⟨0, _⟩ => RankSpec.t1 x tg sb
  | ⟨1, _⟩ => RankSpec.c1 tg sb
  | ⟨2, _⟩ => RankSpec.t2 x tg sb
  | ⟨3, _⟩ => RankSpec.c2 tg sb
  | ⟨4, _⟩ => RankSpec.p3 x tg sb
  | ⟨5, _⟩ => RankSpec.w3 x tg sb
  | ⟨6, _⟩ => RankSpec.p4 x tg sb
  | ⟨7, _⟩ => RankSpec.w4 x tg sb

/-- One update over blocks that hold rows, labels and groups of the batch: each accumulator grows by its term summed
    over the column block. -/
theorem upd_apply (x : Fin 4096 → Fin 2048 → EReal) (tg sb : Fin 4096 → BitVec 32) (bi bj : Fin 8) (i : grid0.Coords)
    (v3 v5 : Vec Ideal S512x2048 .f32) (v26 v28 v30 v32 : Vec Ideal S512 .i32)
    (hi0 : (i 0).val = bi.val) (hi1 : (i 1).val = bj.val)
    (h3 : ∀ p k, v3 (ix2 p k) = x (RankSpec.row bi p) k) (h5 : ∀ q k, v5 (ix2 q k) = x (RankSpec.col bj q) k)
    (h26 : ∀ p, v26 (ix1 p) = tg (RankSpec.row bi p)) (h28 : ∀ q, v28 (ix1 q) = tg (RankSpec.col bj q))
    (h30 : ∀ p, v30 (ix1 p) = sb (RankSpec.row bi p)) (h32 : ∀ q, v32 (ix1 q) = sb (RankSpec.col bj q))
    (a : Fin 8 → Vec Ideal S512x1 .f32) (k : Fin 8) (p : Fin 512) :
    upd i v3 v5 v26 v28 v30 v32 a k (ix2 p (0 : Fin 1))
      = a k (ix2 p 0) + ∑ q : Fin 512, fk x tg sb k (RankSpec.row bi p) (RankSpec.col bj q) :=
  match k with
  | ⟨0, _⟩ => Pay.acc_t1 x tg sb bi bj i v3 v5 v26 v28 v30 v32 hi0 hi1 h3 h5 h26 h28 h30 h32 (a 0) p
  | ⟨1, _⟩ => Pay.acc_c1 tg sb bi bj i v26 v28 v30 v32 hi0 hi1 h26 h28 h30 h32 (a 1) p
  | ⟨2, _⟩ => Pay.acc_t2 x tg sb bi bj i v3 v5 v26 v28 v30 v32 hi0 hi1 h3 h5 h26 h28 h30 h32 (a 2) p
  | ⟨3, _⟩ => Pay.acc_c2 tg sb bi bj i v26 v28 v30 v32 hi0 hi1 h26 h28 h30 h32 (a 3) p
  | ⟨4, _⟩ => Pay.acc_p3 x tg sb bi bj v3 v5 v26 v28 v30 v32 h3 h5 h26 h28 h30 h32 (a 4) p
  | ⟨5, _⟩ => Pay.acc_w3 x tg sb bi bj v3 v5 v26 v28 v30 v32 h3 h5 h26 h28 h30 h32 (a 5) p
  | ⟨6, _⟩ => Pay.acc_p4 x tg sb bi bj v3 v5 v26 v28 v30 v32 h3 h5 h26 h28 h30 h32 (a 6) p
  | ⟨7, _⟩ => Pay.acc_w4 x tg sb bi bj v3 v5 v26 v28 v30 v32 h3 h5 h26 h28 h30 h32 (a 7) p

/-- The reset leaves 0 everywhere. -/
theorem zeros_apply (k : Fin 8) (j : S512x1.Idx) : zeros (F := Ideal) k j = 0 :=
  match k with
  | ⟨0, _⟩ => Pay.pay3_apply j
  | ⟨1, _⟩ => Pay.pay4_apply j
  | ⟨2, _⟩ => Pay.pay5_apply j
  | ⟨3, _⟩ => Pay.pay6_apply j
  | ⟨4, _⟩ => Pay.pay7_apply j
  | ⟨5, _⟩ => Pay.pay8_apply j
  | ⟨6, _⟩ => Pay.pay9_apply j
  | ⟨7, _⟩ => Pay.pay11_pay10_apply j

/-- Adding block j's terms to the sum over the first j blocks gives the sum over the first j + 1. -/
theorem part_step (f : Fin 4096 → Fin 4096 → EReal) (r : Fin 4096) (j : Fin 8) (s : EReal)
    (hs : s = RankSpec.part f r j.val) :
    s + ∑ q : Fin 512, f r (RankSpec.col j q) = RankSpec.part f r (j.val + 1) := by
  rw [hs, RankSpec.part_succ]

variable (m : (ℓ : Loc nD τ sig) → Buf (Elt Ideal) ℓ)

/-- One update at grid point t adds column block t mod 8's terms to the rows of row block t / 8. -/
theorem upd_at (c : Dev nD) (t : Fin cfg0.N) (a : Fin 8 → Vec Ideal S512x1 .f32) (k : Fin 8) (p : Fin 512) :
    upd (grid0.coords t) (iblk m c 0 t) (iblk m c 1 t) (iblk m c 2 t) (iblk m c 3 t) (iblk m c 4 t) (iblk m c 5 t) a k (ix2 p (0 : Fin 1))
      = a k (ix2 p 0) + ∑ q : Fin 512, fk (X m c) (TG m c) (SB m c) k (RankSpec.row (bi t) p) (RankSpec.col (bj t) q) :=
  upd_apply (X m c) (TG m c) (SB m c) (bi t) (bj t) (grid0.coords t) (iblk m c 0 t) (iblk m c 1 t) (iblk m c 2 t) (iblk m c 3 t) (iblk m c 4 t) (iblk m c 5 t)
    (coords0 t) (coords1 t) (iblk0_apply m c t) (iblk1_apply m c t) (iblk2_apply m c t) (iblk3_apply m c t)
    (iblk4_apply m c t) (iblk5_apply m c t) a k p

/-- At the first column block of a row block: the sum over that block alone. -/
theorem inv_A (c : Dev nD) (t : Fin cfg0.N) (h0 : t.val % 8 = 0) (k : Fin 8) (p : Fin 512) :
    (outsAt m c t.val t.isLt).2 k (ix2 p (0 : Fin 1))
      = RankSpec.part (fk (X m c) (TG m c) (SB m c) k) (RankSpec.row (bi t) p) (t.val % 8 + 1) := by
  have h1 : ¬t.val % 8 = 7 := by omega
  rw [outsAt_A m c t h0 h1]
  dsimp only
  rw [soutA_eq c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr h0) (fun h => h1 ((hcond1 t).mp h)) (iblk m c 0 t) (iblk m c 1 t) (iblk m c 2 t) (iblk m c 3 t) (iblk m c 4 t) (iblk m c 5 t)]
  rw [upd_at m c t zeros k p, zeros_apply k]
  exact part_step (fk (X m c) (TG m c) (SB m c) k) (RankSpec.row (bi t) p) (bj t) 0
    (by rw [show (bj t).val = 0 from h0, RankSpec.part_zero])

/-- At a later column block: the point before's sum plus this block's. -/
theorem inv_BC (c : Dev nD) (t : Fin cfg0.N) (h0 : ¬t.val % 8 = 0)
    (ih : ∀ (k : Fin 8) (p : Fin 512), (outsAt m c (t.val - 1) (Nat.lt_of_le_of_lt (Nat.sub_le _ _) t.isLt)).2 k (ix2 p (0 : Fin 1))
      = RankSpec.part (fk (X m c) (TG m c) (SB m c) k) (RankSpec.row (bi t) p) (t.val % 8))
    (k : Fin 8) (p : Fin 512) :
    (outsAt m c t.val t.isLt).2 k (ix2 p (0 : Fin 1))
      = RankSpec.part (fk (X m c) (TG m c) (SB m c) k) (RankSpec.row (bi t) p) (t.val % 8 + 1) := by
  by_cases h1 : t.val % 8 = 7
  · rw [outsAt_C m c t h0 h1]
    dsimp only
    rw [soutC_eq c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h1) (iblk m c 0 t) (iblk m c 1 t) (iblk m c 2 t) (iblk m c 3 t) (iblk m c 4 t) (iblk m c 5 t)
      ((outsAt m c (t.val - 1) (Nat.lt_of_le_of_lt (Nat.sub_le _ _) t.isLt)).2)]
    rw [upd_at m c t ((outsAt m c (t.val - 1) (Nat.lt_of_le_of_lt (Nat.sub_le _ _) t.isLt)).2) k p]
    exact part_step (fk (X m c) (TG m c) (SB m c) k) (RankSpec.row (bi t) p) (bj t) _ (ih k p)
  · rw [outsAt_B m c t h0 h1]
    dsimp only
    rw [soutB_eq c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) (fun h => h1 ((hcond1 t).mp h)) (iblk m c 0 t) (iblk m c 1 t) (iblk m c 2 t) (iblk m c 3 t) (iblk m c 4 t) (iblk m c 5 t)
      ((outsAt m c (t.val - 1) (Nat.lt_of_le_of_lt (Nat.sub_le _ _) t.isLt)).2)]
    rw [upd_at m c t ((outsAt m c (t.val - 1) (Nat.lt_of_le_of_lt (Nat.sub_le _ _) t.isLt)).2) k p]
    exact part_step (fk (X m c) (TG m c) (SB m c) k) (RankSpec.row (bi t) p) (bj t) _ (ih k p)

/-- THE INVARIANT: after point n, accumulator k of row p of the point's row block holds the k-th term summed over the
    columns of the first n mod 8 + 1 column blocks. -/
theorem inv (c : Dev nD) : ∀ (n : ℕ) (hn : n < cfg0.N) (k : Fin 8) (p : Fin 512),
    (outsAt m c n hn).2 k (ix2 p (0 : Fin 1))
      = RankSpec.part (fk (X m c) (TG m c) (SB m c) k) (RankSpec.row (bi ⟨n, hn⟩) p) (n % 8 + 1) := by
  intro n
  induction n with
  | zero =>
    intro hn k p
    exact inv_A m c ⟨0, hn⟩ rfl k p
  | succ n ih =>
    intro hn k p
    by_cases h0 : (n + 1) % 8 = 0
    · exact inv_A m c ⟨n + 1, hn⟩ h0 k p
    · refine inv_BC m c ⟨n + 1, hn⟩ h0 (fun k p => ?_) k p
      have e1 : bi ⟨n + 1, hn⟩ = bi ⟨n, Nat.lt_of_succ_lt hn⟩ := Fin.ext (by show (n + 1) / 8 = n / 8; omega)
      have e2 : (n + 1) % 8 = n % 8 + 1 := by omega
      show (outsAt m c n _).2 k (ix2 p (0 : Fin 1)) = RankSpec.part _ (RankSpec.row (bi ⟨n + 1, hn⟩) p) ((n + 1) % 8)
      rw [e1, e2]
      exact ih (Nat.lt_of_succ_lt hn) k p

/-- After the last column block of a row block the output block holds the losses of the row block's rows. -/
theorem loss_at (c : Dev nD) (t : Fin cfg0.N) (h7 : t.val % 8 = 7) (p : Fin 512) :
    (outsAt m c t.val t.isLt).1 (ix1 p) = RankSpec.rowLoss (X m c) (TG m c) (SB m c) (RankSpec.row (bi t) p) := by
  have h0 : ¬t.val % 8 = 0 := by omega
  have hinv := inv m c t.val t.isLt
  rw [outsAt_C m c t h0 h7] at hinv ⊢
  dsimp only at hinv ⊢
  rw [soutC_eq c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h7) (iblk m c 0 t) (iblk m c 1 t) (iblk m c 2 t) (iblk m c 3 t) (iblk m c 4 t) (iblk m c 5 t)
    ((outsAt m c (t.val - 1) (Nat.lt_of_le_of_lt (Nat.sub_le _ _) t.isLt)).2)] at hinv
  rw [outC_upd c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => h0 ((hcond0 t).mp h)) ((hcond1 t).mpr h7) (iblk m c 0 t) (iblk m c 1 t) (iblk m c 2 t) (iblk m c 3 t) (iblk m c 4 t) (iblk m c 5 t)
    ((outsAt m c (t.val - 1) (Nat.lt_of_le_of_lt (Nat.sub_le _ _) t.isLt)).2), Pay.pay2_apply]
  rw [hinv ⟨0, by decide⟩ p, hinv ⟨1, by decide⟩ p, hinv ⟨2, by decide⟩ p, hinv ⟨3, by decide⟩ p,
    hinv ⟨4, by decide⟩ p, hinv ⟨5, by decide⟩ p, hinv ⟨6, by decide⟩ p, hinv ⟨7, by decide⟩ p, h7]
  simp only [show (7 : ℕ) + 1 = 8 from rfl, RankSpec.part_eight]
  rfl

end Cert.KernelIdeal.Val

end
-- ==== Proof.KIVal7.lean ====
/-
  The output array after the run: the losses of the batch's rows.

  Only the last column block of a row block writes its output block back, and what it writes is the 512 losses of the
  row block's rows; row r of the array lies in the block written at point 8 (r / 512) + 7. So every row of the array
  is written, once, with its loss.
-/
import proofs.«125663_j9543417332489_1_alg».proof.Proof.KIVal6
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt Ideal) ℓ)

/-- The losses of the batch's rows, as contents of the output array. -/
def lossArr (c : Dev nD) : S4096.Idx → EReal := fun j => RankSpec.rowLoss (X m c) (TG m c) (SB m c) (j 0)

/-- What a point that writes back writes: its block of the losses. -/
theorem written_eq (c : Dev nD) (t : Fin cfg0.N) (hf : (cfg0.win 6).flush t = true) :
    (dats m 0 c).flushed 6 t = ((cfg0.win 6).blk t).view.read (Elt Ideal) (lossArr m c) := by
  have h7 : t.val % 8 = 7 := (flush0_6 t).mp hf
  show (cfg0.win 6).cut (grid0.coords t) ((dats m 0 c).after 6 t) = _
  rw [after6]
  funext j
  have hj : (j 0).val < 512 := (j 0).isLt
  rw [View.read_apply]
  have e : (cfg0.win 6).xinj (grid0.coords t) j = ix1 (⟨(j 0).val, hj⟩ : Fin 512) :=
    funext fun a => Fin.ext (match a with | ⟨0, _⟩ => rfl)
  show (outsAt m c t.val t.isLt).1 ((cfg0.win 6).xinj (grid0.coords t) j) = _
  rw [e, loss_at m c t h7]
  unfold lossArr
  refine congrArg (RankSpec.rowLoss _ _ _) (Fin.ext ?_)
  show 512 * (t.val / 8) + (j 0).val = win0_6.index t 0 * 512 + 1 * (j 0).val
  rw [(idx_facts t).2.2.2.2.2.2]
  omega

/-- A row of the array is in point t's block iff it is one of the block's 512 rows. -/
theorem mem_out_block (t : Fin cfg0.N) (i : S4096.Idx) :
    i ∈ ((cfg0.win 6).blk t).view.set
      ↔ ∀ a : Fin 1, win0_6.index t a * S512.size a ≤ (i a).val ∧ (i a).val < win0_6.index t a * S512.size a + S512.size a := by
  show i ∈ ((View.whole main_v5).slice (win0_6.rect t)).set ↔ _
  rw [View.set_slice_whole, Rect.mem_set_unit]
  exact Iff.rfl

/-- Every row of the array is in the block some point writes back. -/
theorem out_cover (i : S4096.Idx) :
    ∃ t : Fin cfg0.N, (cfg0.win 6).flush t = true ∧ i ∈ ((cfg0.win 6).blk t).view.set := by
  have hi : (i 0).val < 4096 := (i 0).isLt
  have hN : cfg0.N = 64 := N_0
  refine ⟨⟨8 * ((i 0).val / 512) + 7, by omega⟩, (flush0_6 _).mpr (by show (8 * ((i 0).val / 512) + 7) % 8 = 7; omega), ?_⟩
  rw [mem_out_block]
  intro a
  match a with
  | ⟨0, _⟩ =>
    show win0_6.index _ 0 * 512 ≤ (i 0).val ∧ (i 0).val < win0_6.index _ 0 * 512 + 512
    rw [(idx_facts _).2.2.2.2.2.2]
    show (8 * ((i 0).val / 512) + 7) / 8 * 512 ≤ (i 0).val ∧ (i 0).val < (8 * ((i 0).val / 512) + 7) / 8 * 512 + 512
    omega

/-- THE OUTPUT ARRAY after the run holds the loss of every row. -/
theorem out_array (c : Dev nD) : (dats m 0 c).arrAt 6 cfg0.N = lossArr m c :=
  (dats m 0 c).arrAt_eq_of_cover 6 (lossArr m c) (written_eq m c) (out_cover)

end Cert.KernelIdeal.Val

end
-- ==== Proof.KIVal8.lean ====
/-
  The output array after the run, row by row.

  Entry r of the output array is the loss of row r of the batch, the batch being the rows, labels and groups as the
  region finds them.
-/
import proofs.«125663_j9543417332489_1_alg».proof.Proof.KIVal7
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-- THE OUTPUT ARRAY, entry r: the loss of row r. -/
theorem out_row (c : Dev nD) : ∀ r : Fin 4096,
    ((dats m 0 c).arrAt 6 cfg0.N : S4096.Idx → EReal) (ValueIdx.ix1 r)
      = RankSpec.rowLoss (fun r k => (V m c main_v4 : S4096x2048.Idx → EReal) (ValueIdx.ix2 r k))
          (fun r => (V m c main_arg1 : S4096.Idx → BitVec 32) (ValueIdx.ix1 r))
          (fun r => (V m c main_arg2 : S4096.Idx → BitVec 32) (ValueIdx.ix1 r)) r := by
  intro r
  rw [out_array m c]
  rfl

end Cert.KernelIdeal.Val

end
-- ==== Proof.RefLoss1.lean ====
/-
  The reference's distance matrix and class masks, read at a pair of rows.

  The reference normalises the rows, then forms the matrix of clamped distances
  sqrt (max ((|x r|² + |x c|²) − 2·⟨x r, x c⟩) ε): the squared lengths are row sums from the zero word, broadcast along
  the rows and along the columns; the inner products are the product of the normalised array with its transpose.
  The masks compare the row and column numbers (two iotas, as 32-bit words of numbers below 4096, equal exactly when the
  numbers are), the labels and the groups, each broadcast along rows and columns, and combine them with and / not.
  Each lemma reads one stage at the pair (r, c) as the specification's function of the normalised rows, the labels and
  the groups.
-/
import proofs.«125663_j9543417332489_1_alg».proof.Proof.Gen.ReferenceIdeal.Read
import proofs.«125663_j9543417332489_1_alg».proof.Proof.RankSpec

noncomputable section

namespace Cert.ReferenceIdeal.RefLoss

open Idealize.ShloMosaic Idealize.ShloMosaic.ValueIdx Cert.ReferenceIdeal

/-- The normalised rows, the labels and the groups, by coordinates. -/
abbrev X (x0 : (⟨S4096x2048, .f32⟩ : BufTy).Contents (Elt Ideal)) : Fin 4096 → Fin 2048 → EReal :=
  fun r k => Read.val_main_v4 (F := Ideal) x0 (ix2 r k)
abbrev TG (x1 : (⟨S4096, .i32⟩ : BufTy).Contents (Elt Ideal)) : Fin 4096 → BitVec 32 := fun r => x1 (ix1 r)
abbrev SB (x2 : (⟨S4096, .i32⟩ : BufTy).Contents (Elt Ideal)) : Fin 4096 → BitVec 32 := fun r => x2 (ix1 r)

variable (x0 : (⟨S4096x2048, .f32⟩ : BufTy).Contents (Elt Ideal)) (x1 x2 : (⟨S4096, .i32⟩ : BufTy).Contents (Elt Ideal))

/-! ## Where each broadcast reads its operand -/

theorem row_of_pair (r c : Fin 4096) : Read.idx_main_v7 (Read.idx_main_v9 (ix2 r c)) = ix1 r :=
  funext fun a => Fin.ext (by match a with | ⟨0, _⟩ => rfl)
theorem col_of_pair (r c : Fin 4096) : Read.idx_main_v8 (Read.idx_main_v10 (ix2 r c)) = ix1 c :=
  funext fun a => Fin.ext (by match a with | ⟨0, _⟩ => rfl)
theorem row_elt (r : Fin 4096) (k : Fin 2048) : Read.idx_main_v6 (ix1 r) k = ix2 r k :=
  funext fun a => Fin.ext (by match a with | ⟨0, _⟩ => rfl | ⟨1, _⟩ => rfl)
theorem dot_left (r c : Fin 4096) (k : Fin 2048) : Read.lidx_main_v13 (ix2 r c) k = ix2 r k :=
  funext fun a => Fin.ext (by match a with | ⟨0, _⟩ => rfl | ⟨1, _⟩ => rfl)
theorem dot_right (r c : Fin 4096) (k : Fin 2048) : Read.idx_main_v12 (Read.ridx_main_v13 (ix2 r c) k) = ix2 c k :=
  funext fun a => Fin.ext (by match a with | ⟨0, _⟩ => rfl | ⟨1, _⟩ => rfl)
theorem tg_row (r c : Fin 4096) : Read.idx_main_v25 (Read.idx_main_v27 (ix2 r c)) = ix1 r :=
  funext fun a => Fin.ext (by match a with | ⟨0, _⟩ => rfl)
theorem tg_col (r c : Fin 4096) : Read.idx_main_v26 (Read.idx_main_v28 (ix2 r c)) = ix1 c :=
  funext fun a => Fin.ext (by match a with | ⟨0, _⟩ => rfl)
theorem sb_row (r c : Fin 4096) : Read.idx_main_v33 (Read.idx_main_v35 (ix2 r c)) = ix1 r :=
  funext fun a => Fin.ext (by match a with | ⟨0, _⟩ => rfl)
theorem sb_col (r c : Fin 4096) : Read.idx_main_v34 (Read.idx_main_v36 (ix2 r c)) = ix1 c :=
  funext fun a => Fin.ext (by match a with | ⟨0, _⟩ => rfl)

/-! ## The distance matrix -/

/-- The row sums of squares: the squared length of row `r`. -/
theorem sq_eq (r : Fin 4096) : Read.val_main_v6 (F := Ideal) x0 (ix1 r) = RankSpec.sq (X x0) r := by
  rw [Read.val_main_v6_apply, Read.val_main_cst_0_apply, Ideal.ofBits_def, Ideal.ofBits_zero_f32, zero_add]
  unfold RankSpec.sq
  refine Finset.sum_congr rfl fun k _ => ?_
  rw [Read.val_main_v5_apply, Ideal.mulf_def, row_elt]

/-- Broadcast along the rows plus broadcast along the columns. -/
theorem sqsum_eq (r c : Fin 4096) :
    Read.val_main_v11 (F := Ideal) x0 (ix2 r c) = RankSpec.sq (X x0) r + RankSpec.sq (X x0) c := by
  rw [Read.val_main_v11_apply, Read.val_main_v9_apply, Read.val_main_v7_apply, Read.val_main_v10_apply,
    Read.val_main_v8_apply, row_of_pair, col_of_pair, sq_eq, sq_eq, Ideal.addf_def]

/-- The product with the transpose: the inner product of rows `r` and `c`. -/
theorem dot_eq (r c : Fin 4096) : Read.val_main_v13 (F := Ideal) x0 (ix2 r c) = RankSpec.dot (X x0) r c := by
  rw [Read.val_main_v13_apply]
  unfold RankSpec.dot
  refine Finset.sum_congr rfl fun k _ => ?_
  rw [Read.val_main_v12_apply, dot_left, dot_right]

/-- The clamped distance of rows `r` and `c`. -/
theorem dist_eq (r c : Fin 4096) : Read.val_main_v19 (F := Ideal) x0 (ix2 r c) = RankSpec.dist (X x0) r c := by
  rw [Read.val_main_v19_apply, Read.val_main_v18_apply, Read.val_main_v16_apply, Read.val_main_v17_apply,
    Read.val_main_cst_2_apply, Read.val_main_v15_apply, Read.val_main_v14_apply, Read.val_main_cst_1_apply, sqsum_eq, dot_eq]
  rfl

/-! ## The masks -/

/-- Two numbers below 4096, as 32-bit words, are equal words exactly when they are equal. -/
theorem word_eq_iff (r c : Fin 4096) :
    IntOp.cmpi .eq (IntOp.addi (BitVec.ofNat 32 r.val) 0#32) (BitVec.ofNat 32 c.val) = BitVec.ofBool (decide (r = c)) := by
  show BitVec.ofBool (BitVec.ofNat 32 r.val + 0#32 == BitVec.ofNat 32 c.val) = _
  rw [BitVec.add_zero]
  refine congrArg BitVec.ofBool ?_
  rw [Bool.eq_iff_iff, beq_iff_eq, decide_eq_true_eq, ← BitVec.toNat_inj, BitVec.toNat_ofNat, BitVec.toNat_ofNat, Fin.ext_iff]
  have := r.isLt
  have := c.isLt
  omega

/-- The complement of a one-bit word is its exclusive or with 1. -/
theorem not_eq (b : BitVec 1) : ~~~b = RankSpec.not1 b := by
  rcases BitVec.eq_zero_or_eq_one b with h | h <;> subst h <;> decide

/-- The diagonal: the row number equals the column number. -/
theorem eye_eq (r c : Fin 4096) : Read.val_main_v24 (F := Ideal) (ix2 r c) = RankSpec.eye r c := by
  rw [Read.val_main_v24_apply, Read.val_main_v23_apply, Read.val_main_v20_apply, Read.val_main_v21_apply,
    Read.val_main_v22_apply, Read.val_main_c_apply]
  exact word_eq_iff r c

/-- Equal labels. -/
theorem same_eq (r c : Fin 4096) : Read.val_main_v29 (F := Ideal) x1 (ix2 r c) = RankSpec.same (TG x1) r c := by
  rw [Read.val_main_v29_apply, Read.val_main_v27_apply, Read.val_main_v25_apply, Read.val_main_v28_apply,
    Read.val_main_v26_apply, tg_row, tg_col]
  rfl

/-- Equal groups. -/
theorem intra_eq (r c : Fin 4096) : Read.val_main_v37 (F := Ideal) x2 (ix2 r c) = RankSpec.intra (SB x2) r c := by
  rw [Read.val_main_v37_apply, Read.val_main_v35_apply, Read.val_main_v33_apply, Read.val_main_v36_apply,
    Read.val_main_v34_apply, sb_row, sb_col]
  rfl

/-- Positive pairs: equal labels off the diagonal. -/
theorem pos_eq (r c : Fin 4096) : Read.val_main_v31 (F := Ideal) x1 (ix2 r c) = RankSpec.pos (TG x1) r c := by
  rw [Read.val_main_v31_apply, Read.val_main_v30_apply, same_eq, eye_eq, not_eq]
  rfl

/-- Negative pairs: different labels. -/
theorem neg_eq (r c : Fin 4096) : Read.val_main_v32 (F := Ideal) x1 (ix2 r c) = RankSpec.neg (TG x1) r c := by
  rw [Read.val_main_v32_apply, same_eq, not_eq]
  rfl

/-- The four classes. -/
theorem m1_eq (r c : Fin 4096) : Read.val_main_v38 (F := Ideal) x1 x2 (ix2 r c) = RankSpec.m1 (TG x1) (SB x2) r c := by
  rw [Read.val_main_v38_apply, pos_eq, intra_eq]
  rfl
theorem m2_eq (r c : Fin 4096) : Read.val_main_v40 (F := Ideal) x1 x2 (ix2 r c) = RankSpec.m2 (TG x1) (SB x2) r c := by
  rw [Read.val_main_v40_apply, Read.val_main_v39_apply, pos_eq, intra_eq, not_eq]
  rfl
theorem m3_eq (r c : Fin 4096) : Read.val_main_v41 (F := Ideal) x1 x2 (ix2 r c) = RankSpec.m3 (TG x1) (SB x2) r c := by
  rw [Read.val_main_v41_apply, neg_eq, intra_eq]
  rfl
theorem m4_eq (r c : Fin 4096) : Read.val_main_v43 (F := Ideal) x1 x2 (ix2 r c) = RankSpec.m4 (TG x1) (SB x2) r c := by
  rw [Read.val_main_v43_apply, Read.val_main_v42_apply, neg_eq, intra_eq, not_eq]
  rfl

end Cert.ReferenceIdeal.RefLoss

end
-- ==== Proof.LibCountSum.lean ====
/-
  Counting by adding indicator words.

  A finite family of 32-bit words, each of them 0 or 1 and fewer than 2^31 in number, added up as 32-bit words: the
  addition never wraps, so the unsigned reading of the total is the number of ones, its signed reading is the same
  number, and as an extended real it is the sum of the words' own signed readings. The addition of words is
  commutative and associative, so the order of the additions does not matter: a host reduction with the add body over
  the second axis of an `[a, b]` array of such words, started from the zero word, is at row `r` the count of row `r`.
-/
import Idealize.ShloMosaic.PureOps.Ideal
import Idealize.ShloMosaic.PureOps.Reduce
import Idealize.ShloMosaic.Lib.ValueIdx

noncomputable section

namespace CountSum

open Idealize.ShloMosaic Idealize.ShloMosaic.ValueIdx

/-- The coercion of reals into the extended reals commutes with finite sums. -/
theorem coe_sum {ι : Type*} (f : ι → ℝ) (s : Finset ι) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A one-bit word widened to 32 bits is 0 or 1. -/
theorem toNat_setWidth_bit_le (m : BitVec 1) : (m.setWidth 32).toNat ≤ 1 := by
  rcases BitVec.eq_zero_or_eq_one m with h | h <;> subst h <;> decide

section Fold

variable {ι : Type*} [DecidableEq ι]

/-- Fewer than 2^32 zero-or-one words added as words: the total, read unsigned, is the sum of the words read unsigned. -/
theorem toNat_fold_addi (g : ι → BitVec 32) (hg : ∀ k, (g k).toNat ≤ 1) (s : Finset ι) (hs : s.card < 2 ^ 32) :
    (s.fold IntOp.addi 0#32 g).toNat = ∑ k ∈ s, (g k).toNat := by
  induction s using Finset.induction_on with
  | empty => simp
  | insert a s ha ih =>
    rw [Finset.card_insert_of_notMem ha] at hs
    rw [Finset.fold_insert ha, Finset.sum_insert ha]
    have ih' := ih (by omega)
    have hle : ∑ k ∈ s, (g k).toNat ≤ s.card :=
      (Finset.sum_le_sum fun k _ => hg k).trans (by simp)
    have ha1 := hg a
    show (g a + s.fold IntOp.addi 0#32 g).toNat = _
    rw [BitVec.toNat_add, ih']
    omega

/-- Fewer than 2^31 of them: the signed reading of the total is the sum of the signed readings. -/
theorem toInt_fold_addi (g : ι → BitVec 32) (hg : ∀ k, (g k).toNat ≤ 1) (s : Finset ι) (hs : s.card < 2 ^ 31) :
    (s.fold IntOp.addi 0#32 g).toInt = ∑ k ∈ s, (g k).toInt := by
  have hn := toNat_fold_addi g hg s (by omega)
  have hle : ∑ k ∈ s, (g k).toNat ≤ s.card :=
    (Finset.sum_le_sum fun k _ => hg k).trans (by simp)
  have hk : ∀ k, (g k).toInt = ((g k).toNat : ℤ) := fun k => by
    have := hg k
    rw [BitVec.toInt_eq_toNat_cond, if_pos (by omega)]
  rw [BitVec.toInt_eq_toNat_cond, if_pos (by omega), hn, Nat.cast_sum]
  exact Finset.sum_congr rfl fun k _ => (hk k).symm

/-- As extended reals. -/
theorem ereal_toInt_fold_addi (g : ι → BitVec 32) (hg : ∀ k, (g k).toNat ≤ 1) (s : Finset ι) (hs : s.card < 2 ^ 31) :
    (((s.fold IntOp.addi 0#32 g).toInt : ℝ) : EReal) = ∑ k ∈ s, (((g k).toInt : ℝ) : EReal) := by
  rw [toInt_fold_addi g hg s hs, Int.cast_sum, coe_sum]

end Fold

/-- The host reduction with the add body over the second axis of an `[a, b]` array of zero-or-one words, from the zero
    word: at row `r`, read signed as an extended real, the sum over the columns of the entries so read. -/
theorem reduce_addi_row {a b : ℕ} (x : (⟨2, ![a, b]⟩ : Shape).Idx → BitVec 32) {u : Shape} (init : u.Idx → BitVec 32)
    (h' : (⟨2, ![a, b]⟩ : Shape).ReducesTo [1] ⟨1, ![a]⟩) (h : (⟨2, ![a, b]⟩ : Shape).Reduces [1] ⟨1, ![a]⟩)
    (hu : 0 < u.numel) (hinit : init (Shape.Idx.first hu) = 0#32) (hx : ∀ i, (x i).toNat ≤ 1) (hb : b < 2 ^ 31)
    (r : Fin a) :
    (((Host.reduce IntOp.addi x init h' hu (ix1 r)).toInt : ℝ) : EReal)
      = ∑ k : Fin b, (((x (ix2 r k)).toInt : ℝ) : EReal) := by
  rw [Host.reduce_eq_fold_single IntOp.addi x init h' h hu (ix1 r), hinit]
  refine (ereal_toInt_fold_addi (x ∘ h.lift (ix1 r)) (fun k => hx _) Finset.univ ?_).trans ?_
  · show (Finset.univ : Finset (Fin b)).card < 2 ^ 31
    rw [Finset.card_univ, Fintype.card_fin]
    exact hb
  · refine Finset.sum_congr rfl fun k _ => ?_
    show (((x (h.lift (ix1 r) k)).toInt : ℝ) : EReal) = _
    refine congrArg (fun i => (((x i).toInt : ℝ) : EReal)) (funext fun ax => Fin.ext ?_)
    match ax with
    | ⟨0, _⟩ => rfl
    | ⟨1, _⟩ => rfl

end CountSum

end
-- ==== Proof.RefLoss2.lean ====
/-
  The reference's eight row sums, read at a row.

  Per pair (r, c) the reference forms eight terms from the distance and the class masks: for the two classes of positive
  pairs a hinge max (dist + margin) 0 kept where the mask holds, and the mask itself as a number; for the two classes
  of negative pairs, restricted to the pairs closer than a threshold, the weight e^(threshold − dist) and the gap
  (threshold − dist) times that weight. Each is summed over the columns: the six float sums start from the zero word;
  the two counts add the indicator words as 32-bit integers (fewer than 2^31 words, each 0 or 1: the addition never
  wraps) and convert the total to a float exactly.
  Each lemma reads one stage as the specification's per-pair term or its row sum.
-/
import proofs.«125663_j9543417332489_1_alg».proof.Proof.RefLoss1
import proofs.«125663_j9543417332489_1_alg».proof.Proof.LibCountSum

noncomputable section

namespace Cert.ReferenceIdeal.RefLoss

open Idealize.ShloMosaic Idealize.ShloMosaic.ValueIdx Cert.ReferenceIdeal

variable (x0 : (⟨S4096x2048, .f32⟩ : BufTy).Contents (Elt Ideal)) (x1 x2 : (⟨S4096, .i32⟩ : BufTy).Contents (Elt Ideal))

/-! ## Where each row sum reads its operand -/

theorem col1 (r k : Fin 4096) : Read.idx_main_v52 (ix1 r) k = ix2 r k :=
  funext fun a => Fin.ext (by match a with | ⟨0, _⟩ => rfl | ⟨1, _⟩ => rfl)
theorem col2 (r k : Fin 4096) : Read.idx_main_v64 (ix1 r) k = ix2 r k :=
  funext fun a => Fin.ext (by match a with | ⟨0, _⟩ => rfl | ⟨1, _⟩ => rfl)
theorem col3p (r k : Fin 4096) : Read.idx_main_v80 (ix1 r) k = ix2 r k :=
  funext fun a => Fin.ext (by match a with | ⟨0, _⟩ => rfl | ⟨1, _⟩ => rfl)
theorem col3w (r k : Fin 4096) : Read.idx_main_v81 (ix1 r) k = ix2 r k :=
  funext fun a => Fin.ext (by match a with | ⟨0, _⟩ => rfl | ⟨1, _⟩ => rfl)
theorem col4p (r k : Fin 4096) : Read.idx_main_v97 (ix1 r) k = ix2 r k :=
  funext fun a => Fin.ext (by match a with | ⟨0, _⟩ => rfl | ⟨1, _⟩ => rfl)
theorem col4w (r k : Fin 4096) : Read.idx_main_v98 (ix1 r) k = ix2 r k :=
  funext fun a => Fin.ext (by match a with | ⟨0, _⟩ => rfl | ⟨1, _⟩ => rfl)

/-! ## The per-pair terms -/

/-- The hinge term of an intra-group positive pair. -/
theorem t1_eq (r c : Fin 4096) :
    Read.val_main_v51 (F := Ideal) x0 x1 x2 (ix2 r c) = RankSpec.t1 (X x0) (TG x1) (SB x2) r c := by
  rw [Read.val_main_v51_apply, Read.val_main_v47_apply, Read.val_main_v45_apply, Read.val_main_v44_apply,
    Read.val_main_cst_3_apply, Read.val_main_v46_apply, Read.val_main_cst_4_apply, Read.val_main_call1_v1_apply,
    Read.val_main_call1_v0_apply, Read.val_main_cst_6_apply, m1_eq, dist_eq]
  rfl

/-- The hinge term of a cross-group positive pair. -/
theorem t2_eq (r c : Fin 4096) :
    Read.val_main_v63 (F := Ideal) x0 x1 x2 (ix2 r c) = RankSpec.t2 (X x0) (TG x1) (SB x2) r c := by
  rw [Read.val_main_v63_apply, Read.val_main_v59_apply, Read.val_main_v57_apply, Read.val_main_v56_apply,
    Read.val_main_cst_9_apply, Read.val_main_v58_apply, Read.val_main_cst_10_apply, Read.val_main_call2_v1_apply,
    Read.val_main_call2_v0_apply, Read.val_main_cst_12_apply, m2_eq, dist_eq]
  rfl

/-- An intra-group negative pair closer than its threshold. -/
theorem near3_eq (r c : Fin 4096) :
    Read.val_main_v71 (F := Ideal) x0 x1 x2 (ix2 r c)
      = RankSpec.near 0x4019999A#32 (RankSpec.m3 (TG x1) (SB x2) r c) (RankSpec.dist (X x0) r c) := by
  rw [Read.val_main_v71_apply, Read.val_main_v70_apply, Read.val_main_v69_apply, Read.val_main_cst_15_apply, m3_eq, dist_eq]
  rfl

/-- Its gap to the threshold. -/
theorem gap3_eq (r c : Fin 4096) :
    Read.val_main_v73 (F := Ideal) x0 (ix2 r c) = RankSpec.gap 0x4019999A#32 (RankSpec.dist (X x0) r c) := by
  rw [Read.val_main_v73_apply, Read.val_main_v72_apply, Read.val_main_cst_16_apply, dist_eq]
  rfl

/-- Its weight. -/
theorem w3_eq (r c : Fin 4096) :
    Read.val_main_v77 (F := Ideal) x0 x1 x2 (ix2 r c) = RankSpec.w3 (X x0) (TG x1) (SB x2) r c := by
  rw [Read.val_main_v77_apply, Read.val_main_v76_apply, Read.val_main_v75_apply, Read.val_main_v74_apply,
    Read.val_main_cst_17_apply, Read.val_main_call3_v1_apply, Read.val_main_call3_v0_apply, Read.val_main_cst_18_apply,
    near3_eq, gap3_eq]
  rfl

/-- Its weighted gap. -/
theorem p3_eq (r c : Fin 4096) :
    Read.val_main_v79 (F := Ideal) x0 x1 x2 (ix2 r c) = RankSpec.p3 (X x0) (TG x1) (SB x2) r c := by
  rw [Read.val_main_v79_apply, Read.val_main_v78_apply, Read.val_main_call4_v1_apply, Read.val_main_call4_v0_apply,
    Read.val_main_cst_19_apply, near3_eq, gap3_eq, w3_eq]
  rfl

/-- A cross-group negative pair closer than its threshold. -/
theorem near4_eq (r c : Fin 4096) :
    Read.val_main_v88 (F := Ideal) x0 x1 x2 (ix2 r c)
      = RankSpec.near 0x400CCCCD#32 (RankSpec.m4 (TG x1) (SB x2) r c) (RankSpec.dist (X x0) r c) := by
  rw [Read.val_main_v88_apply, Read.val_main_v87_apply, Read.val_main_v86_apply, Read.val_main_cst_23_apply, m4_eq, dist_eq]
  rfl

/-- Its gap to the threshold. -/
theorem gap4_eq (r c : Fin 4096) :
    Read.val_main_v90 (F := Ideal) x0 (ix2 r c) = RankSpec.gap 0x400CCCCD#32 (RankSpec.dist (X x0) r c) := by
  rw [Read.val_main_v90_apply, Read.val_main_v89_apply, Read.val_main_cst_24_apply, dist_eq]
  rfl

/-- Its weight. -/
theorem w4_eq (r c : Fin 4096) :
    Read.val_main_v94 (F := Ideal) x0 x1 x2 (ix2 r c) = RankSpec.w4 (X x0) (TG x1) (SB x2) r c := by
  rw [Read.val_main_v94_apply, Read.val_main_v93_apply, Read.val_main_v92_apply, Read.val_main_v91_apply,
    Read.val_main_cst_25_apply, Read.val_main_call5_v1_apply, Read.val_main_call5_v0_apply, Read.val_main_cst_26_apply,
    near4_eq, gap4_eq]
  rfl

/-- Its weighted gap. -/
theorem p4_eq (r c : Fin 4096) :
    Read.val_main_v96 (F := Ideal) x0 x1 x2 (ix2 r c) = RankSpec.p4 (X x0) (TG x1) (SB x2) r c := by
  rw [Read.val_main_v96_apply, Read.val_main_v95_apply, Read.val_main_call6_v1_apply, Read.val_main_call6_v0_apply,
    Read.val_main_cst_27_apply, near4_eq, gap4_eq, w4_eq]
  rfl

/-! ## The six float row sums: the zero word plus the sum over the columns -/

theorem S1_eq (r : Fin 4096) :
    Read.val_main_v52 (F := Ideal) x0 x1 x2 (ix1 r) = RankSpec.rowSum (RankSpec.t1 (X x0) (TG x1) (SB x2)) r := by
  rw [Read.val_main_v52_apply, Read.val_main_cst_7_apply, Ideal.ofBits_def, Ideal.ofBits_zero_f32, zero_add]
  unfold RankSpec.rowSum
  refine Finset.sum_congr rfl fun k _ => ?_
  rw [col1, t1_eq]

theorem S2_eq (r : Fin 4096) :
    Read.val_main_v64 (F := Ideal) x0 x1 x2 (ix1 r) = RankSpec.rowSum (RankSpec.t2 (X x0) (TG x1) (SB x2)) r := by
  rw [Read.val_main_v64_apply, Read.val_main_cst_13_apply, Ideal.ofBits_def, Ideal.ofBits_zero_f32, zero_add]
  unfold RankSpec.rowSum
  refine Finset.sum_congr rfl fun k _ => ?_
  rw [col2, t2_eq]

theorem P3_eq (r : Fin 4096) :
    Read.val_main_v80 (F := Ideal) x0 x1 x2 (ix1 r) = RankSpec.rowSum (RankSpec.p3 (X x0) (TG x1) (SB x2)) r := by
  rw [Read.val_main_v80_apply, Read.val_main_cst_20_apply, Ideal.ofBits_def, Ideal.ofBits_zero_f32, zero_add]
  unfold RankSpec.rowSum
  refine Finset.sum_congr rfl fun k _ => ?_
  rw [col3p, p3_eq]

theorem W3_eq (r : Fin 4096) :
    Read.val_main_v81 (F := Ideal) x0 x1 x2 (ix1 r) = RankSpec.rowSum (RankSpec.w3 (X x0) (TG x1) (SB x2)) r := by
  rw [Read.val_main_v81_apply, Read.val_main_cst_21_apply, Ideal.ofBits_def, Ideal.ofBits_zero_f32, zero_add]
  unfold RankSpec.rowSum
  refine Finset.sum_congr rfl fun k _ => ?_
  rw [col3w, w3_eq]

theorem P4_eq (r : Fin 4096) :
    Read.val_main_v97 (F := Ideal) x0 x1 x2 (ix1 r) = RankSpec.rowSum (RankSpec.p4 (X x0) (TG x1) (SB x2)) r := by
  rw [Read.val_main_v97_apply, Read.val_main_cst_28_apply, Ideal.ofBits_def, Ideal.ofBits_zero_f32, zero_add]
  unfold RankSpec.rowSum
  refine Finset.sum_congr rfl fun k _ => ?_
  rw [col4p, p4_eq]

theorem W4_eq (r : Fin 4096) :
    Read.val_main_v98 (F := Ideal) x0 x1 x2 (ix1 r) = RankSpec.rowSum (RankSpec.w4 (X x0) (TG x1) (SB x2)) r := by
  rw [Read.val_main_v98_apply, Read.val_main_cst_29_apply, Ideal.ofBits_def, Ideal.ofBits_zero_f32, zero_add]
  unfold RankSpec.rowSum
  refine Finset.sum_congr rfl fun k _ => ?_
  rw [col4w, w4_eq]

/-! ## The two counts: the integer sum of the class indicators, converted -/

theorem N1_eq (r : Fin 4096) :
    Read.val_main_v50 (F := Ideal) x1 x2 (ix1 r) = RankSpec.rowSum (RankSpec.c1 (TG x1) (SB x2)) r := by
  rw [Read.val_main_v50_apply]
  unfold Read.val_main_v49 RankSpec.rowSum
  refine (CountSum.reduce_addi_row (Read.val_main_v48 (F := Ideal) x1 x2) (Read.val_main_c_5 (F := Ideal)) _ (by decide) _ rfl
    (fun i => ?_) (by norm_num) r).trans ?_
  · rw [Read.val_main_v48_apply]
    exact CountSum.toNat_setWidth_bit_le _
  · refine Finset.sum_congr rfl fun k _ => ?_
    rw [Read.val_main_v48_apply, m1_eq]
    rfl

theorem N2_eq (r : Fin 4096) :
    Read.val_main_v62 (F := Ideal) x1 x2 (ix1 r) = RankSpec.rowSum (RankSpec.c2 (TG x1) (SB x2)) r := by
  rw [Read.val_main_v62_apply]
  unfold Read.val_main_v61 RankSpec.rowSum
  refine (CountSum.reduce_addi_row (Read.val_main_v60 (F := Ideal) x1 x2) (Read.val_main_c_11 (F := Ideal)) _ (by decide) _ rfl
    (fun i => ?_) (by norm_num) r).trans ?_
  · rw [Read.val_main_v60_apply]
    exact CountSum.toNat_setWidth_bit_le _
  · refine Finset.sum_congr rfl fun k _ => ?_
    rw [Read.val_main_v60_apply, m2_eq]
    rfl

end Cert.ReferenceIdeal.RefLoss

end
-- ==== Proof.RefLoss.lean ====
/-
  The reference's result is the ranking loss of the normalised rows.

  Per row the reference divides each class's sum by its count or total weight plus a small constant, adds the four
  quotients left to right, sums the rows' losses from the zero word and divides by the word of 4096: the mean of the
  rows' losses, as the specification states it.
-/
import proofs.«125663_j9543417332489_1_alg».proof.Proof.RefLoss2
import proofs.«125663_j9543417332489_1_alg».proof.Proof.LibSumIdx1

noncomputable section

namespace Cert.ReferenceIdeal.RefLoss

open Idealize.ShloMosaic Idealize.ShloMosaic.ValueIdx Cert.ReferenceIdeal

variable (x0 : (⟨S4096x2048, .f32⟩ : BufTy).Contents (Elt Ideal)) (x1 x2 : (⟨S4096, .i32⟩ : BufTy).Contents (Elt Ideal))

/-- The loss of row `r`: the four shares, added left to right. -/
theorem rowLoss_eq (r : Fin 4096) :
    Read.val_main_v102 (F := Ideal) x0 x1 x2 (ix1 r) = RankSpec.rowLoss (X x0) (TG x1) (SB x2) r := by
  rw [Read.val_main_v102_apply, Read.val_main_v85_apply, Read.val_main_v68_apply,
    Read.val_main_v55_apply, Read.val_main_v54_apply, Read.val_main_v53_apply, Read.val_main_cst_8_apply,
    Read.val_main_v67_apply, Read.val_main_v66_apply, Read.val_main_v65_apply, Read.val_main_cst_14_apply,
    Read.val_main_v84_apply, Read.val_main_v83_apply, Read.val_main_v82_apply, Read.val_main_cst_22_apply,
    Read.val_main_v101_apply, Read.val_main_v100_apply, Read.val_main_v99_apply, Read.val_main_cst_30_apply,
    S1_eq, N1_eq, S2_eq, N2_eq, P3_eq, W3_eq, P4_eq, W4_eq]
  rfl

/-- The reference's result: the mean of the rows' losses. -/
theorem ref_eq' :
    Read.val_main_v104 (F := Ideal) x0 x1 x2 = fun _ => RankSpec.loss (X x0) (TG x1) (SB x2) := by
  funext i
  rw [Read.val_main_v104_apply, Read.val_main_v103_apply, Read.val_main_cst_31_apply, Read.val_main_cst_32_apply,
    Ideal.ofBits_def, Ideal.ofBits_zero_f32, zero_add, SumIdx1.sum_idx1]
  unfold RankSpec.loss
  rw [Ideal.hostDivf_def, Ideal.ofBits_def]
  refine congrArg (fun s => Ideal.div s _) (Finset.sum_congr rfl fun r _ => ?_)
  exact rowLoss_eq x0 x1 x2 r

theorem ref_eq (x0 : (⟨S4096x2048, .f32⟩ : BufTy).Contents (Elt Ideal)) (x1 x2 : (⟨S4096, .i32⟩ : BufTy).Contents (Elt Ideal)) :
    Cert.ReferenceIdeal.Read.val_main_v104 (F := Ideal) x0 x1 x2
      = fun _ => RankSpec.loss (fun r k => Cert.ReferenceIdeal.Read.val_main_v4 (F := Ideal) x0 (ValueIdx.ix2 r k))
          (fun r => x1 (ValueIdx.ix1 r)) (fun r => x2 (ValueIdx.ix1 r)) :=
  ref_eq' x0 x1 x2

end Cert.ReferenceIdeal.RefLoss

end
-- ==== Proof.KIClaims.lean ====
/-
  The claims about the idealized ranking-loss kernel and its reference.

  Both programs run; each leaves its three arguments as it found them; and at the ideal values, from memories that agree
  on the arguments, both end with the same result: the kernel program's mean of the row losses is the reference's
  result of the same arguments, because the rows the region reads are the reference's normalised rows, the labels and
  groups it reads are the arguments, each row's entry of the losses' array is the specification's row loss, and the
  reference's result is the specification's loss.
-/
import proofs.«125663_j9543417332489_1_alg».proof.Defs
import proofs.«125663_j9543417332489_1_alg».proof.Proof.KILaunch
import proofs.«125663_j9543417332489_1_alg».proof.Proof.KIFrameGen
import proofs.«125663_j9543417332489_1_alg».proof.Proof.KITail
import proofs.«125663_j9543417332489_1_alg».proof.Proof.KIVal8
import proofs.«125663_j9543417332489_1_alg».proof.Proof.RefLoss
import proofs.«125663_j9543417332489_1_alg».proof.Proof.Gen.ReferenceIdeal.Run
import proofs.«125663_j9543417332489_1_alg».proof.Proof.Gen.KernelIdeal
import proofs.«125663_j9543417332489_1_alg».proof.Proof.Gen.ReferenceIdeal
import proofs.«125663_j9543417332489_1_alg».proof.Proof.Gen.Pre_finite_inputs

set_option maxRecDepth 16384

noncomputable section

namespace Cert.Proof.Ideal

open Idealize.ShloMosaic Idealize.ShloMosaic.TcCoe Idealize.SL.Sem
open Cert.KernelIdeal Cert.KernelIdeal.Gen Cert.KernelIdeal.Hand Cert.KernelIdeal.Tail

/-! ## The kernel program's result is the reference's -/

/-- If every row's entry of the losses' array is the specification's row loss, the kernel program's result is the
    reference's result of the three launch arguments. -/
theorem kernel_eq_ref (m : (ℓ : Loc nD τ sig) → Buf (Elt Ideal) ℓ) (c : Dev nD)
    (hrow : ∀ r : Fin 4096, ((dats m 0 c).arrAt 6 cfg0.N : S4096.Idx → EReal) (ValueIdx.ix1 r)
      = RankSpec.rowLoss (fun r k => (W2 (F := Ideal) m c (Proc.devRef .tc main_v4) : S4096x2048.Idx → EReal) (ValueIdx.ix2 r k))
          (fun r => (W2 (F := Ideal) m c (Proc.devRef .tc main_arg1) : S4096.Idx → BitVec 32) (ValueIdx.ix1 r))
          (fun r => (W2 (F := Ideal) m c (Proc.devRef .tc main_arg2) : S4096.Idx → BitVec 32) (ValueIdx.ix1 r)) r) :
    W4 (F := Ideal) m c (Proc.devRef .tc main_v7)
      = Cert.ReferenceIdeal.Read.val_main_v104 (F := Ideal) (m (c, Proc.devRef .tc main_arg0)) (m (c, Proc.devRef .tc main_arg1))
          (m (c, Proc.devRef .tc main_arg2)) := by
  refine (result_loss m c hrow).trans ((Cert.ReferenceIdeal.RefLoss.ref_eq _ _ _).trans ?_).symm
  have hx : (fun (r : Fin 4096) (k : Fin 2048) => Cert.ReferenceIdeal.Read.val_main_v4 (F := Ideal) (m (c, Proc.devRef .tc main_arg0)) (ValueIdx.ix2 r k))
      = fun r k => (W2 (F := Ideal) m c (Proc.devRef .tc main_v4) : S4096x2048.Idx → EReal) (ValueIdx.ix2 r k) := by
    funext r k
    exact (congrFun (rows_eq m c) (ValueIdx.ix2 r k)).symm
  have ht : (fun (r : Fin 4096) => (m (c, Proc.devRef .tc main_arg1) : S4096.Idx → BitVec 32) (ValueIdx.ix1 r))
      = fun r => (W2 (F := Ideal) m c (Proc.devRef .tc main_arg1) : S4096.Idx → BitVec 32) (ValueIdx.ix1 r) := by
    funext r
    rw [W2_arg1]
  have hs : (fun (r : Fin 4096) => (m (c, Proc.devRef .tc main_arg2) : S4096.Idx → BitVec 32) (ValueIdx.ix1 r))
      = fun r => (W2 (F := Ideal) m c (Proc.devRef .tc main_arg2) : S4096.Idx → BitVec 32) (ValueIdx.ix1 r) := by
    funext r
    rw [W2_arg2]
  exact congrArg (fun L : EReal => fun _ : S_.Idx => L) (by rw [← hx, ← ht, ← hs])

/-! ## The claims -/

/-- The idealized kernel program runs and leaves its arguments as it found them. -/
theorem frame_pi : Cert.frame_KernelIdeal := fun m ρ _ => Cert.KernelIdeal.Tail.frame_gen (F := Ideal) m ρ

/-- The idealized reference runs and leaves its arguments as it found them. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories agreeing on the arguments, both programs end with the reference's result term
    of the kernel's launch arguments, and with their arguments unchanged. -/
theorem algebraic : Cert.algebraic_KernelIdeal_ReferenceIdeal := by
  intro m ρ m' ρ' _ hagree
  refine ⟨fun c => Cert.ReferenceIdeal.Read.val_main_v104 (F := Ideal) (m (c, Proc.devRef .tc main_arg0))
    (m (c, Proc.devRef .tc main_arg1)) (m (c, Proc.devRef .tc main_arg2)), ?_, ?_⟩
  · exact (θ_run Cert.KernelIdeal.defs _ _).mono (fun r h c =>
      ⟨(h c _ v7_uc).trans (kernel_eq_ref m c (Cert.KernelIdeal.Val.out_row m c)), (h c _ arg0_uc).trans (W4_arg0 m c),
        (h c _ arg1_uc).trans (W4_arg1 m c), (h c _ arg2_uc).trans (W4_arg2 m c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v104_eq, (hagree c).1, (hagree c).2.1, (hagree c).2.2]

end Cert.Proof.Ideal

end
-- ==== Proof.lean ====
/-
  The certificate of the ranking-loss kernel against its reference.

  Both programs normalise the 4096 rows of x, form the clamped Euclidean distance of every pair of rows, sort the pairs
  of each row by equal or different label, same or different group and off the diagonal into four classes, and average
  over the rows the sum of four quotients: for the two positive classes the hinge of the distance over the class's
  size, for the two negative classes the exponentially weighted gap over the total weight. The kernel does it on an
  8 × 8 grid of 512 × 512 tiles, adding the lane sums of each column block to eight accumulators that it zeroes at the
  first column block and turns into the row block's 512 losses at the last; the reference forms the whole
  4096 × 4096 matrices. On the extended reals the two are one function (RankSpec.loss): a row sum over 4096 columns is
  the sum of its eight column blocks, and a count of a class is the same integer whether it is summed as integers or
  as reals. No finiteness of the input is used.

  Frames: the kernel's run, at the word-level instance and at the ideal one, is proved against the pipeline library —
  the proof data names what every accumulator and the output block hold after each grid point —; the reference's is
  its run with the result dropped. The idealization rewrote nothing, so `preserves` has nothing to state.
-/
import proofs.«125663_j9543417332489_1_alg».proof.Defs
import proofs.«125663_j9543417332489_1_alg».proof.Proof.Gen.Kernel
import proofs.«125663_j9543417332489_1_alg».proof.Proof.Gen.KernelIdeal
import proofs.«125663_j9543417332489_1_alg».proof.Proof.Gen.ReferenceIdeal
import proofs.«125663_j9543417332489_1_alg».proof.Proof.Gen.Pre_finite_inputs
import proofs.«125663_j9543417332489_1_alg».proof.Proof.KBFrameGen
import proofs.«125663_j9543417332489_1_alg».proof.Proof.KIClaims

noncomputable section

namespace Cert.Proof

open Idealize.ShloMosaic Idealize.SL.Sem

/-- The word-level kernel runs to the end without a fault and leaves its three arguments unchanged. -/
theorem frame_p : Cert.frame_Kernel := fun m ρ _ => Cert.Kernel.Tail.frame_gen (F := Bits) m ρ

theorem claim : Cert.Claim :=
  ⟨Cert.Kernel.Gen.facts, Cert.KernelIdeal.Gen.facts, Cert.ReferenceIdeal.Gen.facts, Cert.Pre_finite_inputs.Gen.facts,
    frame_p, Ideal.frame_pi, Ideal.frame_ri, trivial, Ideal.algebraic⟩

end Cert.Proof

end
